-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v65)) (v1 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_v66) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1210000x128 : Shape := ⟨2, ![1210000, 128]⟩
abbrev S128x256 : Shape := ⟨2, ![128, 256]⟩
abbrev S256 : Shape := ⟨1, ![256]⟩
abbrev S256x1 : Shape := ⟨2, ![256, 1]⟩
abbrev S256x128 : Shape := ⟨2, ![256, 128]⟩
abbrev S128 : Shape := ⟨1, ![128]⟩
abbrev S128x1 : Shape := ⟨2, ![128, 1]⟩
abbrev S1100000 : Shape := ⟨1, ![1100000]⟩
abbrev S100000 : Shape := ⟨1, ![100000]⟩
abbrev S_ : Shape := ⟨0, ![]⟩

class Facts : Prop where
  bcast_S_S1210000x128 : S_.BroadcastsInDim S1210000x128 (![] : Fin 0 → Fin S1210000x128.rank)
  reducesTo_S1210000x128_S_d0_1 : S1210000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_

variable [Facts]

def fn_part1 {F : FTy → Type} [FloatOps F] (main_arg4 : FVec F S256x128 .f32) (main_arg5 : FVec F S128 .f32) (main_arg6 : FVec F S128x1 .f32) (main_v13 : IVec S_ 1) (main_v16 : IVec S256x1 1) : IVec S_ 1 :=
  let main_c_5 : IVec S_ 1 := constantI S_ 1 1#1
  let main_v17 : IVec S_ 1 := (fun x v => Host.reduce IntOp.andi x v reducesTo_S256x1_S_d0_1 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x1 .f32 := Host.absf main_arg6
  let main_cst_10 : FVec F S_ .f32 := constant S_ .f32 0x7F800000#32
  let main_v30 : FVec F S128x1 .f32 := broadcastInDim S128x1 ![] bcast_S_S128x1 main_cst_10
  let main_v31 : IVec S128x1 1 := cmpf .olt main_v29 main_v30
  let main_c_11 : IVec S_ 1 := constantI S_ 1 1#1
  let main_v32 : IVec S_ 1 := (fun x v => Host.reduce IntOp.andi x v reducesTo_S128x1_S_d0_1 h_S_) main_v31 main_c_11
  let main_v33 : IVec S_ 1 := andi main_v28 main_v32
  main_v33

def fn {F : FTy → Type} [FloatOps F] (main_arg0 : FVec F S1210000x128 .f32) (main_arg1 : FVec F S128x256 .f32) (main_arg2 : FVec F S256 .f32) (main_arg3 : FVec F S256x1 .f32) (main_arg4 : FVec F S256x128 .f32) (main_arg5 : FVec F S128 .f32) (main_arg6 : FVec F S128x1 .f32) (main_arg7 : IVec S1100000 32) (main_arg8 : IVec S1100000 32) (main_arg9 : IVec S100000 32) (main_arg10 : IVec S100000 32) : IVec S_ 1 :=
  let main_v0 : FVec F S1210000x128 .f32 := Host.absf main_arg0
  let main_cst : FVec F S_ .f32 := constant S_ .f32 0x7F800000#32
  let main_v1 : FVec F S1210000x128 .f32 := broadcastInDim S1210000x128 ![] bcast_S_S1210000x128 main_cst
  let main_v2 : IVec S1210000x128 1 := cmpf .olt main_v0 main_v1
  let main_c : IVec S_ 1 := constantI S_ 1 1#1
  let main_v3 : IVec S_ 1 := (fun x v => Host.reduce IntOp.andi x v reducesTo_S1210000x128_S_d0_1 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x1 .f32 := Host.absf main_arg3
  let main_cst_4 : FVec F S_ .f32 := constant S_ .f32 0x7F800000#32
  let main_v15 : FVec F S256x1 .f32 := broadcastInDim S256x1 ![] bcast_S_S256x1 main_cst_4
  let main_v16 : IVec S256x1 1 := cmpf .olt main_v14 main_v15
  fn_part1 (F := F) main_arg4 main_arg5 main_arg6 main_v13 main_v16
-- ==== Kernel.lean ====
abbrev S1210000x128 : Shape := ⟨2, ![1210000, 128]⟩
abbrev S128x256 : Shape := ⟨2, ![128, 256]⟩
abbrev S256 : Shape := ⟨1, ![256]⟩
abbrev S256x1 : Shape := ⟨2, ![256, 1]⟩
abbrev S256x128 : Shape := ⟨2, ![256, 128]⟩
abbrev S128 : Shape := ⟨1, ![128]⟩
abbrev S128x1 : Shape := ⟨2, ![128, 1]⟩
abbrev S1100000 : Shape := ⟨1, ![1100000]⟩
abbrev S100000 : Shape := ⟨1, ![100000]⟩
abbrev S_ : Shape := ⟨0, ![]⟩
abbrev S1210000 : Shape := ⟨1, ![1210000]⟩
abbrev S1100000x1 : Shape := ⟨2, ![1100000, 1]⟩
abbrev S110000 : Shape := ⟨1, ![110000]⟩
abbrev S100000x1 : Shape := ⟨2, ![100000, 1]⟩
abbrev S10000 : Shape := ⟨1, ![10000]⟩
abbrev S1100000x128 : Shape := ⟨2, ![1100000, 128]⟩
abbrev S110000x128 : Shape := ⟨2, ![110000, 128]⟩
abbrev S110000x1 : Shape := ⟨2, ![110000, 1]⟩
abbrev S110592x128 : Shape := ⟨2, ![110592, 128]⟩
abbrev S110000x2 : Shape := ⟨2, ![110000, 2]⟩
abbrev S110592x2 : Shape := ⟨2, ![110592, 2]⟩
abbrev S1x256 : Shape := ⟨2, ![1, 256]⟩
abbrev S110592x256 : Shape := ⟨2, ![110592, 256]⟩
abbrev S4096x128 : Shape := ⟨2, ![4096, 128]⟩
abbrev S4096x2 : Shape := ⟨2, ![4096, 2]⟩
abbrev S4096x256 : Shape := ⟨2, ![4096, 256]⟩
abbrev S4096x1 : Shape := ⟨2, ![4096, 1]⟩
abbrev S110000x256 : Shape := ⟨2, ![110000, 256]⟩
abbrev S100000x256 : Shape := ⟨2, ![100000, 256]⟩
abbrev S10000x256 : Shape := ⟨2, ![10000, 256]⟩
abbrev S10000x1 : Shape := ⟨2, ![10000, 1]⟩
abbrev S10240x256 : Shape := ⟨2, ![10240, 256]⟩
abbrev S10240x1 : Shape := ⟨2, ![10240, 1]⟩
abbrev S1x128 : Shape := ⟨2, ![1, 128]⟩
abbrev S10240x128 : Shape := ⟨2, ![10240, 128]⟩
abbrev S2048x256 : Shape := ⟨2, ![2048, 256]⟩
abbrev S2048x1 : Shape := ⟨2, ![2048, 1]⟩
abbrev S2048x128 : Shape := ⟨2, ![2048, 128]⟩
abbrev S10000x128 : Shape := ⟨2, ![10000, 128]⟩

abbrev nBuf : Space → Nat
  | .hbm => 115
  | .vmem => 20
  | .smem => 0
  | _ => 0

abbrev bufTy : (tb : Table) → Fin (tcTables nBuf tb) → BufTy
  | .hbm, ⟨0, _⟩ => ⟨S1210000x128, .f32⟩
  | .hbm, ⟨1, _⟩ => ⟨S128x256, .f32⟩
  | .hbm, ⟨2, _⟩ => ⟨S256, .f32⟩
  | .hbm, ⟨3, _⟩ => ⟨S256x1, .f32⟩
  | .hbm, ⟨4, _⟩ => ⟨S256x128, .f32⟩
  | .hbm, ⟨5, _⟩ => ⟨S128, .f32⟩
  | .hbm, ⟨6, _⟩ => ⟨S128x1, .f32⟩
  | .hbm, ⟨7, _⟩ => ⟨S1100000, .i32⟩
  | .hbm, ⟨8, _⟩ => ⟨S1100000, .i32⟩
  | .hbm, ⟨9, _⟩ => ⟨S100000, .i32⟩
  | .hbm, ⟨10, _⟩ => ⟨S100000, .i32⟩
  | .hbm, ⟨11, _⟩ => ⟨S_, .f32⟩
  | .hbm, ⟨12, _⟩ => ⟨S1100000, .f32⟩
  | .hbm, ⟨13, _⟩ => ⟨S_, .f32⟩
  | .hbm, ⟨14, _⟩ => ⟨S1210000, .f32⟩
  | .hbm, ⟨15, _⟩ => ⟨S1100000x1, .i32⟩
  | .hbm, ⟨16, _⟩ => ⟨S1210000, .f32⟩
  | .hbm, ⟨17, _⟩ => ⟨S_, .f32⟩
  | .hbm, ⟨18, _⟩ => ⟨S_, .f32⟩
  | .hbm, ⟨19, _⟩ => ⟨S1210000, .f32⟩
  | .hbm, ⟨20, _⟩ => ⟨S1210000, .f32⟩
  | .hbm, ⟨21, _⟩ => ⟨S_, .f32⟩
  | .hbm, ⟨22, _⟩ => ⟨S1100000, .f32⟩
  | .hbm, ⟨23, _⟩ => ⟨S_, .f32⟩
  | .hbm, ⟨24, _⟩ => ⟨S110000, .f32⟩
  | .hbm, ⟨25, _⟩ => ⟨S1100000x1, .i32⟩
  | .hbm, ⟨26, _⟩ => ⟨S110000, .f32⟩
  | .hbm, ⟨27, _⟩ => ⟨S_, .f32⟩
  | .hbm, ⟨28, _⟩ => ⟨S_, .f32⟩
  | .hbm, ⟨29, _⟩ => ⟨S110000, .f32⟩
  | .hbm, ⟨30, _⟩ => ⟨S110000, .f32⟩
  | .hbm, ⟨31, _⟩ => ⟨S_, .f32⟩
  | .hbm, ⟨32, _⟩ => ⟨S100000, .f32⟩
  | .hbm, ⟨33, _⟩ => ⟨S_, .f32⟩
  | .hbm, ⟨34, _⟩ => ⟨S110000, .f32⟩
  | .hbm, ⟨35, _⟩ => ⟨S100000x1, .i32⟩
  | .hbm, ⟨36, _⟩ => ⟨S110000, .f32⟩
  | .hbm, ⟨37, _⟩ => ⟨S_, .f32⟩
  | .hbm, ⟨38, _⟩ => ⟨S_, .f32⟩
  | .hbm, ⟨39, _⟩ => ⟨S110000, .f32⟩
  | .hbm, ⟨40, _⟩ => ⟨S110000, .f32⟩
  | .hbm, ⟨41, _⟩ => ⟨S_, .f32⟩
  | .hbm, ⟨42, _⟩ => ⟨S100000, .f32⟩
  | .hbm, ⟨43, _⟩ => ⟨S_, .f32⟩
  | .hbm, ⟨44, _⟩ => ⟨S10000, .f32⟩
  | .hbm, ⟨45, _⟩ => ⟨S100000x1, .i32⟩
  | .hbm, ⟨46, _⟩ => ⟨S10000, .f32⟩
  | .hbm, ⟨47, _⟩ => ⟨S_, .f32⟩
  | .hbm, ⟨48, _⟩ => ⟨S_, .f32⟩
  | .hbm, ⟨49, _⟩ => ⟨S10000, .f32⟩
  | .hbm, ⟨50, _⟩ => ⟨S10000, .f32⟩
  | .hbm, ⟨51, _⟩ => ⟨S1210000, .f32⟩
  | .hbm, ⟨52, _⟩ => ⟨S110000, .f32⟩
  | .hbm, ⟨53, _⟩ => ⟨S_, .i32⟩
  | .hbm, ⟨54, _⟩ => ⟨S1100000, .i32⟩
  | .hbm, ⟨55, _⟩ => ⟨S1100000, .i1⟩
  | .hbm, ⟨56, _⟩ => ⟨S_, .i32⟩
  | .hbm, ⟨57, _⟩ => ⟨S1100000, .i32⟩
  | .hbm, ⟨58, _⟩ => ⟨S1100000, .i32⟩
  | .hbm, ⟨59, _⟩ => ⟨S1100000, .i32⟩
  | .hbm, ⟨60, _⟩ => ⟨S1100000x1, .i32⟩
  | .hbm, ⟨61, _⟩ => ⟨S1100000x128, .f32⟩
  | .hbm, ⟨62, _⟩ => ⟨S_, .i32⟩
  | .hbm, ⟨63, _⟩ => ⟨S1100000, .i32⟩
  | .hbm, ⟨64, _⟩ => ⟨S1100000, .i1⟩
  | .hbm, ⟨65, _⟩ => ⟨S_, .i32⟩
  | .hbm, ⟨66, _⟩ => ⟨S1100000, .i32⟩
  | .hbm, ⟨67, _⟩ => ⟨S1100000, .i32⟩
  | .hbm, ⟨68, _⟩ => ⟨S1100000, .i32⟩
  | .hbm, ⟨69, _⟩ => ⟨S1100000x1, .i32⟩
  | .hbm, ⟨70, _⟩ => ⟨S1100000, .f32⟩
  | .hbm, ⟨71, _⟩ => ⟨S1100000x1, .f32⟩
  | .hbm, ⟨72, _⟩ => ⟨S1100000x128, .f32⟩
  | .hbm, ⟨73, _⟩ => ⟨S1100000x128, .f32⟩
  | .hbm, ⟨74, _⟩ => ⟨S_, .f32⟩
  | .hbm, ⟨75, _⟩ => ⟨S110000x128, .f32⟩
  | .hbm, ⟨76, _⟩ => ⟨S1100000x1, .i32⟩
  | .hbm, ⟨77, _⟩ => ⟨S110000x128, .f32⟩
  | .hbm, ⟨78, _⟩ => ⟨S110000x1, .f32⟩
  | .hbm, ⟨79, _⟩ => ⟨S110000x1, .f32⟩
  | .hbm, ⟨80, _⟩ => ⟨S_, .f32⟩
  | .hbm, ⟨81, _⟩ => ⟨S_, .f32⟩
  | .hbm, ⟨82, _⟩ => ⟨S110592x128, .f32⟩
  | .hbm, ⟨83, _⟩ => ⟨S110000x2, .f32⟩
  | .hbm, ⟨84, _⟩ => ⟨S_, .f32⟩
  | .hbm, ⟨85, _⟩ => ⟨S_, .f32⟩
  | .hbm, ⟨86, _⟩ => ⟨S110592x2, .f32⟩
  | .hbm, ⟨87, _⟩ => ⟨S1x256, .f32⟩
  | .hbm, ⟨88, _⟩ => ⟨S110592x256, .f32⟩
  | .hbm, ⟨89, _⟩ => ⟨S110000x256, .f32⟩
  | .hbm, ⟨90, _⟩ => ⟨S_, .i32⟩
  | .hbm, ⟨91, _⟩ => ⟨S100000, .i32⟩
  | .hbm, ⟨92, _⟩ => ⟨S100000, .i1⟩
  | .hbm, ⟨93, _⟩ => ⟨S_, .i32⟩
  | .hbm, ⟨94, _⟩ => ⟨S100000, .i32⟩
  | .hbm, ⟨95, _⟩ => ⟨S100000, .i32⟩
  | .hbm, ⟨96, _⟩ => ⟨S100000, .i32⟩
  | .hbm, ⟨97, _⟩ => ⟨S100000x1, .i32⟩
  | .hbm, ⟨98, _⟩ => ⟨S100000x256, .f32⟩
  | .hbm, ⟨99, _⟩ => ⟨S_, .f32⟩
  | .hbm, ⟨100, _⟩ => ⟨S10000x256, .f32⟩
  | .hbm, ⟨101, _⟩ => ⟨S100000x1, .i32⟩
  | .hbm, ⟨102, _⟩ => ⟨S10000x256, .f32⟩
  | .hbm, ⟨103, _⟩ => ⟨S10000x1, .f32⟩
  | .hbm, ⟨104, _⟩ => ⟨S_, .f32⟩
  | .hbm, ⟨105, _⟩ => ⟨S_, .f32⟩
  | .hbm, ⟨106, _⟩ => ⟨S10240x256, .f32⟩
  | .hbm, ⟨107, _⟩ => ⟨S_, .f32⟩
  | .hbm, ⟨108, _⟩ => ⟨S_, .f32⟩
  | .hbm, ⟨109, _⟩ => ⟨S10240x1, .f32⟩
  | .hbm, ⟨110, _⟩ => ⟨S1x128, .f32⟩
  | .hbm, ⟨111, _⟩ => ⟨S10240x128, .f32⟩
  | .hbm, ⟨112, _⟩ => ⟨S10240x1, .f32⟩
  | .hbm, ⟨113, _⟩ => ⟨S10000x128, .f32⟩
  | .hbm, ⟨114, _⟩ => ⟨S10000x1, .f32⟩
  | .local _ .vmem, ⟨0, _⟩ => ⟨S4096x128, .f32⟩
  | .local _ .vmem, ⟨1, _⟩ => ⟨S4096x128, .f32⟩
  | .local _ .vmem, ⟨2, _⟩ => ⟨S4096x2, .f32⟩
  | .local _ .vmem, ⟨3, _⟩ => ⟨S4096x2, .f32⟩
  | .local _ .vmem, ⟨4, _⟩ => ⟨S128x256, .f32⟩
  | .local _ .vmem, ⟨5, _⟩ => ⟨S1x256, .f32⟩
  | .local _ .vmem, ⟨6, _⟩ => ⟨S256x1, .f32⟩
  | .local _ .vmem, ⟨7, _⟩ => ⟨S4096x256, .f32⟩
  | .local _ .vmem, ⟨8, _⟩ => ⟨S4096x256, .f32⟩
  | .local _ .vmem, ⟨9, _⟩ => ⟨S2048x256, .f32⟩
  | .local _ .vmem, ⟨10, _⟩ => ⟨S2048x256, .f32⟩
  | .local _ .vmem, ⟨11, _⟩ => ⟨S2048x1, .f32⟩
  | .local _ .vmem, ⟨12, _⟩ => ⟨S2048x1, .f32⟩
  | .local _ .vmem, ⟨13, _⟩ => ⟨S256x128, .f32⟩
  | .local _ .vmem, ⟨14, _⟩ => ⟨S1x128, .f32⟩
  | .local _ .vmem, ⟨15, _⟩ => ⟨S128x1, .f32⟩
  | .local _ .vmem, ⟨16, _⟩ => ⟨S2048x128, .f32⟩
  | .local _ .vmem, ⟨17, _⟩ => ⟨S2048x128, .f32⟩
  | .local _ .vmem, ⟨18, _⟩ => ⟨S2048x1, .f32⟩
  | .local _ .vmem, ⟨19, _⟩ => ⟨S2048x1, .f32⟩
  | _, _ => ⟨S1210000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_v4 : Ref sig .tc := ⟨.hbm, 20, rfl⟩
abbrev main_cst_2 : Ref sig .tc := ⟨.hbm, 21, rfl⟩
abbrev main_v5 : Ref sig .tc := ⟨.hbm, 22, rfl⟩
abbrev main_cst_3 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst_4 : Ref sig .tc := ⟨.hbm, 27, rfl⟩
abbrev main_call1_v0 : Ref sig .tc := ⟨.hbm, 28, rfl⟩
abbrev main_call1_v1 : Ref sig .tc := ⟨.hbm, 29, rfl⟩
abbrev main_v9 : Ref sig .tc := ⟨.hbm, 30, rfl⟩
abbrev main_cst_5 : Ref sig .tc := ⟨.hbm, 31, rfl⟩
abbrev main_v10 : Ref sig .tc := ⟨.hbm, 32, rfl⟩
abbrev main_cst_6 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_cst_7 : Ref sig .tc := ⟨.hbm, 37, rfl⟩
abbrev main_call2_v0 : Ref sig .tc := ⟨.hbm, 38, rfl⟩
abbrev main_call2_v1 : Ref sig .tc := ⟨.hbm, 39, rfl⟩
abbrev main_v14 : Ref sig .tc := ⟨.hbm, 40, rfl⟩
abbrev main_cst_8 : Ref sig .tc := ⟨.hbm, 41, rfl⟩
abbrev main_v15 : Ref sig .tc := ⟨.hbm, 42, rfl⟩
abbrev main_cst_9 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_cst_10 : Ref sig .tc := ⟨.hbm, 47, rfl⟩
abbrev main_call3_v0 : Ref sig .tc := ⟨.hbm, 48, rfl⟩
abbrev main_call3_v1 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_c : Ref sig .tc := ⟨.hbm, 53, rfl⟩
abbrev main_v22 : Ref sig .tc := ⟨.hbm, 54, rfl⟩
abbrev main_v23 : Ref sig .tc := ⟨.hbm, 55, rfl⟩
abbrev main_c_11 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_c_12 : Ref sig .tc := ⟨.hbm, 62, rfl⟩
abbrev main_v29 : Ref sig .tc := ⟨.hbm, 63, rfl⟩
abbrev main_v30 : Ref sig .tc := ⟨.hbm, 64, rfl⟩
abbrev main_c_13 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_cst_14 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_cst_15 : Ref sig .tc := ⟨.hbm, 80, rfl⟩
abbrev main_call4_v0 : Ref sig .tc := ⟨.hbm, 81, rfl⟩
abbrev main_v44 : Ref sig .tc := ⟨.hbm, 82, rfl⟩
abbrev main_v45 : Ref sig .tc := ⟨.hbm, 83, rfl⟩
abbrev main_cst_16 : Ref sig .tc := ⟨.hbm, 84, rfl⟩
abbrev main_call5_v0 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_c_17 : Ref sig .tc := ⟨.hbm, 90, rfl⟩
abbrev main_v50 : Ref sig .tc := ⟨.hbm, 91, rfl⟩
abbrev main_v51 : Ref sig .tc := ⟨.hbm, 92, rfl⟩
abbrev main_c_18 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_cst_19 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_cst_20 : Ref sig .tc := ⟨.hbm, 104, rfl⟩
abbrev main_call6_v0 : Ref sig .tc := ⟨.hbm, 105, rfl⟩
abbrev main_v61 : Ref sig .tc := ⟨.hbm, 106, rfl⟩
abbrev main_cst_21 : Ref sig .tc := ⟨.hbm, 107, rfl⟩
abbrev main_call7_v0 : Ref sig .tc := ⟨.hbm, 108, rfl⟩
abbrev main_v62 : Ref sig .tc := ⟨.hbm, 109, rfl⟩
abbrev main_v63 : Ref sig .tc := ⟨.hbm, 110, rfl⟩
abbrev main_v64_0 : Ref sig .tc := ⟨.hbm, 111, rfl⟩
abbrev main_v64_1 : Ref sig .tc := ⟨.hbm, 112, rfl⟩
abbrev main_v65 : Ref sig .tc := ⟨.hbm, 113, rfl⟩
abbrev main_v66 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![27], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2048x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2048x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S1100000 : S_.BroadcastsInDim S1100000 (![] : Fin 0 → Fin S1100000.rank)
  bcast_S_S1210000 : S_.BroadcastsInDim S1210000 (![] : Fin 0 → Fin S1210000.rank)
  bcast_S1100000_S1100000x1_0 : S1100000.BroadcastsInDim S1100000x1 (![0] : Fin 1 → Fin S1100000x1.rank)
  bcast_S_S110000 : S_.BroadcastsInDim S110000 (![] : Fin 0 → Fin S110000.rank)
  bcast_S_S100000 : S_.BroadcastsInDim S100000 (![] : Fin 0 → Fin S100000.rank)
  bcast_S100000_S100000x1_0 : S100000.BroadcastsInDim S100000x1 (![0] : Fin 1 → Fin S100000x1.rank)
  bcast_S_S10000 : S_.BroadcastsInDim S10000 (![] : Fin 0 → Fin S10000.rank)
  bcast_S1100000x1_S1100000x128_0_1 : S1100000x1.BroadcastsInDim S1100000x128 (![0, 1] : Fin 2 → Fin S1100000x128.rank)
  bcast_S_S110000x128 : S_.BroadcastsInDim S110000x128 (![] : Fin 0 → Fin S110000x128.rank)
  bcast_S110000_S110000x1_0 : S110000.BroadcastsInDim S110000x1 (![0] : Fin 1 → Fin S110000x1.rank)
  pads_S110000x128_S110592x128_05920_000 : S110000x128.Pads (![0, 0] : Fin 2 → Nat) ![592, 0] ![0, 0] S110592x128
  h_S_ : 0 < S_.numel
  concatenates_S110000x1_S110000x1_S110000x2_d1 : Shape.Concatenates [S110000x1, S110000x1] S110000x2 1
  pads_S110000x2_S110592x2_05920_000 : S110000x2.Pads (![0, 0] : Fin 2 → Nat) ![592, 0] ![0, 0] S110592x2
  shapeCasts_S256_S1x256 : S256.ShapeCasts S1x256
  inb_S4096x2_S4096x1_0_0 : ∀ a, (![0, 0] : Fin 2 → Nat) a + S4096x1.size a ≤ S4096x2.size a
  h_S4096x1 : 0 < S4096x1.numel
  shapeCasts_S4096x1_S4096x1 : S4096x1.ShapeCasts S4096x1
  inb_S4096x2_S4096x1_0_1 : ∀ a, (![0, 1] : Fin 2 → Nat) a + S4096x1.size a ≤ S4096x2.size a
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  broadcasts_S4096x1_S4096x128 : S4096x1.Broadcasts S4096x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  inb_S256x1_S256x1_0_0 : ∀ a, (![0, 0] : Fin 2 → Nat) a + S256x1.size a ≤ S256x1.size a
  h_S256x1 : 0 < S256x1.numel
  broadcasts_S4096x1_S4096x256 : S4096x1.Broadcasts S4096x256
  inb_S4096x256_S4096x256_0_0 : ∀ a, (![0, 0] : Fin 2 → Nat) a + S4096x256.size a ≤ S4096x256.size a
  h_S4096x256 : 0 < S4096x256.numel
  slices_S110592x256_S110000x256_0_0 : S110592x256.Slices ![0, 0] S110000x256
  bcast_S_S10000x256 : S_.BroadcastsInDim S10000x256 (![] : Fin 0 → Fin S10000x256.rank)
  bcast_S10000_S10000x1_0 : S10000.BroadcastsInDim S10000x1 (![0] : Fin 1 → Fin S10000x1.rank)
  pads_S10000x256_S10240x256_02400_000 : S10000x256.Pads (![0, 0] : Fin 2 → Nat) ![240, 0] ![0, 0] S10240x256
  pads_S10000x1_S10240x1_02400_000 : S10000x1.Pads (![0, 0] : Fin 2 → Nat) ![240, 0] ![0, 0] S10240x1
  shapeCasts_S128_S1x128 : S128.ShapeCasts S1x128
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  broadcasts_S2048x1_S2048x256 : S2048x1.Broadcasts S2048x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S128x1_S128x1_0_0 : ∀ a, (![0, 0] : Fin 2 → Nat) a + S128x1.size a ≤ S128x1.size a
  h_S128x1 : 0 < S128x1.numel
  broadcasts_S2048x1_S2048x128 : S2048x1.Broadcasts S2048x128
  inb_S2048x128_S2048x128_0_0 : ∀ a, (![0, 0] : Fin 2 → Nat) a + S2048x128.size a ≤ S2048x128.size a
  h_S2048x128 : 0 < S2048x128.numel
  slices_S10240x128_S10000x128_0_0 : S10240x128.Slices ![0, 0] S10000x128
  slices_S10240x1_S10000x1_0_0 : S10240x1.Slices ![0, 0] S10000x1
  scatter_S1210000_S1100000x1_S1100000_n_0_0_1_wf : ScatterDims.WF S1210000 S1100000x1 S1100000 [] [0] [0] 1
  scatter_S110000_S1100000x1_S1100000_n_0_0_1_wf : ScatterDims.WF S110000 S1100000x1 S1100000 [] [0] [0] 1
  scatter_S110000_S100000x1_S100000_n_0_0_1_wf : ScatterDims.WF S110000 S100000x1 S100000 [] [0] [0] 1
  scatter_S10000_S100000x1_S100000_n_0_0_1_wf : ScatterDims.WF S10000 S100000x1 S100000 [] [0] [0] 1
  gather_S1210000x128_S1100000x1_S1100000x128_1_0_n_n_0_1_1128_wf : GatherDims.WF S1210000x128 S1100000x1 S1100000x128 [1] [0] [] [0] [] 1 ![1, 128]
  gather_S1210000_S1100000x1_S1100000_n_0_n_n_0_1_1_wf : GatherDims.WF S1210000 S1100000x1 S1100000 [] [0] [] [0] [] 1 ![1]
  scatter_S110000x128_S1100000x1_S1100000x128_1_0_0_1_wf : ScatterDims.WF S110000x128 S1100000x1 S1100000x128 [1] [0] [0] 1
  dot_S4096x128_S128x256_S4096x256_1_0_0_1_n_n_wf : DotDims.WF S4096x128 S128x256 S4096x256 [1] [0] [0] [1] [] []
  dot_S4096x256_S256x1_S4096x1_1_0_0_1_n_n_wf : DotDims.WF S4096x256 S256x1 S4096x1 [1] [0] [0] [1] [] []
  gather_S110000x256_S100000x1_S100000x256_1_0_n_n_0_1_1256_wf : GatherDims.WF S110000x256 S100000x1 S100000x256 [1] [0] [] [0] [] 1 ![1, 256]
  scatter_S10000x256_S100000x1_S100000x256_1_0_0_1_wf : ScatterDims.WF S10000x256 S100000x1 S100000x256 [1] [0] [0] 1
  dot_S2048x256_S256x128_S2048x128_1_0_0_1_n_n_wf : DotDims.WF S2048x256 S256x128 S2048x128 [1] [0] [0] [1] [] []
  dot_S2048x128_S128x1_S2048x1_1_0_0_1_n_n_wf : DotDims.WF S2048x128 S128x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S110592x128.size a
  hwx0_0 : ∀ i : grid0.Coords, EltTy.bits .f32 = 32 ∨ (Rect.block (s := S110592x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x2.size a ≤ S110592x2.size a
  hwx0_1 : ∀ i : grid0.Coords, EltTy.bits .f32 = 32 ∨ (Rect.block (s := S110592x2) S4096x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S256x1.size a
  hwx0_4 : ∀ i : grid0.Coords, EltTy.bits .f32 = 32 ∨ (Rect.block (s := S256x1) S256x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x256.size a ≤ S110592x256.size a
  hwx0_5 : ∀ i : grid0.Coords, EltTy.bits .f32 = 32 ∨ (Rect.block (s := S110592x256) S4096x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S10240x256.size a
  hwx1_0 : ∀ i : grid1.Coords, EltTy.bits .f32 = 32 ∨ (Rect.block (s := S10240x256) S2048x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1.size a ≤ S10240x1.size a
  hwx1_1 : ∀ i : grid1.Coords, EltTy.bits .f32 = 32 ∨ (Rect.block (s := S10240x1) S2048x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x1.size a ≤ S128x1.size a
  hwx1_4 : ∀ i : grid1.Coords, EltTy.bits .f32 = 32 ∨ (Rect.block (s := S128x1) S128x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2048x128.size a ≤ S10240x128.size a
  hwx1_5 : ∀ i : grid1.Coords, EltTy.bits .f32 = 32 ∨ (Rect.block (s := S10240x128) S2048x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2048x1.size a ≤ S10240x1.size a
  hwx1_6 : ∀ i : grid1.Coords, EltTy.bits .f32 = 32 ∨ (Rect.block (s := S10240x1) S2048x1.size (cc1_transform_6 i) (hinb1_6 i)).WholeWords (EltTy.packing .f32)

variable [Facts₀]

def scatter_S1210000_S1100000x1_S1100000_n_0_0_1 : ScatterDims S1210000 S1100000x1 S1100000 where
  updateWindowDims := []
  insertedWindowDims := [0]
  scatterDimsToOperandDims := [0]
  indexVectorDim := 1
  wf := scatter_S1210000_S1100000x1_S1100000_n_0_0_1_wf
def scatter_S110000_S1100000x1_S1100000_n_0_0_1 : ScatterDims S110000 S1100000x1 S1100000 where
  updateWindowDims := []
  insertedWindowDims := [0]
  scatterDimsToOperandDims := [0]
  indexVectorDim := 1
  wf := scatter_S110000_S1100000x1_S1100000_n_0_0_1_wf
def scatter_S110000_S100000x1_S100000_n_0_0_1 : ScatterDims S110000 S100000x1 S100000 where
  updateWindowDims := []
  insertedWindowDims := [0]
  scatterDimsToOperandDims := [0]
  indexVectorDim := 1
  wf := scatter_S110000_S100000x1_S100000_n_0_0_1_wf
def scatter_S10000_S100000x1_S100000_n_0_0_1 : ScatterDims S10000 S100000x1 S100000 where
  updateWindowDims := []
  insertedWindowDims := [0]
  scatterDimsToOperandDims := [0]
  indexVectorDim := 1
  wf := scatter_S10000_S100000x1_S100000_n_0_0_1_wf
def gather_S1210000x128_S1100000x1_S1100000x128_1_0_n_n_0_1_1128 : GatherDims S1210000x128 S1100000x1 S1100000x128 where
  offsetDims := [1]
  collapsedSliceDims := [0]
  operandBatchingDims := []
  startIndicesBatchingDims := []
  startIndexMap := [0]
  indexVectorDim := 1
  sliceSizes := ![1, 128]
  wf := gather_S1210000x128_S1100000x1_S1100000x128_1_0_n_n_0_1_1128_wf
def gather_S1210000_S1100000x1_S1100000_n_0_n_n_0_1_1 : GatherDims S1210000 S1100000x1 S1100000 where
  offsetDims := []
  collapsedSliceDims := [0]
  operandBatchingDims := []
  startIndicesBatchingDims := []
  startIndexMap := [0]
  indexVectorDim := 1
  sliceSizes := ![1]
  wf := gather_S1210000_S1100000x1_S1100000_n_0_n_n_0_1_1_wf
def scatter_S110000x128_S1100000x1_S1100000x128_1_0_0_1 : ScatterDims S110000x128 S1100000x1 S1100000x128 where
  updateWindowDims := [1]
  insertedWindowDims := [0]
  scatterDimsToOperandDims := [0]
  indexVectorDim := 1
  wf := scatter_S110000x128_S1100000x1_S1100000x128_1_0_0_1_wf
def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf
def dot_S4096x256_S256x1_S4096x1_1_0_0_1_n_n : DotDims S4096x256 S256x1 S4096x1 where
  lhsContracting := [1]
  rhsContracting := [0]
  lhsNonContracting := [0]
  rhsNonContracting := [1]
  lhsBatch := []
  rhsBatch := []
  wf := dot_S4096x256_S256x1_S4096x1_1_0_0_1_n_n_wf
def gather_S110000x256_S100000x1_S100000x256_1_0_n_n_0_1_1256 : GatherDims S110000x256 S100000x1 S100000x256 where
  offsetDims := [1]
  collapsedSliceDims := [0]
  operandBatchingDims := []
  startIndicesBatchingDims := []
  startIndexMap := [0]
  indexVectorDim := 1
  sliceSizes := ![1, 256]
  wf := gather_S110000x256_S100000x1_S100000x256_1_0_n_n_0_1_1256_wf
def scatter_S10000x256_S100000x1_S100000x256_1_0_0_1 : ScatterDims S10000x256 S100000x1 S100000x256 where
  updateWindowDims := [1]
  insertedWindowDims := [0]
  scatterDimsToOperandDims := [0]
  indexVectorDim := 1
  wf := scatter_S10000x256_S100000x1_S100000x256_1_0_0_1_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x128_S128x1_S2048x1_1_0_0_1_n_n : DotDims S2048x128 S128x1 S2048x1 where
  lhsContracting := [1]
  rhsContracting := [0]
  lhsNonContracting := [0]
  rhsNonContracting := [1]
  lhsBatch := []
  rhsBatch := []
  wf := dot_S2048x128_S128x1_S2048x1_1_0_0_1_n_n_wf

abbrev win0_0 : Pipeline.Window sig grid0 :=
  Pipeline.Window.ofSpec (Memref.whole main_v44) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v46) S4096x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v47) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S256x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v48) S4096x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v61) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v62) S2048x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v63) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v64_0) S2048x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v64_1) S2048x1.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S1210000x128 : Shape := ⟨2, ![1210000, 128]⟩
abbrev S128x256 : Shape := ⟨2, ![128, 256]⟩
abbrev S256 : Shape := ⟨1, ![256]⟩
abbrev S256x1 : Shape := ⟨2, ![256, 1]⟩
abbrev S256x128 : Shape := ⟨2, ![256, 128]⟩
abbrev S128 : Shape := ⟨1, ![128]⟩
abbrev S128x1 : Shape := ⟨2, ![128, 1]⟩
abbrev S1100000 : Shape := ⟨1, ![1100000]⟩
abbrev S100000 : Shape := ⟨1, ![100000]⟩
abbrev S_ : Shape := ⟨0, ![]⟩
abbrev S1210000 : Shape := ⟨1, ![1210000]⟩
abbrev S1100000x1 : Shape := ⟨2, ![1100000, 1]⟩
abbrev S110000 : Shape := ⟨1, ![110000]⟩
abbrev S1210000x1 : Shape := ⟨2, ![1210000, 1]⟩
abbrev S1100000x128 : Shape := ⟨2, ![1100000, 128]⟩
abbrev S110000x128 : Shape := ⟨2, ![110000, 128]⟩
abbrev S110000x1 : Shape := ⟨2, ![110000, 1]⟩
abbrev S110000x256 : Shape := ⟨2, ![110000, 256]⟩
abbrev S1x256 : Shape := ⟨2, ![1, 256]⟩
abbrev S100000x1 : Shape := ⟨2, ![100000, 1]⟩
abbrev S10000 : Shape := ⟨1, ![10000]⟩
abbrev S100000x256 : Shape := ⟨2, ![100000, 256]⟩
abbrev S10000x256 : Shape := ⟨2, ![10000, 256]⟩
abbrev S10000x1 : Shape := ⟨2, ![10000, 1]⟩
abbrev S10000x128 : Shape := ⟨2, ![10000, 128]⟩
abbrev S1x128 : Shape := ⟨2, ![1, 128]⟩

abbrev nBuf : Space → Nat
  | .hbm => 119
  | .vmem => 0
  | .smem => 0
  | _ => 0

abbrev bufTy : (tb : Table) → Fin (tcTables nBuf tb) → BufTy
  | .hbm, ⟨0, _⟩ => ⟨S1210000x128, .f32⟩
  | .hbm, ⟨1, _⟩ => ⟨S128x256, .f32⟩
  | .hbm, ⟨2, _⟩ => ⟨S256, .f32⟩
  | .hbm, ⟨3, _⟩ => ⟨S256x1, .f32⟩
  | .hbm, ⟨4, _⟩ => ⟨S256x128, .f32⟩
  | .hbm, ⟨5, _⟩ => ⟨S128, .f32⟩
  | .hbm, ⟨6, _⟩ => ⟨S128x1, .f32⟩
  | .hbm, ⟨7, _⟩ => ⟨S1100000, .i32⟩
  | .hbm, ⟨8, _⟩ => ⟨S1100000, .i32⟩
  | .hbm, ⟨9, _⟩ => ⟨S100000, .i32⟩
  | .hbm, ⟨10, _⟩ => ⟨S100000, .i32⟩
  | .hbm, ⟨11, _⟩ => ⟨S_, .f32⟩
  | .hbm, ⟨12, _⟩ => ⟨S1100000, .f32⟩
  | .hbm, ⟨13, _⟩ => ⟨S_, .f32⟩
  | .hbm, ⟨14, _⟩ => ⟨S1210000, .f32⟩
  | .hbm, ⟨15, _⟩ => ⟨S1100000x1, .i32⟩
  | .hbm, ⟨16, _⟩ => ⟨S1210000, .f32⟩
  | .hbm, ⟨17, _⟩ => ⟨S_, .f32⟩
  | .hbm, ⟨18, _⟩ => ⟨S_, .f32⟩
  | .hbm, ⟨19, _⟩ => ⟨S1210000, .f32⟩
  | .hbm, ⟨20, _⟩ => ⟨S1210000, .f32⟩
  | .hbm, ⟨21, _⟩ => ⟨S_, .f32⟩
  | .hbm, ⟨22, _⟩ => ⟨S110000, .f32⟩
  | .hbm, ⟨23, _⟩ => ⟨S1100000x1, .i32⟩
  | .hbm, ⟨24, _⟩ => ⟨S110000, .f32⟩
  | .hbm, ⟨25, _⟩ => ⟨S_, .f32⟩
  | .hbm, ⟨26, _⟩ => ⟨S_, .f32⟩
  | .hbm, ⟨27, _⟩ => ⟨S110000, .f32⟩
  | .hbm, ⟨28, _⟩ => ⟨S110000, .f32⟩
  | .hbm, ⟨29, _⟩ => ⟨S1210000, .f32⟩
  | .hbm, ⟨30, _⟩ => ⟨S1210000x1, .f32⟩
  | .hbm, ⟨31, _⟩ => ⟨S1210000x128, .f32⟩
  | .hbm, ⟨32, _⟩ => ⟨S1210000x128, .f32⟩
  | .hbm, ⟨33, _⟩ => ⟨S_, .i32⟩
  | .hbm, ⟨34, _⟩ => ⟨S1100000, .i32⟩
  | .hbm, ⟨35, _⟩ => ⟨S1100000, .i1⟩
  | .hbm, ⟨36, _⟩ => ⟨S_, .i32⟩
  | .hbm, ⟨37, _⟩ => ⟨S1100000, .i32⟩
  | .hbm, ⟨38, _⟩ => ⟨S1100000, .i32⟩
  | .hbm, ⟨39, _⟩ => ⟨S1100000, .i32⟩
  | .hbm, ⟨40, _⟩ => ⟨S1100000x1, .i32⟩
  | .hbm, ⟨41, _⟩ => ⟨S1100000x128, .f32⟩
  | .hbm, ⟨42, _⟩ => ⟨S_, .f32⟩
  | .hbm, ⟨43, _⟩ => ⟨S110000x128, .f32⟩
  | .hbm, ⟨44, _⟩ => ⟨S1100000x1, .i32⟩
  | .hbm, ⟨45, _⟩ => ⟨S110000x128, .f32⟩
  | .hbm, ⟨46, _⟩ => ⟨S110000, .f32⟩
  | .hbm, ⟨47, _⟩ => ⟨S110000x1, .f32⟩
  | .hbm, ⟨48, _⟩ => ⟨S110000x128, .f32⟩
  | .hbm, ⟨49, _⟩ => ⟨S110000x128, .f32⟩
  | .hbm, ⟨50, _⟩ => ⟨S110000x256, .f32⟩
  | .hbm, ⟨51, _⟩ => ⟨S1x256, .f32⟩
  | .hbm, ⟨52, _⟩ => ⟨S110000x256, .f32⟩
  | .hbm, ⟨53, _⟩ => ⟨S110000x256, .f32⟩
  | .hbm, ⟨54, _⟩ => ⟨S110000x1, .f32⟩
  | .hbm, ⟨55, _⟩ => ⟨S110000x1, .f32⟩
  | .hbm, ⟨56, _⟩ => ⟨S110000x1, .f32⟩
  | .hbm, ⟨57, _⟩ => ⟨S_, .f32⟩
  | .hbm, ⟨58, _⟩ => ⟨S110000x1, .f32⟩
  | .hbm, ⟨59, _⟩ => ⟨S110000x1, .f32⟩
  | .hbm, ⟨60, _⟩ => ⟨S_, .f32⟩
  | .hbm, ⟨61, _⟩ => ⟨S110000x1, .f32⟩
  | .hbm, ⟨62, _⟩ => ⟨S110000x1, .f32⟩
  | .hbm, ⟨63, _⟩ => ⟨S110000x256, .f32⟩
  | .hbm, ⟨64, _⟩ => ⟨S110000x256, .f32⟩
  | .hbm, ⟨65, _⟩ => ⟨S_, .f32⟩
  | .hbm, ⟨66, _⟩ => ⟨S100000, .f32⟩
  | .hbm, ⟨67, _⟩ => ⟨S_, .f32⟩
  | .hbm, ⟨68, _⟩ => ⟨S110000, .f32⟩
  | .hbm, ⟨69, _⟩ => ⟨S100000x1, .i32⟩
  | .hbm, ⟨70, _⟩ => ⟨S110000, .f32⟩
  | .hbm, ⟨71, _⟩ => ⟨S_, .f32⟩
  | .hbm, ⟨72, _⟩ => ⟨S_, .f32⟩
  | .hbm, ⟨73, _⟩ => ⟨S110000, .f32⟩
  | .hbm, ⟨74, _⟩ => ⟨S110000, .f32⟩
  | .hbm, ⟨75, _⟩ => ⟨S_, .f32⟩
  | .hbm, ⟨76, _⟩ => ⟨S10000, .f32⟩
  | .hbm, ⟨77, _⟩ => ⟨S100000x1, .i32⟩
  | .hbm, ⟨78, _⟩ => ⟨S10000, .f32⟩
  | .hbm, ⟨79, _⟩ => ⟨S_, .f32⟩
  | .hbm, ⟨80, _⟩ => ⟨S_, .f32⟩
  | .hbm, ⟨81, _⟩ => ⟨S10000, .f32⟩
  | .hbm, ⟨82, _⟩ => ⟨S10000, .f32⟩
  | .hbm, ⟨83, _⟩ => ⟨S110000, .f32⟩
  | .hbm, ⟨84, _⟩ => ⟨S110000x1, .f32⟩
  | .hbm, ⟨85, _⟩ => ⟨S110000x256, .f32⟩
  | .hbm, ⟨86, _⟩ => ⟨S110000x256, .f32⟩
  | .hbm, ⟨87, _⟩ => ⟨S_, .i32⟩
  | .hbm, ⟨88, _⟩ => ⟨S100000, .i32⟩
  | .hbm, ⟨89, _⟩ => ⟨S100000, .i1⟩
  | .hbm, ⟨90, _⟩ => ⟨S_, .i32⟩
  | .hbm, ⟨91, _⟩ => ⟨S100000, .i32⟩
  | .hbm, ⟨92, _⟩ => ⟨S100000, .i32⟩
  | .hbm, ⟨93, _⟩ => ⟨S100000, .i32⟩
  | .hbm, ⟨94, _⟩ => ⟨S100000x1, .i32⟩
  | .hbm, ⟨95, _⟩ => ⟨S100000x256, .f32⟩
  | .hbm, ⟨96, _⟩ => ⟨S_, .f32⟩
  | .hbm, ⟨97, _⟩ => ⟨S10000x256, .f32⟩
  | .hbm, ⟨98, _⟩ => ⟨S100000x1, .i32⟩
  | .hbm, ⟨99, _⟩ => ⟨S10000x256, .f32⟩
  | .hbm, ⟨100, _⟩ => ⟨S10000, .f32⟩
  | .hbm, ⟨101, _⟩ => ⟨S10000x1, .f32⟩
  | .hbm, ⟨102, _⟩ => ⟨S10000x256, .f32⟩
  | .hbm, ⟨103, _⟩ => ⟨S10000x256, .f32⟩
  | .hbm, ⟨104, _⟩ => ⟨S10000x128, .f32⟩
  | .hbm, ⟨105, _⟩ => ⟨S1x128, .f32⟩
  | .hbm, ⟨106, _⟩ => ⟨S10000x128, .f32⟩
  | .hbm, ⟨107, _⟩ => ⟨S10000x128, .f32⟩
  | .hbm, ⟨108, _⟩ => ⟨S10000x1, .f32⟩
  | .hbm, ⟨109, _⟩ => ⟨S10000x1, .f32⟩
  | .hbm, ⟨110, _⟩ => ⟨S10000x1, .f32⟩
  | .hbm, ⟨111, _⟩ => ⟨S_, .f32⟩
  | .hbm, ⟨112, _⟩ => ⟨S10000x1, .f32⟩
  | .hbm, ⟨113, _⟩ => ⟨S10000x1, .f32⟩
  | .hbm, ⟨114, _⟩ => ⟨S_, .f32⟩
  | .hbm, ⟨115, _⟩ => ⟨S10000x1, .f32⟩
  | .hbm, ⟨116, _⟩ => ⟨S10000x1, .f32⟩
  | .hbm, ⟨117, _⟩ => ⟨S10000x128, .f32⟩
  | .hbm, ⟨118, _⟩ => ⟨S10000x128, .f32⟩
  | _, _ => ⟨S1210000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_v4 : Ref sig .tc := ⟨.hbm, 20, rfl⟩
abbrev main_cst_2 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_3 : Ref sig .tc := ⟨.hbm, 25, rfl⟩
abbrev main_call1_v0 : Ref sig .tc := ⟨.hbm, 26, rfl⟩
abbrev main_call1_v1 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_c : Ref sig .tc := ⟨.hbm, 33, rfl⟩
abbrev main_v13 : Ref sig .tc := ⟨.hbm, 34, rfl⟩
abbrev main_v14 : Ref sig .tc := ⟨.hbm, 35, rfl⟩
abbrev main_c_4 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_5 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_6 : Ref sig .tc := ⟨.hbm, 57, rfl⟩
abbrev main_v34 : Ref sig .tc := ⟨.hbm, 58, rfl⟩
abbrev main_v35 : Ref sig .tc := ⟨.hbm, 59, rfl⟩
abbrev main_cst_7 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_8 : Ref sig .tc := ⟨.hbm, 65, rfl⟩
abbrev main_v40 : Ref sig .tc := ⟨.hbm, 66, rfl⟩
abbrev main_cst_9 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_10 : Ref sig .tc := ⟨.hbm, 71, rfl⟩
abbrev main_call2_v0 : Ref sig .tc := ⟨.hbm, 72, rfl⟩
abbrev main_call2_v1 : Ref sig .tc := ⟨.hbm, 73, rfl⟩
abbrev main_v44 : Ref sig .tc := ⟨.hbm, 74, rfl⟩
abbrev main_cst_11 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_cst_12 : Ref sig .tc := ⟨.hbm, 79, rfl⟩
abbrev main_call3_v0 : Ref sig .tc := ⟨.hbm, 80, rfl⟩
abbrev main_call3_v1 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_c_13 : Ref sig .tc := ⟨.hbm, 87, rfl⟩
abbrev main_v53 : Ref sig .tc := ⟨.hbm, 88, rfl⟩
abbrev main_v54 : Ref sig .tc := ⟨.hbm, 89, rfl⟩
abbrev main_c_14 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_cst_15 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_cst_16 : Ref sig .tc := ⟨.hbm, 111, rfl⟩
abbrev main_v74 : Ref sig .tc := ⟨.hbm, 112, rfl⟩
abbrev main_v75 : Ref sig .tc := ⟨.hbm, 113, rfl⟩
abbrev main_cst_17 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩

abbrev nD : Nat := 1
abbrev τ : Topo := Topo.v7x

variable {F : FTy → Type} [FloatOps F]

class Facts₀ : Prop where
  bcast_S_S1100000 : S_.BroadcastsInDim S1100000 (![] : Fin 0 → Fin S1100000.rank)
  bcast_S_S1210000 : S_.BroadcastsInDim S1210000 (![] : Fin 0 → Fin S1210000.rank)
  bcast_S1100000_S1100000x1_0 : S1100000.BroadcastsInDim S1100000x1 (![0] : Fin 1 → Fin S1100000x1.rank)
  bcast_S_S110000 : S_.BroadcastsInDim S110000 (![] : Fin 0 → Fin S110000.rank)
  bcast_S1210000_S1210000x1_0 : S1210000.BroadcastsInDim S1210000x1 (![0] : Fin 1 → Fin S1210000x1.rank)
  bcast_S1210000x1_S1210000x128_0_1 : S1210000x1.BroadcastsInDim S1210000x128 (![0, 1] : Fin 2 → Fin S1210000x128.rank)
  bcast_S_S110000x128 : S_.BroadcastsInDim S110000x128 (![] : Fin 0 → Fin S110000x128.rank)
  bcast_S110000_S110000x1_0 : S110000.BroadcastsInDim S110000x1 (![0] : Fin 1 → Fin S110000x1.rank)
  bcast_S110000x1_S110000x128_0_1 : S110000x1.BroadcastsInDim S110000x128 (![0, 1] : Fin 2 → Fin S110000x128.rank)
  bcast_S256_S1x256_1 : S256.BroadcastsInDim S1x256 (![1] : Fin 1 → Fin S1x256.rank)
  bcast_S1x256_S110000x256_0_1 : S1x256.BroadcastsInDim S110000x256 (![0, 1] : Fin 2 → Fin S110000x256.rank)
  bcast_S_S110000x1 : S_.BroadcastsInDim S110000x1 (![] : Fin 0 → Fin S110000x1.rank)
  bcast_S110000x1_S110000x256_0_1 : S110000x1.BroadcastsInDim S110000x256 (![0, 1] : Fin 2 → Fin S110000x256.rank)
  bcast_S_S100000 : S_.BroadcastsInDim S100000 (![] : Fin 0 → Fin S100000.rank)
  bcast_S100000_S100000x1_0 : S100000.BroadcastsInDim S100000x1 (![0] : Fin 1 → Fin S100000x1.rank)
  bcast_S_S10000 : S_.BroadcastsInDim S10000 (![] : Fin 0 → Fin S10000.rank)
  bcast_S_S10000x256 : S_.BroadcastsInDim S10000x256 (![] : Fin 0 → Fin S10000x256.rank)
  bcast_S10000_S10000x1_0 : S10000.BroadcastsInDim S10000x1 (![0] : Fin 1 → Fin S10000x1.rank)
  bcast_S10000x1_S10000x256_0_1 : S10000x1.BroadcastsInDim S10000x256 (![0, 1] : Fin 2 → Fin S10000x256.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  scatter_S1210000_S1100000x1_S1100000_n_0_0_1_wf : ScatterDims.WF S1210000 S1100000x1 S1100000 [] [0] [0] 1
  scatter_S110000_S1100000x1_S1100000_n_0_0_1_wf : ScatterDims.WF S110000 S1100000x1 S1100000 [] [0] [0] 1
  gather_S1210000x128_S1100000x1_S1100000x128_1_0_n_n_0_1_1128_wf : GatherDims.WF S1210000x128 S1100000x1 S1100000x128 [1] [0] [] [0] [] 1 ![1, 128]
  scatter_S110000x128_S1100000x1_S1100000x128_1_0_0_1_wf : ScatterDims.WF S110000x128 S1100000x1 S1100000x128 [1] [0] [0] 1
  dot_S110000x128_S128x256_S110000x256_1_0_0_1_n_n_wf : DotDims.WF S110000x128 S128x256 S110000x256 [1] [0] [0] [1] [] []
  dot_S110000x256_S256x1_S110000x1_1_0_0_1_n_n_wf : DotDims.WF S110000x256 S256x1 S110000x1 [1] [0] [0] [1] [] []
  scatter_S110000_S100000x1_S100000_n_0_0_1_wf : ScatterDims.WF S110000 S100000x1 S100000 [] [0] [0] 1
  scatter_S10000_S100000x1_S100000_n_0_0_1_wf : ScatterDims.WF S10000 S100000x1 S100000 [] [0] [0] 1
  gather_S110000x256_S100000x1_S100000x256_1_0_n_n_0_1_1256_wf : GatherDims.WF S110000x256 S100000x1 S100000x256 [1] [0] [] [0] [] 1 ![1, 256]
  scatter_S10000x256_S100000x1_S100000x256_1_0_0_1_wf : ScatterDims.WF S10000x256 S100000x1 S100000x256 [1] [0] [0] 1
  dot_S10000x256_S256x128_S10000x128_1_0_0_1_n_n_wf : DotDims.WF S10000x256 S256x128 S10000x128 [1] [0] [0] [1] [] []
  dot_S10000x128_S128x1_S10000x1_1_0_0_1_n_n_wf : DotDims.WF S10000x128 S128x1 S10000x1 [1] [0] [0] [1] [] []

variable [Facts₀]

def scatter_S1210000_S1100000x1_S1100000_n_0_0_1 : ScatterDims S1210000 S1100000x1 S1100000 where
  updateWindowDims := []
  insertedWindowDims := [0]
  scatterDimsToOperandDims := [0]
  indexVectorDim := 1
  wf := scatter_S1210000_S1100000x1_S1100000_n_0_0_1_wf
def scatter_S110000_S1100000x1_S1100000_n_0_0_1 : ScatterDims S110000 S1100000x1 S1100000 where
  updateWindowDims := []
  insertedWindowDims := [0]
  scatterDimsToOperandDims := [0]
  indexVectorDim := 1
  wf := scatter_S110000_S1100000x1_S1100000_n_0_0_1_wf
def gather_S1210000x128_S1100000x1_S1100000x128_1_0_n_n_0_1_1128 : GatherDims S1210000x128 S1100000x1 S1100000x128 where
  offsetDims := [1]
  collapsedSliceDims := [0]
  operandBatchingDims := []
  startIndicesBatchingDims := []
  startIndexMap := [0]
  indexVectorDim := 1
  sliceSizes := ![1, 128]
  wf := gather_S1210000x128_S1100000x1_S1100000x128_1_0_n_n_0_1_1128_wf
def scatter_S110000x128_S1100000x1_S1100000x128_1_0_0_1 : ScatterDims S110000x128 S1100000x1 S1100000x128 where
  updateWindowDims := [1]
  insertedWindowDims := [0]
  scatterDimsToOperandDims := [0]
  indexVectorDim := 1
  wf := scatter_S110000x128_S1100000x1_S1100000x128_1_0_0_1_wf
def dot_S110000x128_S128x256_S110000x256_1_0_0_1_n_n : DotDims S110000x128 S128x256 S110000x256 where
  lhsContracting := [1]
  rhsContracting := [0]
  lhsNonContracting := [0]
  rhsNonContracting := [1]
  lhsBatch := []
  rhsBatch := []
  wf := dot_S110000x128_S128x256_S110000x256_1_0_0_1_n_n_wf
def dot_S110000x256_S256x1_S110000x1_1_0_0_1_n_n : DotDims S110000x256 S256x1 S110000x1 where
  lhsContracting := [1]
  rhsContracting := [0]
  lhsNonContracting := [0]
  rhsNonContracting := [1]
  lhsBatch := []
  rhsBatch := []
  wf := dot_S110000x256_S256x1_S110000x1_1_0_0_1_n_n_wf
def scatter_S110000_S100000x1_S100000_n_0_0_1 : ScatterDims S110000 S100000x1 S100000 where
  updateWindowDims := []
  insertedWindowDims := [0]
  scatterDimsToOperandDims := [0]
  indexVectorDim := 1
  wf := scatter_S110000_S100000x1_S100000_n_0_0_1_wf
def scatter_S10000_S100000x1_S100000_n_0_0_1 : ScatterDims S10000 S100000x1 S100000 where
  updateWindowDims := []
  insertedWindowDims := [0]
  scatterDimsToOperandDims := [0]
  indexVectorDim := 1
  wf := scatter_S10000_S100000x1_S100000_n_0_0_1_wf
def gather_S110000x256_S100000x1_S100000x256_1_0_n_n_0_1_1256 : GatherDims S110000x256 S100000x1 S100000x256 where
  offsetDims := [1]
  collapsedSliceDims := [0]
  operandBatchingDims := []
  startIndicesBatchingDims := []
  startIndexMap := [0]
  indexVectorDim := 1
  sliceSizes := ![1, 256]
  wf := gather_S110000x256_S100000x1_S100000x256_1_0_n_n_0_1_1256_wf
def scatter_S10000x256_S100000x1_S100000x256_1_0_0_1 : ScatterDims S10000x256 S100000x1 S100000x256 where
  updateWindowDims := [1]
  insertedWindowDims := [0]
  scatterDimsToOperandDims := [0]
  indexVectorDim := 1
  wf := scatter_S10000x256_S100000x1_S100000x256_1_0_0_1_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def dot_S10000x128_S128x1_S10000x1_1_0_0_1_n_n : DotDims S10000x128 S128x1 S10000x1 where
  lhsContracting := [1]
  rhsContracting := [0]
  lhsNonContracting := [0]
  rhsNonContracting := [1]
  lhsBatch := []
  rhsBatch := []
  wf := dot_S10000x128_S128x1_S10000x1_1_0_0_1_n_n_wf

class Facts : Prop extends Facts₀ where

variable [Facts]
-- ==== Proof.KernelRun.lean ====
/-
  The idealized kernel program's run with its two results named.

  The program is a chain of host stretches and two pipelined regions. Its run is read through the contents of the
  TensorCore's buffers at each boundary of that chain: after the last stretch every unscoped buffer holds the last
  boundary's contents, so each result buffer ends at those contents and each argument at its launch contents.
-/
import proofs.«101411_j37503654429370_2_alg».proof.Proof.Gen.KernelIdeal.Frame

set_option maxRecDepth 16384

noncomputable section

namespace Cert.KernelIdeal.RunV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the two result buffers end at the last
    boundary's contents and the eleven arguments end as launched. -/
theorem run : θ_run defs (onTc (τ := τ) (main (F := F))) ⟨m, fun _ => 0, ρ⟩ (fun r => ∀ c : Dev nD,
      r.2.mem ((c.tc : Thread nD τ).loc main_v65) = W21 m ρ c (Proc.devRef .tc main_v65)
      ∧ r.2.mem ((c.tc : Thread nD τ).loc main_v66) = W21 m ρ c (Proc.devRef .tc main_v66)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m ρ c b)
    (hfin := fun c s' => by
      iintro ⟨⟨Hh, -⟩, HSI⟩
      unfold StableHlo.held
      imodintro
      iapply (pointsTo_read_all (Pipeline.ucRefs τ sig) (fun b => (((c : Thread nD τ)).1, b)) (W21 m ρ c) s')
      isplitl [Hh] <;> iassumption)
    (hQ := fun s h c =>
      ⟨h c _ (mem_uc main_v65 (by decide)),
       h c _ (mem_uc main_v66 (by decide)),
       (h c _ (mem_uc main_arg0 (by decide))).trans (W21_main_arg0 m ρ c),
       (h c _ (mem_uc main_arg1 (by decide))).trans (W21_main_arg1 m ρ c),
       (h c _ (mem_uc main_arg2 (by decide))).trans (W21_main_arg2 m ρ c),
       (h c _ (mem_uc main_arg3 (by decide))).trans (W21_main_arg3 m ρ c),
       (h c _ (mem_uc main_arg4 (by decide))).trans (W21_main_arg4 m ρ c),
       (h c _ (mem_uc main_arg5 (by decide))).trans (W21_main_arg5 m ρ c),
       (h c _ (mem_uc main_arg6 (by decide))).trans (W21_main_arg6 m ρ c),
       (h c _ (mem_uc main_arg7 (by decide))).trans (W21_main_arg7 m ρ c),
       (h c _ (mem_uc main_arg8 (by decide))).trans (W21_main_arg8 m ρ c),
       (h c _ (mem_uc main_arg9 (by decide))).trans (W21_main_arg9 m ρ c),
       (h c _ (mem_uc main_arg10 (by decide))).trans (W21_main_arg10 m ρ c)⟩)

end Cert.KernelIdeal.RunV

end
-- ==== Proof.HostTerms.lean ====
/-
  The values the two programs' host sides share, named once at the kernel program's shapes.

  Both programs compute the four clipped degree vectors, the wrapped index columns and the scatter-added tables by the
  same host operations. The reference's stage functions are taken as the names of those values; this module only
  restates them at the kernel program's shape names, and spells the kernel program's one different stage: rows of the
  feature table gathered first and scaled afterwards by the gathered source-side scales.
-/
import proofs.«101411_j37503654429370_2_alg».proof.Proof.Gen.KernelIdeal.Frame
import proofs.«101411_j37503654429370_2_alg».proof.Proof.Gen.ReferenceIdeal.Read
import Idealize.ShloMosaic.PureOps.Ideal
import Idealize.ShloMosaic.Lib.StableHlo.Run

set_option maxRecDepth 16384

noncomputable section

namespace Cert.KernelIdeal.HostV

open Cert.KernelIdeal Cert.KernelIdeal.Gen Cert.ReferenceIdeal.Read
open Idealize.ShloMosaic Idealize.ShloMosaic.TcCoe Idealize.ShloMosaic.StableHlo
open Idealize.SL Idealize.SL.Sem

/-- Layer 1's clipped out-degree of the source nodes. -/
def degOut1 (x7 : IVec S1100000 32) : FVec Ideal S1210000 .f32 := val_main_v4 (F := Ideal) x7
/-- Layer 1's clipped in-degree of the destination nodes. -/
def degIn1 (x8 : IVec S1100000 32) : FVec Ideal S110000 .f32 := val_main_v8 (F := Ideal) x8
/-- Layer 2's clipped out-degree of the source nodes. -/
def degOut2 (x9 : IVec S100000 32) : FVec Ideal S110000 .f32 := val_main_v44 (F := Ideal) x9
/-- Layer 2's clipped in-degree of the destination nodes. -/
def degIn2 (x10 : IVec S100000 32) : FVec Ideal S10000 .f32 := val_main_v48 (F := Ideal) x10
/-- Layer 1's column of source indices, negative entries wrapped. -/
def idxCol1 (x7 : IVec S1100000 32) : IVec S1100000x1 32 := val_main_v18 (F := Ideal) x7
/-- Layer 2's column of source indices, negative entries wrapped. -/
def idxCol2 (x9 : IVec S100000 32) : IVec S100000x1 32 := val_main_v58 (F := Ideal) x9
/-- Layer 1's aggregated table: the scaled source rows gathered along the edges and added per destination. -/
def agg1 (x0 : FVec Ideal S1210000x128 .f32) (x7 x8 : IVec S1100000 32) : FVec Ideal S110000x128 .f32 :=
  val_main_v22 (F := Ideal) x0 x7 x8
/-- Layer 1's result, already carrying layer 2's source-side scale. -/
def hidden (x0 : FVec Ideal S1210000x128 .f32) (x1 : FVec Ideal S128x256 .f32) (x2 : FVec Ideal S256 .f32)
    (x3 : FVec Ideal S256x1 .f32) (x7 x8 : IVec S1100000 32) (x9 : IVec S100000 32) : FVec Ideal S110000x256 .f32 :=
  val_main_v52 (F := Ideal) x0 x1 x2 x3 x7 x8 x9
/-- Layer 2's aggregated table. -/
def agg2 (x0 : FVec Ideal S1210000x128 .f32) (x1 : FVec Ideal S128x256 .f32) (x2 : FVec Ideal S256 .f32)
    (x3 : FVec Ideal S256x1 .f32) (x7 x8 : IVec S1100000 32) (x9 x10 : IVec S100000 32) : FVec Ideal S10000x256 .f32 :=
  val_main_v62 (F := Ideal) x0 x1 x2 x3 x7 x8 x9 x10

/-- The kernel program's edge rows: the feature rows gathered along the edges, each times its gathered scale. -/
def edgeRows (x0 : FVec Ideal S1210000x128 .f32) (sc : FVec Ideal S1210000 .f32) (ix ix' : IVec S1100000x1 32) :
    FVec Ideal S1100000x128 .f32 :=
  mulf (Host.gather gather_S1210000x128_S1100000x1_S1100000x128_1_0_n_n_0_1_1128 x0 ix)
    (broadcastInDim S1100000x128 ![0, 1] Facts₀.bcast_S1100000x1_S1100000x128_0_1
      (broadcastInDim S1100000x1 ![0] Facts₀.bcast_S1100000_S1100000x1_0
        (Host.gather gather_S1210000_S1100000x1_S1100000_n_0_n_n_0_1_1 sc ix')))

end Cert.KernelIdeal.HostV

end
-- ==== Proof.KernelHostA.lean ====
/-
  The kernel program's first eight host stretches: the four clipped degree vectors.

  Each degree vector takes two stretches: a scatter-add of ones along an index argument into zeros, then a clip from
  below at one. Each stretch is read over an arbitrary valuation of the buffers it starts from; no later stretch of the
  eight writes a finished degree vector or an argument; chained, each vector is the reference's.
-/
import proofs.«101411_j37503654429370_2_alg».proof.Proof.Gen.KernelIdeal.Frame
import proofs.«101411_j37503654429370_2_alg».proof.Proof.Gen.ReferenceIdeal.Read
import proofs.«101411_j37503654429370_2_alg».proof.Proof.HostTerms
import Idealize.ShloMosaic.PureOps.Ideal
import Idealize.ShloMosaic.Lib.StableHlo.Run

set_option maxRecDepth 16384

noncomputable section

namespace Cert.KernelIdeal.HostV

open Cert.KernelIdeal Cert.KernelIdeal.Gen Cert.ReferenceIdeal.Read
open Idealize.ShloMosaic Idealize.ShloMosaic.TcCoe Idealize.ShloMosaic.StableHlo
open Idealize.SL Idealize.SL.Sem

section Stretches
variable (Vv : Valuation τ sig (Elt Ideal))

/-- The scatter-add stretch of degree vector 1: the counts. -/
theorem d1_raw : after (hostOps0 (F := Ideal)) Vv (Proc.devRef .tc main_v3)
    = Host.scatterAdd scatter_S1210000_S1100000x1_S1100000_n_0_0_1 (broadcastInDim S1210000 ![] Facts₀.bcast_S_S1210000 (constant (F := Ideal) S_ .f32 0x00000000#32)) (broadcastInDim S1100000x1 ![0] Facts₀.bcast_S1100000_S1100000x1_0 (Vv (Proc.devRef .tc main_arg7))) (broadcastInDim S1100000 ![] Facts₀.bcast_S_S1100000 (constant (F := Ideal) S_ .f32 0x3F800000#32)) := by
  simp only [hostOps0]
  after_results_simp
/-- The scatter-add stretch of degree vector 1: the clip's bound, one. -/
theorem d1_one : after (hostOps0 (F := Ideal)) Vv (Proc.devRef .tc main_cst_1) = (constant (F := Ideal) S_ .f32 0x3F800000#32) := by
  simp only [hostOps0]
  after_results_simp
/-- The clip stretch of degree vector 1. -/
theorem d1_clip : after (hostOps0_1 (F := Ideal)) Vv (Proc.devRef .tc main_v4)
    = (maximumf (broadcastInDim S1210000 ![] Facts₀.bcast_S_S1210000 (id (Vv (Proc.devRef .tc main_cst_1) : FVec Ideal S_ .f32)) : FVec Ideal S1210000 .f32)
        (Vv (Proc.devRef .tc main_v3) : FVec Ideal S1210000 .f32) : FVec Ideal S1210000 .f32) := by
  simp only [hostOps0_1]
  after_results_simp
  rfl
/-- The counts and the bound clipped are the reference's degree vector 1. -/
theorem d1_eq (x : IVec S1100000 32) :
    maximumf (broadcastInDim S1210000 ![] Facts₀.bcast_S_S1210000 (id (constant (F := Ideal) S_ .f32 0x3F800000#32))) (Host.scatterAdd scatter_S1210000_S1100000x1_S1100000_n_0_0_1 (broadcastInDim S1210000 ![] Facts₀.bcast_S_S1210000 (constant (F := Ideal) S_ .f32 0x00000000#32)) (broadcastInDim S1100000x1 ![0] Facts₀.bcast_S1100000_S1100000x1_0 x) (broadcastInDim S1100000 ![] Facts₀.bcast_S_S1100000 (constant (F := Ideal) S_ .f32 0x3F800000#32))) = degOut1 x := rfl
/-- The later stretches of the eight leave degree vector 1 alone. -/
theorem d1_keep : (after (hostOps0_7 (F := Ideal)) (after (hostOps0_6 (F := Ideal)) (after (hostOps0_5 (F := Ideal)) (after (hostOps0_4 (F := Ideal)) (after (hostOps0_3 (F := Ideal)) (after (hostOps0_2 (F := Ideal)) Vv)))))) (Proc.devRef .tc main_v4) = Vv (Proc.devRef .tc main_v4) := by
  simp only [hostOps0_7, hostOps0_6, hostOps0_5, hostOps0_4, hostOps0_3, hostOps0_2]
  after_results_simp

/-- The scatter-add stretch of degree vector 2: the counts. -/
theorem d2_raw : after (hostOps0_2 (F := Ideal)) Vv (Proc.devRef .tc main_v8)
    = Host.scatterAdd scatter_S110000_S1100000x1_S1100000_n_0_0_1 (broadcastInDim S110000 ![] Facts₀.bcast_S_S110000 (constant (F := Ideal) S_ .f32 0x00000000#32)) (broadcastInDim S1100000x1 ![0] Facts₀.bcast_S1100000_S1100000x1_0 (Vv (Proc.devRef .tc main_arg8))) (broadcastInDim S1100000 ![] Facts₀.bcast_S_S1100000 (constant (F := Ideal) S_ .f32 0x3F800000#32)) := by
  simp only [hostOps0_2]
  after_results_simp
/-- The scatter-add stretch of degree vector 2: the clip's bound, one. -/
theorem d2_one : after (hostOps0_2 (F := Ideal)) Vv (Proc.devRef .tc main_cst_4) = (constant (F := Ideal) S_ .f32 0x3F800000#32) := by
  simp only [hostOps0_2]
  after_results_simp
/-- The clip stretch of degree vector 2. -/
theorem d2_clip : after (hostOps0_3 (F := Ideal)) Vv (Proc.devRef .tc main_v9)
    = (maximumf (broadcastInDim S110000 ![] Facts₀.bcast_S_S110000 (id (Vv (Proc.devRef .tc main_cst_4) : FVec Ideal S_ .f32)) : FVec Ideal S110000 .f32)
        (Vv (Proc.devRef .tc main_v8) : FVec Ideal S110000 .f32) : FVec Ideal S110000 .f32) := by
  simp only [hostOps0_3]
  after_results_simp
  rfl
/-- The counts and the bound clipped are the reference's degree vector 2. -/
theorem d2_eq (x : IVec S1100000 32) :
    maximumf (broadcastInDim S110000 ![] Facts₀.bcast_S_S110000 (id (constant (F := Ideal) S_ .f32 0x3F800000#32))) (Host.scatterAdd scatter_S110000_S1100000x1_S1100000_n_0_0_1 (broadcastInDim S110000 ![] Facts₀.bcast_S_S110000 (constant (F := Ideal) S_ .f32 0x00000000#32)) (broadcastInDim S1100000x1 ![0] Facts₀.bcast_S1100000_S1100000x1_0 x) (broadcastInDim S1100000 ![] Facts₀.bcast_S_S1100000 (constant (F := Ideal) S_ .f32 0x3F800000#32))) = degIn1 x := rfl
/-- The later stretches of the eight leave degree vector 2 alone. -/
theorem d2_keep : (after (hostOps0_7 (F := Ideal)) (after (hostOps0_6 (F := Ideal)) (after (hostOps0_5 (F := Ideal)) (after (hostOps0_4 (F := Ideal)) Vv)))) (Proc.devRef .tc main_v9) = Vv (Proc.devRef .tc main_v9) := by
  simp only [hostOps0_7, hostOps0_6, hostOps0_5, hostOps0_4]
  after_results_simp

/-- The scatter-add stretch of degree vector 3: the counts. -/
theorem d3_raw : after (hostOps0_4 (F := Ideal)) Vv (Proc.devRef .tc main_v13)
    = Host.scatterAdd scatter_S110000_S100000x1_S100000_n_0_0_1 (broadcastInDim S110000 ![] Facts₀.bcast_S_S110000 (constant (F := Ideal) S_ .f32 0x00000000#32)) (broadcastInDim S100000x1 ![0] Facts₀.bcast_S100000_S100000x1_0 (Vv (Proc.devRef .tc main_arg9))) (broadcastInDim S100000 ![] Facts₀.bcast_S_S100000 (constant (F := Ideal) S_ .f32 0x3F800000#32)) := by
  simp only [hostOps0_4]
  after_results_simp
/-- The scatter-add stretch of degree vector 3: the clip's bound, one. -/
theorem d3_one : after (hostOps0_4 (F := Ideal)) Vv (Proc.devRef .tc main_cst_7) = (constant (F := Ideal) S_ .f32 0x3F800000#32) := by
  simp only [hostOps0_4]
  after_results_simp
/-- The clip stretch of degree vector 3. -/
theorem d3_clip : after (hostOps0_5 (F := Ideal)) Vv (Proc.devRef .tc main_v14)
    = (maximumf (broadcastInDim S110000 ![] Facts₀.bcast_S_S110000 (id (Vv (Proc.devRef .tc main_cst_7) : FVec Ideal S_ .f32)) : FVec Ideal S110000 .f32)
        (Vv (Proc.devRef .tc main_v13) : FVec Ideal S110000 .f32) : FVec Ideal S110000 .f32) := by
  simp only [hostOps0_5]
  after_results_simp
  rfl
/-- The counts and the bound clipped are the reference's degree vector 3. -/
theorem d3_eq (x : IVec S100000 32) :
    maximumf (broadcastInDim S110000 ![] Facts₀.bcast_S_S110000 (id (constant (F := Ideal) S_ .f32 0x3F800000#32))) (Host.scatterAdd scatter_S110000_S100000x1_S100000_n_0_0_1 (broadcastInDim S110000 ![] Facts₀.bcast_S_S110000 (constant (F := Ideal) S_ .f32 0x00000000#32)) (broadcastInDim S100000x1 ![0] Facts₀.bcast_S100000_S100000x1_0 x) (broadcastInDim S100000 ![] Facts₀.bcast_S_S100000 (constant (F := Ideal) S_ .f32 0x3F800000#32))) = degOut2 x := rfl
/-- The later stretches of the eight leave degree vector 3 alone. -/
theorem d3_keep : (after (hostOps0_7 (F := Ideal)) (after (hostOps0_6 (F := Ideal)) Vv)) (Proc.devRef .tc main_v14) = Vv (Proc.devRef .tc main_v14) := by
  simp only [hostOps0_7, hostOps0_6]
  after_results_simp

/-- The scatter-add stretch of degree vector 4: the counts. -/
theorem d4_raw : after (hostOps0_6 (F := Ideal)) Vv (Proc.devRef .tc main_v18)
    = Host.scatterAdd scatter_S10000_S100000x1_S100000_n_0_0_1 (broadcastInDim S10000 ![] Facts₀.bcast_S_S10000 (constant (F := Ideal) S_ .f32 0x00000000#32)) (broadcastInDim S100000x1 ![0] Facts₀.bcast_S100000_S100000x1_0 (Vv (Proc.devRef .tc main_arg10))) (broadcastInDim S100000 ![] Facts₀.bcast_S_S100000 (constant (F := Ideal) S_ .f32 0x3F800000#32)) := by
  simp only [hostOps0_6]
  after_results_simp
/-- The scatter-add stretch of degree vector 4: the clip's bound, one. -/
theorem d4_one : after (hostOps0_6 (F := Ideal)) Vv (Proc.devRef .tc main_cst_10) = (constant (F := Ideal) S_ .f32 0x3F800000#32) := by
  simp only [hostOps0_6]
  after_results_simp
/-- The clip stretch of degree vector 4. -/
theorem d4_clip : after (hostOps0_7 (F := Ideal)) Vv (Proc.devRef .tc main_v19)
    = (maximumf (broadcastInDim S10000 ![] Facts₀.bcast_S_S10000 (id (Vv (Proc.devRef .tc main_cst_10) : FVec Ideal S_ .f32)) : FVec Ideal S10000 .f32)
        (Vv (Proc.devRef .tc main_v18) : FVec Ideal S10000 .f32) : FVec Ideal S10000 .f32) := by
  simp only [hostOps0_7]
  after_results_simp
  rfl
/-- The counts and the bound clipped are the reference's degree vector 4. -/
theorem d4_eq (x : IVec S100000 32) :
    maximumf (broadcastInDim S10000 ![] Facts₀.bcast_S_S10000 (id (constant (F := Ideal) S_ .f32 0x3F800000#32))) (Host.scatterAdd scatter_S10000_S100000x1_S100000_n_0_0_1 (broadcastInDim S10000 ![] Facts₀.bcast_S_S10000 (constant (F := Ideal) S_ .f32 0x00000000#32)) (broadcastInDim S100000x1 ![0] Facts₀.bcast_S100000_S100000x1_0 x) (broadcastInDim S100000 ![] Facts₀.bcast_S_S100000 (constant (F := Ideal) S_ .f32 0x3F800000#32))) = degIn2 x := rfl
/-- Stretches 0 to 1 leave argument 8 alone. -/
theorem k_arg8_01 : (after (hostOps0_1 (F := Ideal)) (after (hostOps0 (F := Ideal)) Vv)) (Proc.devRef .tc main_arg8) = Vv (Proc.devRef .tc main_arg8) := by
  simp only [hostOps0_1, hostOps0]
  after_results_simp
/-- Stretches 0 to 3 leave argument 9 alone. -/
theorem k_arg9_03 : (after (hostOps0_3 (F := Ideal)) (after (hostOps0_2 (F := Ideal)) (after (hostOps0_1 (F := Ideal)) (after (hostOps0 (F := Ideal)) Vv)))) (Proc.devRef .tc main_arg9) = Vv (Proc.devRef .tc main_arg9) := by
  simp only [hostOps0_3, hostOps0_2, hostOps0_1, hostOps0]
  after_results_simp
/-- Stretches 0 to 5 leave argument 10 alone. -/
theorem k_arg10_05 : (after (hostOps0_5 (F := Ideal)) (after (hostOps0_4 (F := Ideal)) (after (hostOps0_3 (F := Ideal)) (after (hostOps0_2 (F := Ideal)) (after (hostOps0_1 (F := Ideal)) (after (hostOps0 (F := Ideal)) Vv)))))) (Proc.devRef .tc main_arg10) = Vv (Proc.devRef .tc main_arg10) := by
  simp only [hostOps0_5, hostOps0_4, hostOps0_3, hostOps0_2, hostOps0_1, hostOps0]
  after_results_simp
/-- Stretches 0 to 7 leave argument 0 alone. -/
theorem k_arg0_07 : (after (hostOps0_7 (F := Ideal)) (after (hostOps0_6 (F := Ideal)) (after (hostOps0_5 (F := Ideal)) (after (hostOps0_4 (F := Ideal)) (after (hostOps0_3 (F := Ideal)) (after (hostOps0_2 (F := Ideal)) (after (hostOps0_1 (F := Ideal)) (after (hostOps0 (F := Ideal)) Vv)))))))) (Proc.devRef .tc main_arg0) = Vv (Proc.devRef .tc main_arg0) := by
  simp only [hostOps0_7, hostOps0_6, hostOps0_5, hostOps0_4, hostOps0_3, hostOps0_2, hostOps0_1, hostOps0]
  after_results_simp
/-- Stretches 0 to 7 leave argument 7 alone. -/
theorem k_arg7_07 : (after (hostOps0_7 (F := Ideal)) (after (hostOps0_6 (F := Ideal)) (after (hostOps0_5 (F := Ideal)) (after (hostOps0_4 (F := Ideal)) (after (hostOps0_3 (F := Ideal)) (after (hostOps0_2 (F := Ideal)) (after (hostOps0_1 (F := Ideal)) (after (hostOps0 (F := Ideal)) Vv)))))))) (Proc.devRef .tc main_arg7) = Vv (Proc.devRef .tc main_arg7) := by
  simp only [hostOps0_7, hostOps0_6, hostOps0_5, hostOps0_4, hostOps0_3, hostOps0_2, hostOps0_1, hostOps0]
  after_results_simp
/-- Stretches 0 to 7 leave argument 8 alone. -/
theorem k_arg8_07 : (after (hostOps0_7 (F := Ideal)) (after (hostOps0_6 (F := Ideal)) (after (hostOps0_5 (F := Ideal)) (after (hostOps0_4 (F := Ideal)) (after (hostOps0_3 (F := Ideal)) (after (hostOps0_2 (F := Ideal)) (after (hostOps0_1 (F := Ideal)) (after (hostOps0 (F := Ideal)) Vv)))))))) (Proc.devRef .tc main_arg8) = Vv (Proc.devRef .tc main_arg8) := by
  simp only [hostOps0_7, hostOps0_6, hostOps0_5, hostOps0_4, hostOps0_3, hostOps0_2, hostOps0_1, hostOps0]
  after_results_simp

end Stretches

variable (m : (ℓ : Loc nD τ sig) → Buf (Elt Ideal) ℓ) (ρ : Dev nD → PrngReg)

/-- Layer 1's out-degree after the eight stretches. -/
theorem W8_v4 (c : Dev nD) : W8 (F := Ideal) m ρ c (Proc.devRef .tc main_v4) = degOut1 (m ((c : Thread nD τ).loc main_arg7)) :=
  (d1_keep (W2 m ρ c)).trans <| (d1_clip (W1 m ρ c)).trans <| by
    rw [show W1 (F := Ideal) m ρ c (Proc.devRef .tc main_cst_1) = _ from d1_one (W0 m ρ c),
      show W1 (F := Ideal) m ρ c (Proc.devRef .tc main_v3) = _ from d1_raw (W0 m ρ c)]
    exact d1_eq (m ((c : Thread nD τ).loc main_arg7))
/-- Layer 1's in-degree after the eight stretches. -/
theorem W8_v9 (c : Dev nD) : W8 (F := Ideal) m ρ c (Proc.devRef .tc main_v9) = degIn1 (m ((c : Thread nD τ).loc main_arg8)) :=
  (d2_keep (W4 m ρ c)).trans <| (d2_clip (W3 m ρ c)).trans <| by
    rw [show W3 (F := Ideal) m ρ c (Proc.devRef .tc main_cst_4) = _ from d2_one (W2 m ρ c),
      show W3 (F := Ideal) m ρ c (Proc.devRef .tc main_v8) = _ from d2_raw (W2 m ρ c),
      show W2 (F := Ideal) m ρ c (Proc.devRef .tc main_arg8) = _ from k_arg8_01 (W0 m ρ c)]
    exact d2_eq (m ((c : Thread nD τ).loc main_arg8))
/-- Layer 2's out-degree after the eight stretches. -/
theorem W8_v14 (c : Dev nD) : W8 (F := Ideal) m ρ c (Proc.devRef .tc main_v14) = degOut2 (m ((c : Thread nD τ).loc main_arg9)) :=
  (d3_keep (W6 m ρ c)).trans <| (d3_clip (W5 m ρ c)).trans <| by
    rw [show W5 (F := Ideal) m ρ c (Proc.devRef .tc main_cst_7) = _ from d3_one (W4 m ρ c),
      show W5 (F := Ideal) m ρ c (Proc.devRef .tc main_v13) = _ from d3_raw (W4 m ρ c),
      show W4 (F := Ideal) m ρ c (Proc.devRef .tc main_arg9) = _ from k_arg9_03 (W0 m ρ c)]
    exact d3_eq (m ((c : Thread nD τ).loc main_arg9))
/-- Layer 2's in-degree after the eight stretches. -/
theorem W8_v19 (c : Dev nD) : W8 (F := Ideal) m ρ c (Proc.devRef .tc main_v19) = degIn2 (m ((c : Thread nD τ).loc main_arg10)) :=
  (d4_clip (W7 m ρ c)).trans <| by
    rw [show W7 (F := Ideal) m ρ c (Proc.devRef .tc main_cst_10) = _ from d4_one (W6 m ρ c),
      show W7 (F := Ideal) m ρ c (Proc.devRef .tc main_v18) = _ from d4_raw (W6 m ρ c),
      show W6 (F := Ideal) m ρ c (Proc.devRef .tc main_arg10) = _ from k_arg10_05 (W0 m ρ c)]
    exact d4_eq (m ((c : Thread nD τ).loc main_arg10))
/-- The feature table after the eight stretches is as launched. -/
theorem W8_arg0 (c : Dev nD) : W8 (F := Ideal) m ρ c (Proc.devRef .tc main_arg0) = (m ((c : Thread nD τ).loc main_arg0)) := k_arg0_07 (W0 m ρ c)
/-- Layer 1's source indices after the eight stretches are as launched. -/
theorem W8_arg7 (c : Dev nD) : W8 (F := Ideal) m ρ c (Proc.devRef .tc main_arg7) = (m ((c : Thread nD τ).loc main_arg7)) := k_arg7_07 (W0 m ρ c)
/-- Layer 1's destination indices after the eight stretches are as launched. -/
theorem W8_arg8 (c : Dev nD) : W8 (F := Ideal) m ρ c (Proc.devRef .tc main_arg8) = (m ((c : Thread nD τ).loc main_arg8)) := k_arg8_07 (W0 m ρ c)

end Cert.KernelIdeal.HostV

end
-- ==== Proof.KernelHostB.lean ====
/-
  The kernel program's host stretches 8 to 12, which prepare region 0's arrays.

  Stretch 8 gathers the feature rows and their source-side scales along the edges, multiplies them, adds the products
  per destination node, and lays the in-degree and the next layer's source-side scale as columns. Stretches 9 to 12 pad
  the aggregated table by 592 zero rows, put the two columns side by side and pad them by 592 rows of ones, and recast
  the bias as a row. Each is read over an arbitrary valuation of the buffers it starts from.
-/
import proofs.«101411_j37503654429370_2_alg».proof.Proof.Gen.KernelIdeal.Frame
import proofs.«101411_j37503654429370_2_alg».proof.Proof.Gen.ReferenceIdeal.Read
import proofs.«101411_j37503654429370_2_alg».proof.Proof.HostTerms
import Idealize.ShloMosaic.PureOps.Ideal
import Idealize.ShloMosaic.Lib.StableHlo.Run

set_option maxRecDepth 16384

noncomputable section

namespace Cert.KernelIdeal.HostV

open Cert.KernelIdeal Cert.KernelIdeal.Gen Cert.ReferenceIdeal.Read
open Idealize.ShloMosaic Idealize.ShloMosaic.TcCoe Idealize.ShloMosaic.StableHlo
open Idealize.SL Idealize.SL.Sem

variable (Vv : Valuation τ sig (Elt Ideal))

/-- Stretch 8, the aggregated table. -/
theorem s8_v41 : after (hostOps0_8 (F := Ideal)) Vv (Proc.devRef .tc main_v41)
    = Host.scatterAdd scatter_S110000x128_S1100000x1_S1100000x128_1_0_0_1
        (broadcastInDim S110000x128 ![] Facts₀.bcast_S_S110000x128 (constant (F := Ideal) S_ .f32 0x00000000#32))
        (broadcastInDim S1100000x1 ![0] Facts₀.bcast_S1100000_S1100000x1_0 (Vv (Proc.devRef .tc main_arg8)))
        (edgeRows (Vv (Proc.devRef .tc main_arg0)) (Host.rsqrt ((Vv (Proc.devRef .tc main_v4)) : FVec Ideal S1210000 .f32)) (idxCol1 (Vv (Proc.devRef .tc main_arg7))) (idxCol1 (Vv (Proc.devRef .tc main_arg7)))) := by
  simp only [hostOps0_8]
  after_results_simp
  rfl

/-- Stretch 8, the in-degree as a column. -/
theorem s8_v42 : after (hostOps0_8 (F := Ideal)) Vv (Proc.devRef .tc main_v42)
    = broadcastInDim S110000x1 ![0] Facts₀.bcast_S110000_S110000x1_0 ((Vv (Proc.devRef .tc main_v9)) : FVec Ideal S110000 .f32) := by
  simp only [hostOps0_8]
  after_results_simp

/-- Stretch 8, the next layer's source-side scale as a column. -/
theorem s8_v43 : after (hostOps0_8 (F := Ideal)) Vv (Proc.devRef .tc main_v43)
    = broadcastInDim S110000x1 ![0] Facts₀.bcast_S110000_S110000x1_0 (Host.rsqrt ((Vv (Proc.devRef .tc main_v14)) : FVec Ideal S110000 .f32) : FVec Ideal S110000 .f32) := by
  simp only [hostOps0_8]
  after_results_simp

/-- Stretches 9 to 12, the padded aggregated table. -/
theorem s9_v44 : after (hostOps0_12 (F := Ideal)) (after hostOps0_11 (after hostOps0_10 (after hostOps0_9 Vv))) (Proc.devRef .tc main_v44)
    = pad S110592x128 ![0, 0] ![592, 0] ![0, 0] (Vv (Proc.devRef .tc main_v41)) (id (Vv (Proc.devRef .tc main_cst_15)))
        Facts₀.pads_S110000x128_S110592x128_05920_000 Facts₀.h_S_ := by
  simp only [hostOps0_12, hostOps0_11, hostOps0_10, hostOps0_9]
  after_results_simp
  rfl

/-- Stretches 9 to 12, the padded pair of columns. -/
theorem s9_v46 : after (hostOps0_12 (F := Ideal)) (after hostOps0_11 (after hostOps0_10 (after hostOps0_9 Vv))) (Proc.devRef .tc main_v46)
    = pad S110592x2 ![0, 0] ![592, 0] ![0, 0]
        (concatenate S110000x2 1 [⟨S110000x1, (Vv (Proc.devRef .tc main_v42))⟩, ⟨S110000x1, (Vv (Proc.devRef .tc main_v43))⟩]
          Facts₀.concatenates_S110000x1_S110000x1_S110000x2_d1)
        (id (constant (F := Ideal) S_ .f32 0x3F800000#32)) Facts₀.pads_S110000x2_S110592x2_05920_000 Facts₀.h_S_ := by
  simp only [hostOps0_12, hostOps0_11, hostOps0_10, hostOps0_9]
  after_results_simp
  rfl

/-- Stretches 9 to 12, the bias as a row. -/
theorem s9_v47 : after (hostOps0_12 (F := Ideal)) (after hostOps0_11 (after hostOps0_10 (after hostOps0_9 Vv))) (Proc.devRef .tc main_v47)
    = shapeCast S1x256 (Vv (Proc.devRef .tc main_arg2)) Facts₀.shapeCasts_S256_S1x256 := by
  simp only [hostOps0_12, hostOps0_11, hostOps0_10, hostOps0_9]
  after_results_simp
  rfl

end Cert.KernelIdeal.HostV

end
-- ==== Proof.KernelHostC.lean ====
/-
  The kernel program's host stretches between its two regions and after the second.

  Between the regions: the first region's result loses its 592 padding rows, its rows are gathered along layer 2's edges
  and added per destination node; that table is padded by 240 zero rows, the in-degree is laid as a column and padded by
  240 ones, and the bias is recast as a row. After the second region the two results lose their 240 padding rows. Each
  stretch is read over an arbitrary valuation of the buffers it starts from.
-/
import proofs.«101411_j37503654429370_2_alg».proof.Proof.Gen.KernelIdeal.Frame
import proofs.«101411_j37503654429370_2_alg».proof.Proof.Gen.ReferenceIdeal.Read
import proofs.«101411_j37503654429370_2_alg».proof.Proof.HostTerms
import Idealize.ShloMosaic.PureOps.Ideal
import Idealize.ShloMosaic.Lib.StableHlo.Run

set_option maxRecDepth 16384

noncomputable section

namespace Cert.KernelIdeal.HostV

open Cert.KernelIdeal Cert.KernelIdeal.Gen Cert.ReferenceIdeal.Read
open Idealize.ShloMosaic Idealize.ShloMosaic.TcCoe Idealize.ShloMosaic.StableHlo
open Idealize.SL Idealize.SL.Sem

/-- Layer 2's aggregated table from a given hidden table: its rows gathered along the edges and added per destination. -/
def aggOf (h : FVec Ideal S110000x256 .f32) (x9 x10 : IVec S100000 32) : FVec Ideal S10000x256 .f32 :=
  Host.scatterAdd scatter_S10000x256_S100000x1_S100000x256_1_0_0_1
    (broadcastInDim S10000x256 ![] Facts₀.bcast_S_S10000x256 (constant (F := Ideal) S_ .f32 0x00000000#32))
    (broadcastInDim S100000x1 ![0] Facts₀.bcast_S100000_S100000x1_0 x10)
    (Host.gather gather_S110000x256_S100000x1_S100000x256_1_0_n_n_0_1_1256 h (idxCol2 x9))

/-- From the reference's hidden table it is the reference's aggregated table. -/
theorem aggOf_hidden (x0 : FVec Ideal S1210000x128 .f32) (x1 : FVec Ideal S128x256 .f32) (x2 : FVec Ideal S256 .f32)
    (x3 : FVec Ideal S256x1 .f32) (x7 x8 : IVec S1100000 32) (x9 x10 : IVec S100000 32) :
    aggOf (hidden x0 x1 x2 x3 x7 x8 x9) x9 x10 = agg2 x0 x1 x2 x3 x7 x8 x9 x10 := rfl

variable (Vv : Valuation τ sig (Elt Ideal))

/-- The stretch after region 0, layer 2's aggregated table. -/
theorem s1_v59 : after (hostOps1 (F := Ideal)) Vv (Proc.devRef .tc main_v59)
    = aggOf (extractStridedSlice S110000x256 ![0, 0] ((Vv (Proc.devRef .tc main_v48)) : FVec Ideal S110592x256 .f32) Facts₀.slices_S110592x256_S110000x256_0_0)
        (Vv (Proc.devRef .tc main_arg9)) (Vv (Proc.devRef .tc main_arg10)) := by
  simp only [hostOps1]
  after_results_simp
  rfl

/-- The stretch after region 0, layer 2's in-degree as a column. -/
theorem s1_v60 : after (hostOps1 (F := Ideal)) Vv (Proc.devRef .tc main_v60)
    = broadcastInDim S10000x1 ![0] Facts₀.bcast_S10000_S10000x1_0 ((Vv (Proc.devRef .tc main_v19)) : FVec Ideal S10000 .f32) := by
  simp only [hostOps1]
  after_results_simp

/-- The four stretches before region 1, the padded aggregated table. -/
theorem s2_v61 : after (hostOps1_4 (F := Ideal)) (after hostOps1_3 (after hostOps1_2 (after hostOps1_1 Vv))) (Proc.devRef .tc main_v61)
    = pad S10240x256 ![0, 0] ![240, 0] ![0, 0] (Vv (Proc.devRef .tc main_v59)) (id (Vv (Proc.devRef .tc main_cst_20)))
        Facts₀.pads_S10000x256_S10240x256_02400_000 Facts₀.h_S_ := by
  simp only [hostOps1_4, hostOps1_3, hostOps1_2, hostOps1_1]
  after_results_simp
  rfl

/-- The four stretches before region 1, the padded in-degree column. -/
theorem s2_v62 : after (hostOps1_4 (F := Ideal)) (after hostOps1_3 (after hostOps1_2 (after hostOps1_1 Vv))) (Proc.devRef .tc main_v62)
    = pad S10240x1 ![0, 0] ![240, 0] ![0, 0] (Vv (Proc.devRef .tc main_v60)) (id (constant (F := Ideal) S_ .f32 0x3F800000#32))
        Facts₀.pads_S10000x1_S10240x1_02400_000 Facts₀.h_S_ := by
  simp only [hostOps1_4, hostOps1_3, hostOps1_2, hostOps1_1]
  after_results_simp
  rfl

/-- The four stretches before region 1, the bias as a row. -/
theorem s2_v63 : after (hostOps1_4 (F := Ideal)) (after hostOps1_3 (after hostOps1_2 (after hostOps1_1 Vv))) (Proc.devRef .tc main_v63)
    = shapeCast S1x128 (Vv (Proc.devRef .tc main_arg5)) Facts₀.shapeCasts_S128_S1x128 := by
  simp only [hostOps1_4, hostOps1_3, hostOps1_2, hostOps1_1]
  after_results_simp
  rfl

/-- The last stretch, the gated result without its padding rows. -/
theorem s3_v65 : after (hostOps2 (F := Ideal)) Vv (Proc.devRef .tc main_v65)
    = extractStridedSlice S10000x128 ![0, 0] ((Vv (Proc.devRef .tc main_v64_0)) : FVec Ideal S10240x128 .f32) Facts₀.slices_S10240x128_S10000x128_0_0 := by
  simp only [hostOps2]
  after_results_simp

/-- The last stretch, the gate column without its padding rows. -/
theorem s3_v66 : after (hostOps2 (F := Ideal)) Vv (Proc.devRef .tc main_v66)
    = extractStridedSlice S10000x1 ![0, 0] ((Vv (Proc.devRef .tc main_v64_1)) : FVec Ideal S10240x1 .f32) Facts₀.slices_S10240x1_S10000x1_0_0 := by
  simp only [hostOps2]
  after_results_simp

end Cert.KernelIdeal.HostV

end
-- ==== Proof.KernelHostK.lean ====
/-
  Buffers the kernel program's host stretches leave alone.

  No host stretch writes an argument buffer, so at region 0's entry (after thirteen stretches) the arguments read later
  still hold their launch contents; and the five stretches between the regions write neither the layer-2 weights nor the
  gate column.
-/
import proofs.«101411_j37503654429370_2_alg».proof.Proof.Gen.KernelIdeal.Frame
import proofs.«101411_j37503654429370_2_alg».proof.Proof.Gen.ReferenceIdeal.Read
import Idealize.ShloMosaic.PureOps.Ideal
import Idealize.ShloMosaic.Lib.StableHlo.Run

set_option maxRecDepth 16384

noncomputable section

namespace Cert.KernelIdeal.HostV

open Cert.KernelIdeal Cert.KernelIdeal.Gen Cert.ReferenceIdeal.Read
open Idealize.ShloMosaic Idealize.ShloMosaic.TcCoe Idealize.ShloMosaic.StableHlo
open Idealize.SL Idealize.SL.Sem

variable (m : (ℓ : Loc nD τ sig) → Buf (Elt Ideal) ℓ) (ρ : Dev nD → PrngReg)

/-- Argument 1 at region 0's entry is as launched. -/
theorem W13_arg1 (c : Dev nD) : W13 (F := Ideal) m ρ c (Proc.devRef .tc main_arg1) = (m ((c : Thread nD τ).loc main_arg1)) := by
  dsimp only [W13, W12, W11, W10, W9, W8, W7, W6, W5, W4, W3, W2, W1]
  simp only [hostOps0_12, hostOps0_11, hostOps0_10, hostOps0_9, hostOps0_8, hostOps0_7, hostOps0_6, hostOps0_5, hostOps0_4, hostOps0_3, hostOps0_2, hostOps0_1, hostOps0]
  after_results_simp
/-- Argument 3 at region 0's entry is as launched. -/
theorem W13_arg3 (c : Dev nD) : W13 (F := Ideal) m ρ c (Proc.devRef .tc main_arg3) = (m ((c : Thread nD τ).loc main_arg3)) := by
  dsimp only [W13, W12, W11, W10, W9, W8, W7, W6, W5, W4, W3, W2, W1]
  simp only [hostOps0_12, hostOps0_11, hostOps0_10, hostOps0_9, hostOps0_8, hostOps0_7, hostOps0_6, hostOps0_5, hostOps0_4, hostOps0_3, hostOps0_2, hostOps0_1, hostOps0]
  after_results_simp
/-- Argument 4 at region 0's entry is as launched. -/
theorem W13_arg4 (c : Dev nD) : W13 (F := Ideal) m ρ c (Proc.devRef .tc main_arg4) = (m ((c : Thread nD τ).loc main_arg4)) := by
  dsimp only [W13, W12, W11, W10, W9, W8, W7, W6, W5, W4, W3, W2, W1]
  simp only [hostOps0_12, hostOps0_11, hostOps0_10, hostOps0_9, hostOps0_8, hostOps0_7, hostOps0_6, hostOps0_5, hostOps0_4, hostOps0_3, hostOps0_2, hostOps0_1, hostOps0]
  after_results_simp
/-- Argument 5 at region 0's entry is as launched. -/
theorem W13_arg5 (c : Dev nD) : W13 (F := Ideal) m ρ c (Proc.devRef .tc main_arg5) = (m ((c : Thread nD τ).loc main_arg5)) := by
  dsimp only [W13, W12, W11, W10, W9, W8, W7, W6, W5, W4, W3, W2, W1]
  simp only [hostOps0_12, hostOps0_11, hostOps0_10, hostOps0_9, hostOps0_8, hostOps0_7, hostOps0_6, hostOps0_5, hostOps0_4, hostOps0_3, hostOps0_2, hostOps0_1, hostOps0]
  after_results_simp
/-- Argument 6 at region 0's entry is as launched. -/
theorem W13_arg6 (c : Dev nD) : W13 (F := Ideal) m ρ c (Proc.devRef .tc main_arg6) = (m ((c : Thread nD τ).loc main_arg6)) := by
  dsimp only [W13, W12, W11, W10, W9, W8, W7, W6, W5, W4, W3, W2, W1]
  simp only [hostOps0_12, hostOps0_11, hostOps0_10, hostOps0_9, hostOps0_8, hostOps0_7, hostOps0_6, hostOps0_5, hostOps0_4, hostOps0_3, hostOps0_2, hostOps0_1, hostOps0]
  after_results_simp
/-- Argument 9 at region 0's entry is as launched. -/
theorem W13_arg9 (c : Dev nD) : W13 (F := Ideal) m ρ c (Proc.devRef .tc main_arg9) = (m ((c : Thread nD τ).loc main_arg9)) := by
  dsimp only [W13, W12, W11, W10, W9, W8, W7, W6, W5, W4, W3, W2, W1]
  simp only [hostOps0_12, hostOps0_11, hostOps0_10, hostOps0_9, hostOps0_8, hostOps0_7, hostOps0_6, hostOps0_5, hostOps0_4, hostOps0_3, hostOps0_2, hostOps0_1, hostOps0]
  after_results_simp
/-- Argument 10 at region 0's entry is as launched. -/
theorem W13_arg10 (c : Dev nD) : W13 (F := Ideal) m ρ c (Proc.devRef .tc main_arg10) = (m ((c : Thread nD τ).loc main_arg10)) := by
  dsimp only [W13, W12, W11, W10, W9, W8, W7, W6, W5, W4, W3, W2, W1]
  simp only [hostOps0_12, hostOps0_11, hostOps0_10, hostOps0_9, hostOps0_8, hostOps0_7, hostOps0_6, hostOps0_5, hostOps0_4, hostOps0_3, hostOps0_2, hostOps0_1, hostOps0]
  after_results_simp

/-- The bias argument after the first nine stretches is as launched. -/
theorem W9_arg2 (c : Dev nD) : W9 (F := Ideal) m ρ c (Proc.devRef .tc main_arg2) = (m ((c : Thread nD τ).loc main_arg2)) := by
  dsimp only [W9, W8, W7, W6, W5, W4, W3, W2, W1]
  simp only [hostOps0_8, hostOps0_7, hostOps0_6, hostOps0_5, hostOps0_4, hostOps0_3, hostOps0_2, hostOps0_1, hostOps0]
  after_results_simp

variable (Vv : Valuation τ sig (Elt Ideal))

/-- Stretches 8 to 12 do not write layer 2's in-degree vector. -/
theorem s8_keep_v19 : after (hostOps0_12 (F := Ideal)) (after hostOps0_11 (after hostOps0_10 (after hostOps0_9 (after hostOps0_8 Vv))))
    (Proc.devRef .tc main_v19) = Vv (Proc.devRef .tc main_v19) := by
  simp only [hostOps0_12, hostOps0_11, hostOps0_10, hostOps0_9, hostOps0_8]
  after_results_simp

/-- The stretch after region 0 does not write the layer-2 bias argument. -/
theorem s1_keep_arg5 : after (hostOps1 (F := Ideal)) Vv (Proc.devRef .tc main_arg5) = Vv (Proc.devRef .tc main_arg5) := by
  simp only [hostOps1]
  after_results_simp

/-- The five stretches between the regions do not write argument 4. -/
theorem s12_keep_arg4 : after (hostOps1_4 (F := Ideal)) (after hostOps1_3 (after hostOps1_2 (after hostOps1_1 (after hostOps1 Vv))))
    (Proc.devRef .tc main_arg4) = Vv (Proc.devRef .tc main_arg4) := by
  simp only [hostOps1_4, hostOps1_3, hostOps1_2, hostOps1_1, hostOps1]
  after_results_simp
/-- The five stretches between the regions do not write argument 6. -/
theorem s12_keep_arg6 : after (hostOps1_4 (F := Ideal)) (after hostOps1_3 (after hostOps1_2 (after hostOps1_1 (after hostOps1 Vv))))
    (Proc.devRef .tc main_arg6) = Vv (Proc.devRef .tc main_arg6) := by
  simp only [hostOps1_4, hostOps1_3, hostOps1_2, hostOps1_1, hostOps1]
  after_results_simp

end Cert.KernelIdeal.HostV

end
-- ==== Proof.LibTiles.lean ====
/-
  Two-dimensional tiles over the extended reals, read entry by entry.

  * a product of an m×k tile by a k×n tile accumulated into the zero tile: entry (a, b) is the sum over the contracted
    coordinate of the products of the entries;
  * a column (an m×1 tile) laid across n columns: entry (a, b) is the column's entry a;
  * a row (a 1×n tile) laid down m rows: entry (a, b) is the row's entry b.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibTiles

open Idealize.ShloMosaic Idealize.ShloMosaic.ValueIdx

variable {m n : Nat}

/-- The product of an m×k tile by a k×n tile (left operand contracted on its columns, right operand on its rows, no
    batch axes), accumulated into the zero tile, read at entry (a, b): the sum over the contracted coordinate `c` of
    `A (a, c) * B (c, b)`. `w` is the well-formedness of the dimension numbers, which a program states. -/
theorem matmul_zero_apply {k : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims _ _ _) prec A B
        (constant (F := Ideal) ⟨2, ![m, n]⟩ .f32 0x00000000#32) (ix2 a b)
      = ∑ c : Fin k, A (ix2 a c) * B (ix2 c b) := by
  show FloatOps.matmul _ prec A B (constant (F := Ideal) ⟨2, ![m, n]⟩ .f32 0x00000000#32) (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A column laid across the columns of an m×n tile, read at entry (a, b): the column's entry `a`. -/
theorem broadcast_col_apply {α : Type} (x : (⟨2, ![m, 1]⟩ : Shape).Idx → α)
    (h : (⟨2, ![m, 1]⟩ : Shape).Broadcasts ⟨2, ![m, n]⟩) (a : Fin m) (b : Fin n) :
    broadcastTo ⟨2, ![m, n]⟩ x h (ix2 a b) = x (ix2 a (0 : Fin 1)) := by
  refine broadcastTo_apply x h (ix2 a b) (ix2 a (0 : Fin 1)) ?_
  intro ax
  match ax with
  | ⟨0, _⟩ =>
    show a.val = if m = 1 then 0 else a.val
    split
    · have := a.isLt; omega
    · rfl
  | ⟨1, _⟩ => rfl

/-- A row laid down the rows of an m×n tile, read at entry (a, b): the row's entry `b`. -/
theorem broadcast_row_apply {α : Type} (x : (⟨2, ![1, n]⟩ : Shape).Idx → α)
    (h : (⟨2, ![1, n]⟩ : Shape).Broadcasts ⟨2, ![m, n]⟩) (a : Fin m) (b : Fin n) :
    broadcastTo ⟨2, ![m, n]⟩ x h (ix2 a b) = x (ix2 (0 : Fin 1) b) := by
  refine broadcastTo_apply x h (ix2 a b) (ix2 (0 : Fin 1) b) ?_
  intro ax
  match ax with
  | ⟨0, _⟩ => rfl
  | ⟨1, _⟩ =>
    show b.val = if n = 1 then 0 else b.val
    split
    · have := b.isLt; omega
    · rfl

end Cert.LibTiles

end
-- ==== Proof.LibGateLayer.lean ====
/-
  One row of a gated dense layer over the extended reals.

  For a row `x` of `k` entries with a positive weight `d` (a degree), a matrix `W` (k × n), a bias `b` and a gate
  vector `a` (n entries):
    * the linear part at column j:   rowLin x d W b j = (∑ c, (x c · d^(-1/2)) · W c j) + b j;
    * the gate:                      rowGate x d W b a = logistic (∑ j, rowLin x d W b j · a j).
  A tile of m such rows, computed as a matrix product into a zero accumulator plus a broadcast bias, is read entry by
  entry as these two functions of the tile's own row; nothing in a row's result depends on any other row.
-/
import Idealize.ShloMosaic.PureOps.Ideal
import Idealize.ShloMosaic.PureOps.Ideal.Laws
import Idealize.ShloMosaic.Lib.ValueIdx
import Idealize.ShloMosaic.Lib.Pipeline.Value
import proofs.«101411_j37503654429370_2_alg».proof.Proof.LibTiles

noncomputable section

namespace Cert.LibGateLayer

open Idealize.ShloMosaic Idealize.ShloMosaic.ValueIdx

/-- The linear part of one row: the row scaled by `d^(-1/2)`, times `W`, plus the bias, at column `j`. -/
def rowLin {k n : Nat} (x : Fin k → EReal) (d : EReal) (W : Fin k → Fin n → EReal) (b : Fin n → EReal) (j : Fin n) : EReal :=
  (∑ c : Fin k, (x c * Ideal.rsqrt d) * W c j) + b j

/-- The gate of one row: the logistic function of the linear part against the gate vector. -/
def rowGate {k n : Nat} (x : Fin k → EReal) (d : EReal) (W : Fin k → Fin n → EReal) (b : Fin n → EReal)
    (a : Fin n → EReal) : EReal :=
  Ideal.logistic (∑ j : Fin n, rowLin x d W b j * a j)

variable {m k n : Nat}

/-- A tile's linear part, entry (r, j): the rows `A` scaled by the column `D^(-1/2)`, times `Wt` into a zero
    accumulator, plus the row `B` laid down the tile. -/
theorem tile_lin
    (w : DotDims.WF ⟨2, ![m, k]⟩ ⟨2, ![k, n]⟩ ⟨2, ![m, n]⟩ [1] [0] [0] [1] [] [])
    (hc : (⟨2, ![m, 1]⟩ : Shape).Broadcasts ⟨2, ![m, k]⟩) (hr : (⟨2, ![1, n]⟩ : Shape).Broadcasts ⟨2, ![m, n]⟩)
    (A : FVec Ideal ⟨2, ![m, k]⟩ .f32) (D : FVec Ideal ⟨2, ![m, 1]⟩ .f32) (Wt : FVec Ideal ⟨2, ![k, n]⟩ .f32)
    (B : FVec Ideal ⟨2, ![1, n]⟩ .f32) (r : Fin m) (j : Fin n) :
    addf (matmul (⟨[1], [0], [0], [1], [], [], w⟩ : DotDims _ _ _) none (mulf A (broadcastTo ⟨2, ![m, k]⟩ (rsqrt D) hc)) Wt
        (constant (F := Ideal) ⟨2, ![m, n]⟩ .f32 0x00000000#32)) (broadcastTo ⟨2, ![m, n]⟩ B hr) (ix2 r j)
      = rowLin (fun c => A (ix2 r c)) (D (ix2 r (0 : Fin 1))) (fun c j => Wt (ix2 c j)) (fun j => B (ix2 (0 : Fin 1) j)) j := by
  rw [addf_apply, Cert.LibTiles.matmul_zero_apply, Cert.LibTiles.broadcast_row_apply]
  unfold rowLin
  congr 1
  refine Finset.sum_congr rfl fun c _ => ?_
  rw [mulf_apply, Cert.LibTiles.broadcast_col_apply]
  rfl

/-- A tile's gate, row r: the logistic function of the linear part `H` times the gate column `At` into a zero
    accumulator. -/
theorem tile_gate
    (w : DotDims.WF ⟨2, ![m, n]⟩ ⟨2, ![n, 1]⟩ ⟨2, ![m, 1]⟩ [1] [0] [0] [1] [] [])
    (H : FVec Ideal ⟨2, ![m, n]⟩ .f32) (At : FVec Ideal ⟨2, ![n, 1]⟩ .f32) (r : Fin m) :
    logistic (matmul (⟨[1], [0], [0], [1], [], [], w⟩ : DotDims _ _ _) none H At
        (constant (F := Ideal) ⟨2, ![m, 1]⟩ .f32 0x00000000#32)) (ix2 r (0 : Fin 1))
      = Ideal.logistic (∑ j : Fin n, H (ix2 r j) * At (ix2 j (0 : Fin 1))) := by
  show Ideal.logistic (matmul (⟨[1], [0], [0], [1], [], [], w⟩ : DotDims _ _ _) none H At
        (constant (F := Ideal) ⟨2, ![m, 1]⟩ .f32 0x00000000#32) (ix2 r (0 : Fin 1))) = _
  rw [Cert.LibTiles.matmul_zero_apply]

end Cert.LibGateLayer

end
-- ==== Proof.KernelBody.lean ====
/-
  The two kernel bodies' arithmetic, read entry by entry over the extended reals.

  Region 0's body takes a tile of 4096 rows of the aggregated features (128 wide), the tile's two columns of row
  weights (the in-degree, and the next layer's source-side scale), the 128×256 weights, the bias row and the gate
  column, and stores  lin(r, j) · gate(r) · scale(r),  where lin and gate are one row's linear part and gate.
  Region 1's body does the same on tiles of 2048 rows (256 wide, 128 out) without the extra scale, and stores both
  lin · gate and the gate column itself.
-/
import proofs.«101411_j37503654429370_2_alg».proof.Proof.Gen.KernelIdeal.Skeleton
import proofs.«101411_j37503654429370_2_alg».proof.Proof.LibGateLayer

noncomputable section

namespace Cert.KernelIdeal.BodyV

open Cert.KernelIdeal Cert.KernelIdeal.Gen Cert.KernelIdeal.Facts₀ Cert.KernelIdeal.Facts Cert.LibGateLayer
open Idealize.ShloMosaic Idealize.ShloMosaic.ValueIdx

/-- Region 0's stored tile at entry (p, j). -/
theorem pay0_apply (v0 v2 : Vec Ideal S4096x1 .f32) (v5 : Vec Ideal S4096x128 .f32) (v9 : Vec Ideal S128x256 .f32)
    (v11 : Vec Ideal S1x256 .f32) (v15 : Vec Ideal S256x1 .f32) (p : Fin 4096) (j : Fin 256) :
    k0_pay1 (F := Ideal) v0 v2 v5 v9 v11 v15 (ix2 p j)
      = rowLin (fun c : Fin 128 => v5 (ix2 p c)) (v0 (ix2 p (0 : Fin 1))) (fun (c : Fin 128) (j : Fin 256) => v9 (ix2 c j))
            (fun j : Fin 256 => v11 (ix2 (0 : Fin 1) j)) j
        * rowGate (fun c : Fin 128 => v5 (ix2 p c)) (v0 (ix2 p (0 : Fin 1))) (fun (c : Fin 128) (j : Fin 256) => v9 (ix2 c j))
            (fun j : Fin 256 => v11 (ix2 (0 : Fin 1) j)) (fun j : Fin 256 => v15 (ix2 j (0 : Fin 1)))
        * v2 (ix2 p (0 : Fin 1)) := by
  unfold k0_pay1
  simp only [shapeCast_self]
  rw [mulf_apply, mulf_apply]
  refine congrArg₂ (· * ·) (congrArg₂ (· * ·) ?_ ?_) ?_
  · exact tile_lin dot_S4096x128_S128x256_S4096x256_1_0_0_1_n_n.wf Facts₀.broadcasts_S4096x1_S4096x128
      Facts₀.broadcasts_S1x256_S4096x256 v5 v0 v9 v11 p j
  · refine (Cert.LibTiles.broadcast_col_apply _ _ p j).trans ?_
    refine (tile_gate dot_S4096x256_S256x1_S4096x1_1_0_0_1_n_n.wf _ v15 p).trans ?_
    unfold rowGate
    refine congrArg Ideal.logistic (Finset.sum_congr rfl fun j' _ => ?_)
    exact congrArg (· * v15 (ix2 j' (0 : Fin 1))) (tile_lin dot_S4096x128_S128x256_S4096x256_1_0_0_1_n_n.wf
      Facts₀.broadcasts_S4096x1_S4096x128 Facts₀.broadcasts_S1x256_S4096x256 v5 v0 v9 v11 p j')
  · exact Cert.LibTiles.broadcast_col_apply _ _ p j

/-- Region 1's linear part at entry (p, j). -/
theorem lin1_apply (v0 : Vec Ideal S2048x1 .f32) (v3 : Vec Ideal S2048x256 .f32) (v7 : Vec Ideal S256x128 .f32)
    (v9 : Vec Ideal S1x128 .f32) (p : Fin 2048) (j : Fin 128) :
    k1_pay1 (F := Ideal) v0 v3 v7 v9 (ix2 p j)
      = rowLin (fun c : Fin 256 => v3 (ix2 p c)) (v0 (ix2 p (0 : Fin 1))) (fun (c : Fin 256) (j : Fin 128) => v7 (ix2 c j))
            (fun j : Fin 128 => v9 (ix2 (0 : Fin 1) j)) j := by
  unfold k1_pay1
  simp only [shapeCast_self]
  exact tile_lin dot_S2048x256_S256x128_S2048x128_1_0_0_1_n_n.wf Facts₀.broadcasts_S2048x1_S2048x256
    Facts₀.broadcasts_S1x128_S2048x128 v3 v0 v7 v9 p j

/-- Region 1's stored gate column at row p. -/
theorem gate1_apply (v0 : Vec Ideal S2048x1 .f32) (v3 : Vec Ideal S2048x256 .f32) (v7 : Vec Ideal S256x128 .f32)
    (v9 : Vec Ideal S1x128 .f32) (v13 : Vec Ideal S128x1 .f32) (p : Fin 2048) :
    k1_pay2 (F := Ideal) v0 v3 v7 v9 v13 (ix2 p (0 : Fin 1))
      = rowGate (fun c : Fin 256 => v3 (ix2 p c)) (v0 (ix2 p (0 : Fin 1))) (fun (c : Fin 256) (j : Fin 128) => v7 (ix2 c j))
            (fun j : Fin 128 => v9 (ix2 (0 : Fin 1) j)) (fun j : Fin 128 => v13 (ix2 j (0 : Fin 1))) := by
  unfold k1_pay2
  refine (tile_gate dot_S2048x128_S128x1_S2048x1_1_0_0_1_n_n.wf _ v13 p).trans ?_
  unfold rowGate
  refine congrArg Ideal.logistic (Finset.sum_congr rfl fun j' _ => ?_)
  exact congrArg (· * v13 (ix2 j' (0 : Fin 1))) (lin1_apply v0 v3 v7 v9 p j')

/-- Region 1's stored tile at entry (p, j). -/
theorem out1_apply (v0 : Vec Ideal S2048x1 .f32) (v3 : Vec Ideal S2048x256 .f32) (v7 : Vec Ideal S256x128 .f32)
    (v9 : Vec Ideal S1x128 .f32) (v13 : Vec Ideal S128x1 .f32) (p : Fin 2048) (j : Fin 128) :
    k1_pay3 (F := Ideal) v0 v3 v7 v9 v13 (ix2 p j)
      = rowLin (fun c : Fin 256 => v3 (ix2 p c)) (v0 (ix2 p (0 : Fin 1))) (fun (c : Fin 256) (j : Fin 128) => v7 (ix2 c j))
            (fun j : Fin 128 => v9 (ix2 (0 : Fin 1) j)) j
        * rowGate (fun c : Fin 256 => v3 (ix2 p c)) (v0 (ix2 p (0 : Fin 1))) (fun (c : Fin 256) (j : Fin 128) => v7 (ix2 c j))
            (fun j : Fin 128 => v9 (ix2 (0 : Fin 1) j)) (fun j : Fin 128 => v13 (ix2 j (0 : Fin 1))) := by
  unfold k1_pay3
  rw [mulf_apply]
  refine congrArg₂ (· * ·) (lin1_apply v0 v3 v7 v9 p j) ?_
  exact (Cert.LibTiles.broadcast_col_apply _ _ p j).trans (gate1_apply v0 v3 v7 v9 v13 p)

end Cert.KernelIdeal.BodyV

end
-- ==== Proof.KernelRegion0.lean ====
/-
  Region 0 as one whole-array function.

  The region walks 27 points; point t takes rows [4096 t, 4096 t + 4096) of the padded aggregated features (110592 × 128)
  and of the padded two-column row weights (110592 × 2), the whole weights, bias row and gate column, and writes back
  rows [4096 t, 4096 t + 4096) of the 110592 × 256 result. A result row depends only on the same row of the two padded
  inputs, so the blocks are restrictions of one function of the region's input arrays, and the 27 blocks cover the result.
-/
import proofs.«101411_j37503654429370_2_alg».proof.Proof.Gen.KernelIdeal.Frame
import proofs.«101411_j37503654429370_2_alg».proof.Proof.KernelBody

set_option maxRecDepth 16384

noncomputable section

namespace Cert.KernelIdeal.Region0V

open Cert.KernelIdeal Cert.KernelIdeal.Gen Cert.LibGateLayer
open Idealize.ShloMosaic Idealize.ShloMosaic.TcCoe Idealize.ShloMosaic.ValueIdx
open Idealize.SL Idealize.SL.Sem
open Idealize.ShloMosaic.Pipeline (Dat Cfg Window)

/-- Row r, column j of the layer's result: lin(r, j) · gate(r) · (the row's second weight). -/
def layerAt (agg : S110592x128.Idx → EReal) (aux : S110592x2.Idx → EReal) (W : S128x256.Idx → EReal) (b : S1x256.Idx → EReal)
    (a : S256x1.Idx → EReal) (r : Fin 110592) (j : Fin 256) : EReal :=
  rowLin (fun c : Fin 128 => agg (ix2 r c)) (aux (ix2 r (0 : Fin 2))) (fun (c : Fin 128) (j : Fin 256) => W (ix2 c j))
      (fun j : Fin 256 => b (ix2 (0 : Fin 1) j)) j
    * rowGate (fun c : Fin 128 => agg (ix2 r c)) (aux (ix2 r (0 : Fin 2))) (fun (c : Fin 128) (j : Fin 256) => W (ix2 c j))
      (fun j : Fin 256 => b (ix2 (0 : Fin 1) j)) (fun j : Fin 256 => a (ix2 j (0 : Fin 1)))
    * aux (ix2 r (1 : Fin 2))

/-- The whole result array as a function of the region's five input arrays. -/
def layer (agg : S110592x128.Idx → EReal) (aux : S110592x2.Idx → EReal) (W : S128x256.Idx → EReal) (b : S1x256.Idx → EReal)
    (a : S256x1.Idx → EReal) : S110592x256.Idx → EReal :=
  fun i => layerAt agg aux W b a (i 0) (i 1)

theorem hz : (![0, 0] : Fin 2 → Nat) = fun _ => 0 := funext fun a => by fin_cases a <;> rfl

/-- One block: the body's stored tile at (p, j) is the layer at row r of arrays that agree with the blocks there. -/
theorem block_eq (x0 : Vec Ideal S4096x128 .f32) (x1 : Vec Ideal S4096x2 .f32) (x2 : Vec Ideal S128x256 .f32)
    (x3 : Vec Ideal S1x256 .f32) (x4 : Vec Ideal S256x1 .f32)
    (agg : S110592x128.Idx → EReal) (aux : S110592x2.Idx → EReal) (p : Fin 4096) (j : Fin 256) (r : Fin 110592)
    (h0 : ∀ cc : Fin 128, x0 (ix2 p cc) = agg (ix2 r cc))
    (h10 : x1 (ix2 p (0 : Fin 2)) = aux (ix2 r (0 : Fin 2))) (h11 : x1 (ix2 p (1 : Fin 2)) = aux (ix2 r (1 : Fin 2))) :
    out0_5 x0 x1 x2 x3 x4 (ix2 p j) = layerAt agg aux x2 x3 x4 r j := by
  unfold out0_5
  rw [View.canon_unit_zero hz]
  simp only [View.ld_unit_zero (S := S4096x128) hz, View.ld_unit_zero (S := S128x256) hz,
    View.ld_unit_zero (S := S1x256) hz, View.ld_unit_zero (S := S256x1) hz]
  refine (BodyV.pay0_apply _ _ x0 x2 x3 x4 p j).trans ?_
  have e0 : View.ld x1 r0_0 (ix2 p (0 : Fin 1)) = aux (ix2 r (0 : Fin 2)) := by
    refine Eq.trans ?_ h10
    show x1 (r0_0.emb (ix2 p (0 : Fin 1))) = x1 (ix2 p (0 : Fin 2))
    refine congrArg x1 (funext fun a => Fin.ext ?_)
    rw [Rect.emb_apply]
    match a with
    | ⟨0, _⟩ => show 0 + 1 * p.val = p.val; omega
    | ⟨1, _⟩ => rfl
  have e1 : View.ld x1 r0_1 (ix2 p (0 : Fin 1)) = aux (ix2 r (1 : Fin 2)) := by
    refine Eq.trans ?_ h11
    show x1 (r0_1.emb (ix2 p (0 : Fin 1))) = x1 (ix2 p (1 : Fin 2))
    refine congrArg x1 (funext fun a => Fin.ext ?_)
    rw [Rect.emb_apply]
    match a with
    | ⟨0, _⟩ => show 0 + 1 * p.val = p.val; omega
    | ⟨1, _⟩ => rfl
  unfold layerAt
  rw [e0, e1]
  simp only [h0]

section
variable (V : (c : Dev nD) → (b : Ref sig .tc) → Buf (Elt Ideal) ((c : Thread nD τ).loc b))

/-- The printed index maps over the grid: the three row-blocked windows sit at block row t, the three whole-array
    windows at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Block t of the padded features, at (p, cc): the array's row 4096 t + p. -/
theorem read_agg (c : Dev nD) (t : Fin cfg0.N) (p : Fin 4096) (cc : Fin 128) (r : Fin 110592)
    (hr : r.val = t.val * 4096 + p.val) :
    iblk0 V c 0 t (ix2 p cc) = (V c main_v44 : S110592x128.Idx → EReal) (ix2 r cc) := by
  show (V c main_v44 : S110592x128.Idx → EReal) (((cfg0.win 0).blk t).view.emb (ix2 p cc)) = _
  refine congrArg _ (funext fun a => Fin.ext ?_)
  obtain ⟨e0, e1, -⟩ := idx_facts t
  match a with
  | ⟨0, _⟩ => show win0_0.index t (0 : Fin 2) * 4096 + 1 * p.val = r.val; omega
  | ⟨1, _⟩ => show win0_0.index t (1 : Fin 2) * 128 + 1 * cc.val = cc.val; omega

/-- Block t of the padded row weights, at (p, q): the array's row 4096 t + p. -/
theorem read_aux (c : Dev nD) (t : Fin cfg0.N) (p : Fin 4096) (q : Fin 2) (r : Fin 110592)
    (hr : r.val = t.val * 4096 + p.val) :
    iblk0 V c 1 t (ix2 p q) = (V c main_v46 : S110592x2.Idx → EReal) (ix2 r q) := by
  show (V c main_v46 : S110592x2.Idx → EReal) (((cfg0.win 1).blk t).view.emb (ix2 p q)) = _
  refine congrArg _ (funext fun a => Fin.ext ?_)
  obtain ⟨-, -, e0, e1, -⟩ := idx_facts t
  match a with
  | ⟨0, _⟩ => show win0_1.index t (0 : Fin 2) * 4096 + 1 * p.val = r.val; omega
  | ⟨1, _⟩ => show win0_1.index t (1 : Fin 2) * 2 + 1 * q.val = q.val; omega

/-- The weights' one block is the whole array. -/
theorem read_W (c : Dev nD) (t : Fin cfg0.N) : iblk0 V c 2 t = (V c main_arg1 : S128x256.Idx → EReal) := by
  funext y
  show (V c main_arg1 : S128x256.Idx → EReal) (((cfg0.win 2).blk t).view.emb y) = _
  refine congrArg _ (funext fun a => Fin.ext ?_)
  obtain ⟨-, -, -, -, e0, e1, -⟩ := idx_facts t
  match a with
  | ⟨0, _⟩ => show win0_2.index t (0 : Fin 2) * 128 + 1 * (y 0).val = (y 0).val; omega
  | ⟨1, _⟩ => show win0_2.index t (1 : Fin 2) * 256 + 1 * (y 1).val = (y 1).val; omega

/-- The bias row's one block is the whole array. -/
theorem read_b (c : Dev nD) (t : Fin cfg0.N) : iblk0 V c 3 t = (V c main_v47 : S1x256.Idx → EReal) := by
  funext y
  show (V c main_v47 : S1x256.Idx → EReal) (((cfg0.win 3).blk t).view.emb y) = _
  refine congrArg _ (funext fun a => Fin.ext ?_)
  obtain ⟨-, -, -, -, -, -, e0, e1, -⟩ := idx_facts t
  match a with
  | ⟨0, _⟩ => show win0_3.index t (0 : Fin 2) * 1 + 1 * (y 0).val = (y 0).val; omega
  | ⟨1, _⟩ => show win0_3.index t (1 : Fin 2) * 256 + 1 * (y 1).val = (y 1).val; omega

/-- The gate column's one block is the whole array. -/
theorem read_a (c : Dev nD) (t : Fin cfg0.N) : iblk0 V c 4 t = (V c main_arg3 : S256x1.Idx → EReal) := by
  funext y
  show (V c main_arg3 : S256x1.Idx → EReal) (((cfg0.win 4).blk t).view.emb y) = _
  refine congrArg _ (funext fun a => Fin.ext ?_)
  obtain ⟨-, -, -, -, -, -, -, -, e0, e1, -⟩ := idx_facts t
  match a with
  | ⟨0, _⟩ => show win0_4.index t (0 : Fin 2) * 256 + 1 * (y 0).val = (y 0).val; omega
  | ⟨1, _⟩ => show win0_4.index t (1 : Fin 2) * 1 + 1 * (y 1).val = (y 1).val; omega

/-- What point t writes back is block t of the layer of the region's input arrays. -/
theorem flushed_eq (c : Dev nD) (t : Fin cfg0.N) :
    (dat0 V c).flushed 5 t = ((cfg0.win 5).blk t).view.read (Elt Ideal)
      (layer (V c main_v44) (V c main_v46) (V c main_arg1) (V c main_v47) (V c main_arg3)) := by
  show (cfg0.win 5).cut (grid0.coords t) ((dat0 V c).after 5 t) = _
  rw [after0_5, read_W, read_b, read_a]
  funext y
  obtain ⟨p, j, rfl⟩ : ∃ (p : Fin 4096) (j : Fin 256), y = ix2 p j := ⟨y 0, y 1, eq_ix2 y⟩
  obtain ⟨-, -, -, -, -, -, -, -, -, -, e0, e1⟩ := idx_facts t
  have ht : t.val < 27 := by have h := t.isLt; have hN : cfg0.N = 27 := N_0; omega
  have hr : t.val * 4096 + p.val < 110592 := by have := p.isLt; omega
  show out0_5 (iblk0 V c 0 t) (iblk0 V c 1 t) _ _ _ (ix2 p j)
    = layerAt _ _ _ _ _ (((cfg0.win 5).blk t).view.emb (ix2 p j) 0) (((cfg0.win 5).blk t).view.emb (ix2 p j) 1)
  have hE0 : (((cfg0.win 5).blk t).view.emb (ix2 p j) 0 : Fin 110592) = ⟨t.val * 4096 + p.val, hr⟩ := by
    refine Fin.ext ?_
    show win0_5.index t (0 : Fin 2) * 4096 + 1 * p.val = t.val * 4096 + p.val; omega
  have hE1 : (((cfg0.win 5).blk t).view.emb (ix2 p j) 1 : Fin 256) = j := by
    refine Fin.ext ?_
    show win0_5.index t (1 : Fin 2) * 256 + 1 * j.val = j.val; omega
  rw [hE0, hE1]
  exact block_eq _ _ _ _ _ _ _ p j ⟨t.val * 4096 + p.val, hr⟩ (fun cc => read_agg V c t p cc _ rfl)
    (read_aux V c t p 0 _ rfl) (read_aux V c t p 1 _ rfl)

/-- An index of the result array is in point t's block iff each coordinate is in the block's range. -/
theorem mem_blk (t : Fin cfg0.N) (i : S110592x256.Idx) :
    i ∈ ((cfg0.win 5).blk t).view.set ↔ ∀ a : Fin 2, win0_5.index t a * S4096x256.size a ≤ (i a).val
      ∧ (i a).val < win0_5.index t a * S4096x256.size a + S4096x256.size a := by
  show i ∈ ((View.whole main_v48).slice (win0_5.rect t)).set ↔ _
  rw [View.set_slice_whole, Rect.mem_set_unit]
  exact Iff.rfl

/-- Every row of the result is in some point's block: row r in point r / 4096's. -/
theorem cover (i : S110592x256.Idx) :
    ∃ t : Fin cfg0.N, (cfg0.win 5).flush t = true ∧ i ∈ ((cfg0.win 5).blk t).view.set := by
  have hi0 : (i 0).val < 110592 := (i 0).isLt
  have hi1 : (i 1).val < 256 := (i 1).isLt
  have hN : cfg0.N = 27 := N_0
  refine ⟨⟨(i 0).val / 4096, by rw [hN]; omega⟩, flush0_5 _, ?_⟩
  rw [mem_blk]
  obtain ⟨-, -, -, -, -, -, -, -, -, -, e0, e1⟩ := idx_facts ⟨(i 0).val / 4096, by rw [hN]; omega⟩
  intro a
  match a with
  | ⟨0, _⟩ =>
    show win0_5.index _ (0 : Fin 2) * 4096 ≤ (i 0).val ∧ (i 0).val < win0_5.index _ (0 : Fin 2) * 4096 + 4096
    rw [e0]; show (i 0).val / 4096 * 4096 ≤ (i 0).val ∧ (i 0).val < (i 0).val / 4096 * 4096 + 4096; omega
  | ⟨1, _⟩ =>
    show win0_5.index _ (1 : Fin 2) * 256 ≤ (i 1).val ∧ (i 1).val < win0_5.index _ (1 : Fin 2) * 256 + 256
    rw [e1]; omega

/-- The result array after the region: the layer of the region's input arrays as it finds them. -/
theorem final (c : Dev nD) :
    (dat0 V c).arrAt 5 cfg0.N = layer (V c main_v44) (V c main_v46) (V c main_arg1) (V c main_v47) (V c main_arg3) :=
  (dat0 V c).arrAt_eq_of_cover 5 _ (fun t _ => flushed_eq V c t) cover

end

end Cert.KernelIdeal.Region0V

end
-- ==== Proof.KernelRegion1.lean ====
/-
  Region 1 as whole-array functions.

  The region walks 5 points; point t takes rows [2048 t, 2048 t + 2048) of the padded aggregated features (10240 × 256) and
  of the padded in-degree column (10240 × 1), the whole weights, bias row and gate column, and writes back the same rows
  of two results: lin · gate (10240 × 128) and the gate column (10240 × 1). A result row depends only on the same row of
  the two padded inputs, so each result's blocks are restrictions of one function of the region's input arrays, and the
  5 blocks cover each result.
-/
import proofs.«101411_j37503654429370_2_alg».proof.Proof.Gen.KernelIdeal.Frame
import proofs.«101411_j37503654429370_2_alg».proof.Proof.KernelBody

set_option maxRecDepth 16384

noncomputable section

namespace Cert.KernelIdeal.Region1V

open Cert.KernelIdeal Cert.KernelIdeal.Gen Cert.LibGateLayer
open Idealize.ShloMosaic Idealize.ShloMosaic.TcCoe Idealize.ShloMosaic.ValueIdx
open Idealize.SL Idealize.SL.Sem
open Idealize.ShloMosaic.Pipeline (Dat Cfg Window)

/-- Row r's gate. -/
def gateAt (agg : S10240x256.Idx → EReal) (deg : S10240x1.Idx → EReal) (W : S256x128.Idx → EReal) (b : S1x128.Idx → EReal)
    (a : S128x1.Idx → EReal) (r : Fin 10240) : EReal :=
  rowGate (fun c : Fin 256 => agg (ix2 r c)) (deg (ix2 r (0 : Fin 1))) (fun (c : Fin 256) (j : Fin 128) => W (ix2 c j))
      (fun j : Fin 128 => b (ix2 (0 : Fin 1) j)) (fun j : Fin 128 => a (ix2 j (0 : Fin 1)))

/-- Row r, column j of the gated result: lin(r, j) · gate(r). -/
def outAt (agg : S10240x256.Idx → EReal) (deg : S10240x1.Idx → EReal) (W : S256x128.Idx → EReal) (b : S1x128.Idx → EReal)
    (a : S128x1.Idx → EReal) (r : Fin 10240) (j : Fin 128) : EReal :=
  rowLin (fun c : Fin 256 => agg (ix2 r c)) (deg (ix2 r (0 : Fin 1))) (fun (c : Fin 256) (j : Fin 128) => W (ix2 c j))
      (fun j : Fin 128 => b (ix2 (0 : Fin 1) j)) j
    * gateAt agg deg W b a r

/-- The gated result array as a function of the region's five input arrays. -/
def outArr (agg : S10240x256.Idx → EReal) (deg : S10240x1.Idx → EReal) (W : S256x128.Idx → EReal) (b : S1x128.Idx → EReal)
    (a : S128x1.Idx → EReal) : S10240x128.Idx → EReal :=
  fun i => outAt agg deg W b a (i 0) (i 1)

/-- The gate column as a function of the region's five input arrays. -/
def gateArr (agg : S10240x256.Idx → EReal) (deg : S10240x1.Idx → EReal) (W : S256x128.Idx → EReal) (b : S1x128.Idx → EReal)
    (a : S128x1.Idx → EReal) : S10240x1.Idx → EReal :=
  fun i => gateAt agg deg W b a (i 0)

theorem hz : (![0, 0] : Fin 2 → Nat) = fun _ => 0 := funext fun a => by fin_cases a <;> rfl

/-- One block of the gated result. -/
theorem block_out (x0 : Vec Ideal S2048x256 .f32) (x1 : Vec Ideal S2048x1 .f32) (x2 : Vec Ideal S256x128 .f32)
    (x3 : Vec Ideal S1x128 .f32) (x4 : Vec Ideal S128x1 .f32)
    (agg : S10240x256.Idx → EReal) (deg : S10240x1.Idx → EReal) (p : Fin 2048) (j : Fin 128) (r : Fin 10240)
    (h0 : ∀ cc : Fin 256, x0 (ix2 p cc) = agg (ix2 r cc))
    (h1 : x1 (ix2 p (0 : Fin 1)) = deg (ix2 r (0 : Fin 1))) :
    out1_5 x0 x1 x2 x3 x4 (ix2 p j) = outAt agg deg x2 x3 x4 r j := by
  unfold out1_5
  rw [View.canon_unit_zero hz]
  simp only [View.ld_unit_zero (S := S2048x256) hz, View.ld_unit_zero (S := S2048x1) hz, View.ld_unit_zero (S := S256x128) hz,
    View.ld_unit_zero (S := S1x128) hz, View.ld_unit_zero (S := S128x1) hz]
  refine (BodyV.out1_apply x1 x0 x2 x3 x4 p j).trans ?_
  unfold outAt gateAt
  rw [h1]
  simp only [h0]

/-- One block of the gate column. -/
theorem block_gate (x0 : Vec Ideal S2048x256 .f32) (x1 : Vec Ideal S2048x1 .f32) (x2 : Vec Ideal S256x128 .f32)
    (x3 : Vec Ideal S1x128 .f32) (x4 : Vec Ideal S128x1 .f32)
    (agg : S10240x256.Idx → EReal) (deg : S10240x1.Idx → EReal) (p : Fin 2048) (r : Fin 10240)
    (h0 : ∀ cc : Fin 256, x0 (ix2 p cc) = agg (ix2 r cc))
    (h1 : x1 (ix2 p (0 : Fin 1)) = deg (ix2 r (0 : Fin 1))) :
    out1_6 x0 x1 x2 x3 x4 (ix2 p (0 : Fin 1)) = gateAt agg deg x2 x3 x4 r := by
  unfold out1_6
  rw [View.canon_unit_zero hz]
  simp only [View.ld_unit_zero (S := S2048x256) hz, View.ld_unit_zero (S := S2048x1) hz, View.ld_unit_zero (S := S256x128) hz,
    View.ld_unit_zero (S := S1x128) hz, View.ld_unit_zero (S := S128x1) hz]
  refine (BodyV.gate1_apply x1 x0 x2 x3 x4 p).trans ?_
  unfold gateAt
  rw [h1]
  simp only [h0]

section
variable (V : (c : Dev nD) → (b : Ref sig .tc) → Buf (Elt Ideal) ((c : Thread nD τ).loc b))

/-- The printed index maps over the grid: the four row-blocked windows sit at block row t, the three whole-array
    windows at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-- Block t of the padded features, at (p, cc): the array's row 2048 t + p. -/
theorem read_agg (c : Dev nD) (t : Fin cfg1.N) (p : Fin 2048) (cc : Fin 256) (r : Fin 10240)
    (hr : r.val = t.val * 2048 + p.val) :
    iblk1 V c 0 t (ix2 p cc) = (V c main_v61 : S10240x256.Idx → EReal) (ix2 r cc) := by
  show (V c main_v61 : S10240x256.Idx → EReal) (((cfg1.win 0).blk t).view.emb (ix2 p cc)) = _
  refine congrArg _ (funext fun a => Fin.ext ?_)
  obtain ⟨e0, e1, -⟩ := idx_facts t
  match a with
  | ⟨0, _⟩ => show win1_0.index t (0 : Fin 2) * 2048 + 1 * p.val = r.val; omega
  | ⟨1, _⟩ => show win1_0.index t (1 : Fin 2) * 256 + 1 * cc.val = cc.val; omega

/-- Block t of the padded in-degree column, at (p, 0): the array's row 2048 t + p. -/
theorem read_deg (c : Dev nD) (t : Fin cfg1.N) (p : Fin 2048) (r : Fin 10240)
    (hr : r.val = t.val * 2048 + p.val) :
    iblk1 V c 1 t (ix2 p (0 : Fin 1)) = (V c main_v62 : S10240x1.Idx → EReal) (ix2 r (0 : Fin 1)) := by
  show (V c main_v62 : S10240x1.Idx → EReal) (((cfg1.win 1).blk t).view.emb (ix2 p (0 : Fin 1))) = _
  refine congrArg _ (funext fun a => Fin.ext ?_)
  obtain ⟨-, -, e0, e1, -⟩ := idx_facts t
  match a with
  | ⟨0, _⟩ => show win1_1.index t (0 : Fin 2) * 2048 + 1 * p.val = r.val; omega
  | ⟨1, _⟩ => show win1_1.index t (1 : Fin 2) * 1 + 1 * 0 = 0; omega

/-- The weights' one block is the whole array. -/
theorem read_W (c : Dev nD) (t : Fin cfg1.N) : iblk1 V c 2 t = (V c main_arg4 : S256x128.Idx → EReal) := by
  funext y
  show (V c main_arg4 : S256x128.Idx → EReal) (((cfg1.win 2).blk t).view.emb y) = _
  refine congrArg _ (funext fun a => Fin.ext ?_)
  obtain ⟨-, -, -, -, e0, e1, -⟩ := idx_facts t
  match a with
  | ⟨0, _⟩ => show win1_2.index t (0 : Fin 2) * 256 + 1 * (y 0).val = (y 0).val; omega
  | ⟨1, _⟩ => show win1_2.index t (1 : Fin 2) * 128 + 1 * (y 1).val = (y 1).val; omega

/-- The bias row's one block is the whole array. -/
theorem read_b (c : Dev nD) (t : Fin cfg1.N) : iblk1 V c 3 t = (V c main_v63 : S1x128.Idx → EReal) := by
  funext y
  show (V c main_v63 : S1x128.Idx → EReal) (((cfg1.win 3).blk t).view.emb y) = _
  refine congrArg _ (funext fun a => Fin.ext ?_)
  obtain ⟨-, -, -, -, -, -, e0, e1, -⟩ := idx_facts t
  match a with
  | ⟨0, _⟩ => show win1_3.index t (0 : Fin 2) * 1 + 1 * (y 0).val = (y 0).val; omega
  | ⟨1, _⟩ => show win1_3.index t (1 : Fin 2) * 128 + 1 * (y 1).val = (y 1).val; omega

/-- The gate column's one block is the whole array. -/
theorem read_a (c : Dev nD) (t : Fin cfg1.N) : iblk1 V c 4 t = (V c main_arg6 : S128x1.Idx → EReal) := by
  funext y
  show (V c main_arg6 : S128x1.Idx → EReal) (((cfg1.win 4).blk t).view.emb y) = _
  refine congrArg _ (funext fun a => Fin.ext ?_)
  obtain ⟨-, -, -, -, -, -, -, -, e0, e1, -⟩ := idx_facts t
  match a with
  | ⟨0, _⟩ => show win1_4.index t (0 : Fin 2) * 128 + 1 * (y 0).val = (y 0).val; omega
  | ⟨1, _⟩ => show win1_4.index t (1 : Fin 2) * 1 + 1 * (y 1).val = (y 1).val; omega

/-- What point t writes back to the gated result is block t of `outArr` of the region's input arrays. -/
theorem flushed_out (c : Dev nD) (t : Fin cfg1.N) :
    (dat1 V c).flushed 5 t = ((cfg1.win 5).blk t).view.read (Elt Ideal)
      (outArr (V c main_v61) (V c main_v62) (V c main_arg4) (V c main_v63) (V c main_arg6)) := by
  show (cfg1.win 5).cut (grid1.coords t) ((dat1 V c).after 5 t) = _
  rw [after1_5, read_W, read_b, read_a]
  funext y
  obtain ⟨p, j, rfl⟩ : ∃ (p : Fin 2048) (j : Fin 128), y = ix2 p j := ⟨y 0, y 1, eq_ix2 y⟩
  obtain ⟨-, -, -, -, -, -, -, -, -, -, e0, e1, -⟩ := idx_facts t
  have ht : t.val < 5 := by have h := t.isLt; have hN : cfg1.N = 5 := N_1; omega
  have hr : t.val * 2048 + p.val < 10240 := by have := p.isLt; omega
  show out1_5 (iblk1 V c 0 t) (iblk1 V c 1 t) _ _ _ (ix2 p j)
    = outAt _ _ _ _ _ (((cfg1.win 5).blk t).view.emb (ix2 p j) 0) (((cfg1.win 5).blk t).view.emb (ix2 p j) 1)
  have hE0 : (((cfg1.win 5).blk t).view.emb (ix2 p j) 0 : Fin 10240) = ⟨t.val * 2048 + p.val, hr⟩ := by
    refine Fin.ext ?_
    show win1_5.index t (0 : Fin 2) * 2048 + 1 * p.val = t.val * 2048 + p.val; omega
  have hE1 : (((cfg1.win 5).blk t).view.emb (ix2 p j) 1 : Fin 128) = j := by
    refine Fin.ext ?_
    show win1_5.index t (1 : Fin 2) * 128 + 1 * j.val = j.val; omega
  rw [hE0, hE1]
  exact block_out _ _ _ _ _ _ _ p j ⟨t.val * 2048 + p.val, hr⟩ (fun cc => read_agg V c t p cc _ rfl) (read_deg V c t p _ rfl)

/-- What point t writes back to the gate column is block t of `gateArr` of the region's input arrays. -/
theorem flushed_gate (c : Dev nD) (t : Fin cfg1.N) :
    (dat1 V c).flushed 6 t = ((cfg1.win 6).blk t).view.read (Elt Ideal)
      (gateArr (V c main_v61) (V c main_v62) (V c main_arg4) (V c main_v63) (V c main_arg6)) := by
  show (cfg1.win 6).cut (grid1.coords t) ((dat1 V c).after 6 t) = _
  rw [after1_6, read_W, read_b, read_a]
  funext y
  obtain ⟨p, q, rfl⟩ : ∃ (p : Fin 2048) (q : Fin 1), y = ix2 p q := ⟨y 0, y 1, eq_ix2 y⟩
  obtain rfl : q = 0 := Subsingleton.elim _ _
  obtain ⟨-, -, -, -, -, -, -, -, -, -, -, -, e0, e1⟩ := idx_facts t
  have ht : t.val < 5 := by have h := t.isLt; have hN : cfg1.N = 5 := N_1; omega
  have hr : t.val * 2048 + p.val < 10240 := by have := p.isLt; omega
  show out1_6 (iblk1 V c 0 t) (iblk1 V c 1 t) _ _ _ (ix2 p (0 : Fin 1))
    = gateAt _ _ _ _ _ (((cfg1.win 6).blk t).view.emb (ix2 p (0 : Fin 1)) 0)
  have hE0 : (((cfg1.win 6).blk t).view.emb (ix2 p (0 : Fin 1)) 0 : Fin 10240) = ⟨t.val * 2048 + p.val, hr⟩ := by
    refine Fin.ext ?_
    show win1_6.index t (0 : Fin 2) * 2048 + 1 * p.val = t.val * 2048 + p.val; omega
  rw [hE0]
  exact block_gate _ _ _ _ _ _ _ p ⟨t.val * 2048 + p.val, hr⟩ (fun cc => read_agg V c t p cc _ rfl) (read_deg V c t p _ rfl)

/-- An index of the gated result is in point t's block iff each coordinate is in the block's range. -/
theorem mem_blk_out (t : Fin cfg1.N) (i : S10240x128.Idx) :
    i ∈ ((cfg1.win 5).blk t).view.set ↔ ∀ a : Fin 2, win1_5.index t a * S2048x128.size a ≤ (i a).val
      ∧ (i a).val < win1_5.index t a * S2048x128.size a + S2048x128.size a := by
  show i ∈ ((View.whole main_v64_0).slice (win1_5.rect t)).set ↔ _
  rw [View.set_slice_whole, Rect.mem_set_unit]
  exact Iff.rfl

/-- An index of the gate column is in point t's block iff each coordinate is in the block's range. -/
theorem mem_blk_gate (t : Fin cfg1.N) (i : S10240x1.Idx) :
    i ∈ ((cfg1.win 6).blk t).view.set ↔ ∀ a : Fin 2, win1_6.index t a * S2048x1.size a ≤ (i a).val
      ∧ (i a).val < win1_6.index t a * S2048x1.size a + S2048x1.size a := by
  show i ∈ ((View.whole main_v64_1).slice (win1_6.rect t)).set ↔ _
  rw [View.set_slice_whole, Rect.mem_set_unit]
  exact Iff.rfl

/-- Every row of the gated result is in some point's block: row r in point r / 2048's. -/
theorem cover_out (i : S10240x128.Idx) :
    ∃ t : Fin cfg1.N, (cfg1.win 5).flush t = true ∧ i ∈ ((cfg1.win 5).blk t).view.set := by
  have hi0 : (i 0).val < 10240 := (i 0).isLt
  have hi1 : (i 1).val < 128 := (i 1).isLt
  have hN : cfg1.N = 5 := N_1
  refine ⟨⟨(i 0).val / 2048, by rw [hN]; omega⟩, flush1_5 _, ?_⟩
  rw [mem_blk_out]
  obtain ⟨-, -, -, -, -, -, -, -, -, -, e0, e1, -⟩ := idx_facts ⟨(i 0).val / 2048, by rw [hN]; omega⟩
  intro a
  match a with
  | ⟨0, _⟩ =>
    show win1_5.index _ (0 : Fin 2) * 2048 ≤ (i 0).val ∧ (i 0).val < win1_5.index _ (0 : Fin 2) * 2048 + 2048
    rw [e0]; show (i 0).val / 2048 * 2048 ≤ (i 0).val ∧ (i 0).val < (i 0).val / 2048 * 2048 + 2048; omega
  | ⟨1, _⟩ =>
    show win1_5.index _ (1 : Fin 2) * 128 ≤ (i 1).val ∧ (i 1).val < win1_5.index _ (1 : Fin 2) * 128 + 128
    rw [e1]; omega

/-- Every row of the gate column is in some point's block. -/
theorem cover_gate (i : S10240x1.Idx) :
    ∃ t : Fin cfg1.N, (cfg1.win 6).flush t = true ∧ i ∈ ((cfg1.win 6).blk t).view.set := by
  have hi0 : (i 0).val < 10240 := (i 0).isLt
  have hi1 : (i 1).val < 1 := (i 1).isLt
  have hN : cfg1.N = 5 := N_1
  refine ⟨⟨(i 0).val / 2048, by rw [hN]; omega⟩, flush1_6 _, ?_⟩
  rw [mem_blk_gate]
  obtain ⟨-, -, -, -, -, -, -, -, -, -, -, -, e0, e1⟩ := idx_facts ⟨(i 0).val / 2048, by rw [hN]; omega⟩
  intro a
  match a with
  | ⟨0, _⟩ =>
    show win1_6.index _ (0 : Fin 2) * 2048 ≤ (i 0).val ∧ (i 0).val < win1_6.index _ (0 : Fin 2) * 2048 + 2048
    rw [e0]; show (i 0).val / 2048 * 2048 ≤ (i 0).val ∧ (i 0).val < (i 0).val / 2048 * 2048 + 2048; omega
  | ⟨1, _⟩ =>
    show win1_6.index _ (1 : Fin 2) * 1 ≤ (i 1).val ∧ (i 1).val < win1_6.index _ (1 : Fin 2) * 1 + 1
    rw [e1]; omega

/-- The gated result after the region. -/
theorem final_out (c : Dev nD) :
    (dat1 V c).arrAt 5 cfg1.N = outArr (V c main_v61) (V c main_v62) (V c main_arg4) (V c main_v63) (V c main_arg6) :=
  (dat1 V c).arrAt_eq_of_cover 5 _ (fun t _ => flushed_out V c t) cover_out

/-- The gate column after the region. -/
theorem final_gate (c : Dev nD) :
    (dat1 V c).arrAt 6 cfg1.N = gateArr (V c main_v61) (V c main_v62) (V c main_arg4) (V c main_v63) (V c main_arg6) :=
  (dat1 V c).arrAt_eq_of_cover 6 _ (fun t _ => flushed_gate V c t) cover_gate

end

end Cert.KernelIdeal.Region1V

end
-- ==== Proof.LibPadInside.lean ====
/-
  A padded array read inside the original.

  `pad` with no low padding and no interior padding only appends entries at the high end of each axis. At an index whose
  every coordinate is below the operand's extent, the padded array holds the operand's entry at the same coordinates,
  whatever the padding value is.
-/
import Idealize.ShloMosaic.PureOps.ShapeOps

namespace Cert.LibPadInside

open Idealize.ShloMosaic

/-- A pad with zero low and zero interior padding, read at an index `j` whose coordinates are those of an index `k` of
    the operand: the operand at `k`. -/
theorem pad_apply_inside {s t u : Shape} {α : Type} (lo hi interior : Fin s.rank → Nat) (x : s.Idx → α) (v : u.Idx → α)
    (h : s.Pads lo hi interior t) (hu : 0 < u.numel) (j : t.Idx) (k : s.Idx)
    (hlo : ∀ a, lo a = 0) (hint : ∀ a, interior a = 0) (hk : ∀ a : Fin s.rank, (k a).val = (j (a.cast h.1)).val) :
    pad t lo hi interior x v h hu j = x k := by
  unfold pad
  have hin : ∀ a : Fin s.rank, lo a ≤ (j (a.cast h.1)).val ∧ ((j (a.cast h.1)).val - lo a) % (interior a + 1) = 0
      ∧ ((j (a.cast h.1)).val - lo a) / (interior a + 1) < s.size a := by
    intro a
    have hlt : (k a).val < s.size a := (k a).isLt
    rw [hlo a, hint a, ← hk a]
    exact ⟨Nat.zero_le _, by omega, by omega⟩
  rw [dif_pos hin]
  refine congrArg x (funext fun a => Fin.ext ?_)
  show ((j (a.cast h.1)).val - lo a) / (interior a + 1) = (k a).val
  rw [hlo a, hint a, hk a]
  omega

end Cert.LibPadInside
-- ==== Proof.LibEdgeIndex.lean ====
/-
  Gathers and a scatter along the first axis by ONE COLUMN of start indices `idx : [E, 1]`, read at coordinates.

  * whole rows of a table `x : [N, K]` (`x[idx]`: offset axis 1, collapsed axis 0, index vector along axis 1):
    result element `(e, k)` is `x` at row `idx[e, 0]` read signed and clamped into `[0, N − 1]`, column `k`;
  * entries of a vector `x : [N]`: result element `e` is `x` at `idx[e, 0]` read signed and clamped;
  * a scatter of rows `u : [E, K]` into a table `[N, K]` (`.at[idx].add`): update `(e, k)` lands, if anywhere, in the
    row that `idx[e, 0]` names when read signed, with no clamping;
  * a scatter-add over the extended reals, at one element: the element plus the sum of the updates over the set of
    update indices that land there (for any shapes).
-/
import Idealize.ShloMosaic.Lib.ValueIdx
import Idealize.ShloMosaic.PureOps.Ideal

noncomputable section

namespace EdgeIndex

open Idealize.ShloMosaic Idealize.ShloMosaic.ValueIdx

variable {α : Type}

/-- The dimension numbers of a gather of whole rows of `[N, K]` by a column `[E, 1]` of start indices. -/
abbrev rowDims (N E K : Nat) (wf : GatherDims.WF ⟨2, ![N, K]⟩ ⟨2, ![E, 1]⟩ ⟨2, ![E, K]⟩ [1] [0] [] [0] [] 1 ![1, K]) :
    GatherDims ⟨2, ![N, K]⟩ ⟨2, ![E, 1]⟩ ⟨2, ![E, K]⟩ where
  offsetDims := [1]
  collapsedSliceDims := [0]
  operandBatchingDims := []
  startIndicesBatchingDims := []
  startIndexMap := [0]
  indexVectorDim := 1
  sliceSizes := ![1, K]
  wf := wf

/-- THE ROW GATHER READ AT `(e, k)`: the table at the row `idx[e, 0]` names (signed, clamped), column `k`. -/
theorem gather_rows_apply {N E K w : Nat} (hN : 0 < N)
    (wf : GatherDims.WF ⟨2, ![N, K]⟩ ⟨2, ![E, 1]⟩ ⟨2, ![E, K]⟩ [1] [0] [] [0] [] 1 ![1, K])
    (x : (⟨2, ![N, K]⟩ : Shape).Idx → α) (idx : IVec ⟨2, ![E, 1]⟩ w) (e : Fin E) (k : Fin K) :
    Host.gather (rowDims N E K wf) x idx (ix2 e k)
      = x (ix2 ⟨min (idx (ix2 e 0)).toInt.toNat (N - 1), by omega⟩ k) := by
  unfold Host.gather
  congr 1
  funext a
  refine Fin.ext ?_
  match a with
  | ⟨0, _⟩ =>
    show (rowDims N E K wf).start (ix2 e k) idx 0 + (rowDims N E K wf).batchCoord (ix2 e k) 0
      + (rowDims N E K wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N E K wf).startIndexMap from List.mem_singleton.mpr rfl)]
    have hsi : (rowDims N E K wf).siIdx (ix2 e k) ⟨List.idxOf (0 : Fin 2) (rowDims N E K wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowDims N E K wf).start (ix2 e k) idx 1 + (rowDims N E K wf).batchCoord (ix2 e k) 1
      + (rowDims N E K wf).offCoord (ix2 e k) 1 = k.val
    rw [GatherDims.batchCoord_eq_zero _ _ _ List.not_mem_nil]
    have hs : (rowDims N E K wf).start (ix2 e k) idx 1 = 0 := by
      unfold GatherDims.start
      rw [dif_neg (show (1 : Fin 2) ∉ ([0] : List (Fin 2)) by decide)]
    have ho : (rowDims N E K wf).offCoord (ix2 e k) 1 = k.val := by
      unfold GatherDims.offCoord
      rw [dif_pos ((GatherDims.mem_sKept _ _).mpr ⟨(show (1 : Fin 2) ∉ ([0] : List (Fin 2)) by decide), List.not_mem_nil⟩)]
      rfl
    rw [hs, ho]; omega

/-- The dimension numbers of a gather of entries of `[N]` by a column `[E, 1]` of start indices. -/
abbrev vecDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE ENTRY GATHER READ AT `e`: the vector at the entry `idx[e, 0]` names (signed, clamped). -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecDims N E wf) x idx (ix1 e) = x (ix1 ⟨min (idx (ix2 e 0)).toInt.toNat (N - 1), by omega⟩) := by
  unfold Host.gather
  congr 1
  funext a
  obtain rfl : a = 0 := Subsingleton.elim _ _
  refine Fin.ext ?_
  show (vecDims N E wf).start (ix1 e) idx 0 + (vecDims N E wf).batchCoord (ix1 e) 0 + (vecDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N E wf).startIndexMap from List.mem_singleton.mpr rfl)]
  have hsi : (vecDims N E wf).siIdx (ix1 e) ⟨List.idxOf (0 : Fin 1) (vecDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- The dimension numbers of a scatter of rows `[E, K]` into `[N, K]` by a column `[E, 1]` of indices. -/
abbrev rowScatter (N E K : Nat) (wf : ScatterDims.WF ⟨2, ![N, K]⟩ ⟨2, ![E, 1]⟩ ⟨2, ![E, K]⟩ [1] [0] [0] 1) :
    ScatterDims ⟨2, ![N, K]⟩ ⟨2, ![E, 1]⟩ ⟨2, ![E, K]⟩ where
  updateWindowDims := [1]
  insertedWindowDims := [0]
  scatterDimsToOperandDims := [0]
  indexVectorDim := 1
  wf := wf

/-- WHERE AN UPDATE LANDS: if update `j = (e, k)` lands at `i`, then `idx[e, 0]`, read signed, is `i`'s row. -/
theorem scatter_row_of_some {N E K w : Nat} (wf : ScatterDims.WF ⟨2, ![N, K]⟩ ⟨2, ![E, 1]⟩ ⟨2, ![E, K]⟩ [1] [0] [0] 1)
    (idx : IVec ⟨2, ![E, 1]⟩ w) (j : (⟨2, ![E, K]⟩ : Shape).Idx) (i : (⟨2, ![N, K]⟩ : Shape).Idx)
    (h : (rowScatter N E K wf).resultIdx? j idx = some i) : (idx (ix2 (j 0) 0)).toInt = ((i 0).val : Int) := by
  unfold ScatterDims.resultIdx? at h
  split at h
  · rename_i hall
    have hi := Option.some.inj h
    have h0 : ((rowScatter N E K wf).start j idx 0 + ((rowScatter N E K wf).window j 0 : Int)).toNat = (i 0).val :=
      congrArg (fun f : (⟨2, ![N, K]⟩ : Shape).Idx => (f 0).val) hi
    have hs : (rowScatter N E K wf).start j idx 0 = (idx (ix2 (j 0) 0)).toInt := by
      unfold ScatterDims.start
      rw [dif_pos (show (0 : Fin 2) ∈ (rowScatter N E K wf).scatterDimsToOperandDims from List.mem_singleton.mpr rfl)]
      have hsi : (rowScatter N E K wf).siIdx j ⟨List.idxOf (0 : Fin 2) (rowScatter N E K wf).scatterDimsToOperandDims,
          List.idxOf_lt_length_iff.2 (List.mem_singleton.mpr rfl)⟩ = ix2 (j 0) 0 := by
        funext b; refine Fin.ext ?_
        match b with
        | ⟨0, _⟩ => rfl
        | ⟨1, _⟩ => rfl
      rw [hsi]
      rfl
    have hw : (rowScatter N E K wf).window j 0 = 0 := by
      unfold ScatterDims.window
      rw [dif_neg]
      intro hm
      simp [ScatterDims.sKept, Shape.kept, List.mem_filter] at hm
    have hpos := (hall 0).1
    rw [hs, hw] at h0 hpos
    simp only [Nat.cast_zero, add_zero] at h0 hpos
    omega
  · cases h

/-- The host's accumulating scatter over the extended reals is the exact scatter-add. -/
theorem scatterAdd_ideal {s si su : Shape} (d : ScatterDims s si su) {w : Nat} (x : FVec Ideal s .f32) (idx : IVec si w)
    (upd : FVec Ideal su .f32) : Host.scatterAdd d x idx upd = Ideal.hostScatterAdd d x idx upd := rfl

/-- A SCATTER-ADD AT ONE ELEMENT, over the extended reals: the operand's element plus the sum of the updates over a
    set `S` of update indices every one of which lands at that element. -/
theorem hostScatterAdd_sum {s si su : Shape} (d : ScatterDims s si su) {w : Nat} (x : s.Idx → EReal) (idx : IVec si w)
    (i : s.Idx) :
    ∃ S : Finset su.Idx, (∀ j ∈ S, d.resultIdx? j idx = some i)
      ∧ ∀ upd : su.Idx → EReal, Ideal.hostScatterAdd d x idx upd i = x i + ∑ j ∈ S, upd j := by
  refine ⟨_, ?_, fun upd => rfl⟩
  intro j hj
  exact (Finset.mem_filter.mp hj).2

end EdgeIndex

end
-- ==== Proof.LibGatherScale.lean ====
/-
  Scaling rows commutes with gathering them.

  For a table `x : [N, K]`, a vector of row scales `v : [N]` and one column `idx : [E, 1]` of start indices, gathering the
  rows of `x` and the entries of `v` by `idx` and multiplying each gathered row by its gathered scale gives the same
  array as scaling every row of `x` by its entry of `v` first and gathering the rows afterwards: both read, at (e, k),
  `x (R, k) · v R` where R is the row `idx[e, 0]` names (signed, clamped into [0, N − 1]) — the two gathers clamp alike
  because the table and the vector have the same first extent.
-/
import Idealize.ShloMosaic.Lib.ValueIdx
import Idealize.ShloMosaic.Lib.Pipeline.Value
import Idealize.ShloMosaic.PureOps.Ideal
import proofs.«101411_j37503654429370_2_alg».proof.Proof.LibEdgeIndex

noncomputable section

namespace Cert.LibGatherScale

open Idealize.ShloMosaic Idealize.ShloMosaic.ValueIdx

variable {N E K : Nat}

/-- A vector `[M]` laid as a column `[M, 1]`, read at (r, 0): the vector's entry r. -/
theorem column_apply {M : Nat} {α : Type} (h : (⟨1, ![M]⟩ : Shape).BroadcastsInDim ⟨2, ![M, 1]⟩ (![0] : Fin 1 → Fin 2))
    (v : (⟨1, ![M]⟩ : Shape).Idx → α) (r : Fin M) :
    broadcastInDim ⟨2, ![M, 1]⟩ ![0] h v (ix2 r (0 : Fin 1)) = v (ix1 r) := by
  refine broadcastInDim_apply _ h v (ix2 r (0 : Fin 1)) (ix1 r) fun a => ?_
  match a with
  | ⟨0, _⟩ =>
    show r.val = if M = 1 then 0 else r.val
    split
    · have := r.isLt; omega
    · rfl

/-- A column `[M, 1]` laid across `K` columns, read at (r, k): the column's entry r. -/
theorem across_apply {M : Nat} {α : Type}
    (h : (⟨2, ![M, 1]⟩ : Shape).BroadcastsInDim ⟨2, ![M, K]⟩ (![0, 1] : Fin 2 → Fin 2))
    (v : (⟨2, ![M, 1]⟩ : Shape).Idx → α) (r : Fin M) (k : Fin K) :
    broadcastInDim ⟨2, ![M, K]⟩ ![0, 1] h v (ix2 r k) = v (ix2 r (0 : Fin 1)) := by
  refine broadcastInDim_apply _ h v (ix2 r k) (ix2 r (0 : Fin 1)) fun a => ?_
  match a with
  | ⟨0, _⟩ =>
    show r.val = if M = 1 then 0 else r.val
    split
    · have := r.isLt; omega
    · rfl
  | ⟨1, _⟩ => rfl

/-- Gathered rows times gathered scales is the gather of the scaled rows. -/
theorem gather_scale_comm (hN : 0 < N)
    (wfR : GatherDims.WF ⟨2, ![N, K]⟩ ⟨2, ![E, 1]⟩ ⟨2, ![E, K]⟩ [1] [0] [] [0] [] 1 ![1, K])
    (wfV : GatherDims.WF ⟨1, ![N]⟩ ⟨2, ![E, 1]⟩ ⟨1, ![E]⟩ [] [0] [] [0] [] 1 ![1])
    (b1 : (⟨1, ![E]⟩ : Shape).BroadcastsInDim ⟨2, ![E, 1]⟩ (![0] : Fin 1 → Fin 2))
    (b2 : (⟨2, ![E, 1]⟩ : Shape).BroadcastsInDim ⟨2, ![E, K]⟩ (![0, 1] : Fin 2 → Fin 2))
    (b3 : (⟨1, ![N]⟩ : Shape).BroadcastsInDim ⟨2, ![N, 1]⟩ (![0] : Fin 1 → Fin 2))
    (b4 : (⟨2, ![N, 1]⟩ : Shape).BroadcastsInDim ⟨2, ![N, K]⟩ (![0, 1] : Fin 2 → Fin 2))
    (x : FVec Ideal ⟨2, ![N, K]⟩ .f32) (v : FVec Ideal ⟨1, ![N]⟩ .f32) (idx : IVec ⟨2, ![E, 1]⟩ 32) :
    mulf (Host.gather (EdgeIndex.rowDims N E K wfR) x idx)
        (broadcastInDim ⟨2, ![E, K]⟩ ![0, 1] b2 (broadcastInDim ⟨2, ![E, 1]⟩ ![0] b1 (Host.gather (EdgeIndex.vecDims N E wfV) v idx)))
      = Host.gather (EdgeIndex.rowDims N E K wfR)
          (mulf x (broadcastInDim ⟨2, ![N, K]⟩ ![0, 1] b4 (broadcastInDim ⟨2, ![N, 1]⟩ ![0] b3 v))) idx := by
  funext i
  obtain ⟨e, k, rfl⟩ : ∃ (e : Fin E) (k : Fin K), i = ix2 e k := ⟨i 0, i 1, eq_ix2 i⟩
  rw [mulf_apply, EdgeIndex.gather_rows_apply hN wfR, EdgeIndex.gather_rows_apply hN wfR, mulf_apply,
    across_apply b2, column_apply b1, EdgeIndex.gather_vec_apply hN wfV, across_apply b4, column_apply b3]

end Cert.LibGatherScale

end
-- ==== Proof.KernelLayerRead.lean ====
/-
  The regions' whole-array functions read at a row of the unpadded tables.

  Each region works on tables padded at the high end of the row axis. A row below the original extent of the padded
  tables is the original row, whatever the padding value; the two weight columns sit side by side in one table; the bias
  is a vector recast as a one-row table. So, sliced back to the original extent and read at (r, j), a region's result is
  one row's linear part and gate of the original tables' row r.
-/
import proofs.«101411_j37503654429370_2_alg».proof.Proof.KernelRegion0
import proofs.«101411_j37503654429370_2_alg».proof.Proof.KernelRegion1
import proofs.«101411_j37503654429370_2_alg».proof.Proof.LibPadInside
import proofs.«101411_j37503654429370_2_alg».proof.Proof.LibGatherScale

set_option maxRecDepth 16384

noncomputable section

namespace Cert.KernelIdeal.LayerRead

open Cert.KernelIdeal Cert.LibGateLayer Cert.LibPadInside Cert.LibGatherScale
open Idealize.ShloMosaic Idealize.ShloMosaic.ValueIdx

/-- A vector of n entries recast as a one-row table, read at (0, j): the vector's entry j. -/
theorem row_of_vector {n : Nat} {α : Type} (h : (⟨1, ![n]⟩ : Shape).ShapeCasts ⟨2, ![1, n]⟩)
    (v : (⟨1, ![n]⟩ : Shape).Idx → α) (j : Fin n) :
    shapeCast ⟨2, ![1, n]⟩ v h (ix2 (0 : Fin 1) j) = v (ix1 j) := by
  refine shapeCast_apply v h (ix2 (0 : Fin 1) j) (ix1 j) ?_
  rw [Shape.rowMajor_val_one, Shape.rowMajor_val_two]
  show j.val = 0 * n + j.val
  omega

/-- Region 0's result without its padding rows, at (r, j). -/
theorem layer0_at (agg : FVec Ideal S110000x128 .f32) (d1 s2 : FVec Ideal S110000 .f32) (W : FVec Ideal S128x256 .f32)
    (bias : FVec Ideal S256 .f32) (a : FVec Ideal S256x1 .f32) (v0 v1 : FVec Ideal S_ .f32) (r : Fin 110000) (j : Fin 256) :
    extractStridedSlice S110000x256 ![0, 0]
        (Region0V.layer
          (pad S110592x128 ![0, 0] ![592, 0] ![0, 0] agg v0 Facts₀.pads_S110000x128_S110592x128_05920_000 Facts₀.h_S_)
          (pad S110592x2 ![0, 0] ![592, 0] ![0, 0]
            (concatenate S110000x2 1
              [⟨S110000x1, broadcastInDim S110000x1 ![0] Facts₀.bcast_S110000_S110000x1_0 d1⟩,
               ⟨S110000x1, broadcastInDim S110000x1 ![0] Facts₀.bcast_S110000_S110000x1_0 s2⟩]
              Facts₀.concatenates_S110000x1_S110000x1_S110000x2_d1)
            v1 Facts₀.pads_S110000x2_S110592x2_05920_000 Facts₀.h_S_)
          W (shapeCast S1x256 bias Facts₀.shapeCasts_S256_S1x256) a)
        Facts₀.slices_S110592x256_S110000x256_0_0 (ix2 r j)
      = rowLin (fun c : Fin 128 => agg (ix2 r c)) (d1 (ix1 r)) (fun (c : Fin 128) (j : Fin 256) => W (ix2 c j))
          (fun j : Fin 256 => bias (ix1 j)) j
        * rowGate (fun c : Fin 128 => agg (ix2 r c)) (d1 (ix1 r)) (fun (c : Fin 128) (j : Fin 256) => W (ix2 c j))
          (fun j : Fin 256 => bias (ix1 j)) (fun j : Fin 256 => a (ix2 j (0 : Fin 1)))
        * s2 (ix1 r) := by
  have hr : r.val < 110592 := by have := r.isLt; omega
  refine (extractStridedSlice_apply _ _ _ (ix2 r j) (ix2 (⟨r.val, hr⟩ : Fin 110592) j) (fun a => by
    match a with
    | ⟨0, _⟩ => show r.val = 0 + r.val; omega
    | ⟨1, _⟩ => show j.val = 0 + j.val; omega)).trans ?_
  show Region0V.layerAt _ _ _ _ _ (⟨r.val, hr⟩ : Fin 110592) j = _
  unfold Region0V.layerAt
  have hagg : ∀ c : Fin 128, pad S110592x128 ![0, 0] ![592, 0] ![0, 0] agg v0 Facts₀.pads_S110000x128_S110592x128_05920_000 Facts₀.h_S_
      (ix2 (⟨r.val, hr⟩ : Fin 110592) c) = agg (ix2 r c) := fun c =>
    pad_apply_inside _ _ _ agg v0 _ _ (ix2 (⟨r.val, hr⟩ : Fin 110592) c) (ix2 r c) (fun a => by match a with | ⟨0, _⟩ => rfl | ⟨1, _⟩ => rfl) (fun a => by match a with | ⟨0, _⟩ => rfl | ⟨1, _⟩ => rfl) (fun a => by match a with | ⟨0, _⟩ => rfl | ⟨1, _⟩ => rfl)
  have haux : ∀ q : Fin 2, pad S110592x2 ![0, 0] ![592, 0] ![0, 0]
      (concatenate S110000x2 1
        [⟨S110000x1, broadcastInDim S110000x1 ![0] Facts₀.bcast_S110000_S110000x1_0 d1⟩,
         ⟨S110000x1, broadcastInDim S110000x1 ![0] Facts₀.bcast_S110000_S110000x1_0 s2⟩]
        Facts₀.concatenates_S110000x1_S110000x1_S110000x2_d1)
      v1 Facts₀.pads_S110000x2_S110592x2_05920_000 Facts₀.h_S_ (ix2 (⟨r.val, hr⟩ : Fin 110592) q)
      = concatenate S110000x2 1
        [⟨S110000x1, broadcastInDim S110000x1 ![0] Facts₀.bcast_S110000_S110000x1_0 d1⟩,
         ⟨S110000x1, broadcastInDim S110000x1 ![0] Facts₀.bcast_S110000_S110000x1_0 s2⟩]
        Facts₀.concatenates_S110000x1_S110000x1_S110000x2_d1 (ix2 r q) := fun q =>
    pad_apply_inside _ _ _ _ v1 _ _ (ix2 (⟨r.val, hr⟩ : Fin 110592) q) (ix2 r q) (fun a => by match a with | ⟨0, _⟩ => rfl | ⟨1, _⟩ => rfl) (fun a => by match a with | ⟨0, _⟩ => rfl | ⟨1, _⟩ => rfl) (fun a => by match a with | ⟨0, _⟩ => rfl | ⟨1, _⟩ => rfl)
  have h0 : concatenate S110000x2 1
        [⟨S110000x1, broadcastInDim S110000x1 ![0] Facts₀.bcast_S110000_S110000x1_0 d1⟩,
         ⟨S110000x1, broadcastInDim S110000x1 ![0] Facts₀.bcast_S110000_S110000x1_0 s2⟩]
        Facts₀.concatenates_S110000x1_S110000x1_S110000x2_d1 (ix2 r (0 : Fin 2)) = d1 (ix1 r) :=
    (concatenate_pair_apply_left 1 _ _ Facts₀.concatenates_S110000x1_S110000x1_S110000x2_d1 (ix2 r (0 : Fin 2)) rfl
      (ix2 r (0 : Fin 1)) (fun a => by match a with | ⟨0, _⟩ => rfl | ⟨1, _⟩ => rfl)).trans (column_apply Facts₀.bcast_S110000_S110000x1_0 d1 r)
  have h1 : concatenate S110000x2 1
        [⟨S110000x1, broadcastInDim S110000x1 ![0] Facts₀.bcast_S110000_S110000x1_0 d1⟩,
         ⟨S110000x1, broadcastInDim S110000x1 ![0] Facts₀.bcast_S110000_S110000x1_0 s2⟩]
        Facts₀.concatenates_S110000x1_S110000x1_S110000x2_d1 (ix2 r (1 : Fin 2)) = s2 (ix1 r) :=
    (concatenate_pair_apply_right 1 _ _ Facts₀.concatenates_S110000x1_S110000x1_S110000x2_d1 (ix2 r (1 : Fin 2)) rfl rfl
      (ix2 r (0 : Fin 1)) (fun b hb => by
        match b with
        | ⟨0, _⟩ => rfl
        | ⟨1, _⟩ => exact absurd rfl hb) rfl).trans (column_apply Facts₀.bcast_S110000_S110000x1_0 s2 r)
  have hb : ∀ j : Fin 256, shapeCast S1x256 bias Facts₀.shapeCasts_S256_S1x256 (ix2 (0 : Fin 1) j) = bias (ix1 j) := fun j =>
    row_of_vector Facts₀.shapeCasts_S256_S1x256 bias j
  rw [haux 0, haux 1, h0, h1]
  simp only [hagg, hb]

/-- Region 1's gate column without its padding rows, at row r. -/
theorem gate1_at (agg : FVec Ideal S10000x256 .f32) (d : FVec Ideal S10000 .f32) (W : FVec Ideal S256x128 .f32)
    (bias : FVec Ideal S128 .f32) (a : FVec Ideal S128x1 .f32) (v0 v1 : FVec Ideal S_ .f32) (r : Fin 10000) :
    extractStridedSlice S10000x1 ![0, 0]
        (Region1V.gateArr
          (pad S10240x256 ![0, 0] ![240, 0] ![0, 0] agg v0 Facts₀.pads_S10000x256_S10240x256_02400_000 Facts₀.h_S_)
          (pad S10240x1 ![0, 0] ![240, 0] ![0, 0] (broadcastInDim S10000x1 ![0] Facts₀.bcast_S10000_S10000x1_0 d)
            v1 Facts₀.pads_S10000x1_S10240x1_02400_000 Facts₀.h_S_)
          W (shapeCast S1x128 bias Facts₀.shapeCasts_S128_S1x128) a)
        Facts₀.slices_S10240x1_S10000x1_0_0 (ix2 r (0 : Fin 1))
      = rowGate (fun c : Fin 256 => agg (ix2 r c)) (d (ix1 r)) (fun (c : Fin 256) (j : Fin 128) => W (ix2 c j))
          (fun j : Fin 128 => bias (ix1 j)) (fun j : Fin 128 => a (ix2 j (0 : Fin 1))) := by
  have hr : r.val < 10240 := by have := r.isLt; omega
  refine (extractStridedSlice_apply _ _ _ (ix2 r (0 : Fin 1)) (ix2 (⟨r.val, hr⟩ : Fin 10240) (0 : Fin 1)) (fun a => by
    match a with
    | ⟨0, _⟩ => show r.val = 0 + r.val; omega
    | ⟨1, _⟩ => rfl)).trans ?_
  show Region1V.gateAt _ _ _ _ _ (⟨r.val, hr⟩ : Fin 10240) = _
  unfold Region1V.gateAt
  have hagg : ∀ c : Fin 256, pad S10240x256 ![0, 0] ![240, 0] ![0, 0] agg v0 Facts₀.pads_S10000x256_S10240x256_02400_000 Facts₀.h_S_
      (ix2 (⟨r.val, hr⟩ : Fin 10240) c) = agg (ix2 r c) := fun c =>
    pad_apply_inside _ _ _ agg v0 _ _ (ix2 (⟨r.val, hr⟩ : Fin 10240) c) (ix2 r c) (fun a => by match a with | ⟨0, _⟩ => rfl | ⟨1, _⟩ => rfl) (fun a => by match a with | ⟨0, _⟩ => rfl | ⟨1, _⟩ => rfl) (fun a => by match a with | ⟨0, _⟩ => rfl | ⟨1, _⟩ => rfl)
  have hdeg : pad S10240x1 ![0, 0] ![240, 0] ![0, 0] (broadcastInDim S10000x1 ![0] Facts₀.bcast_S10000_S10000x1_0 d)
      v1 Facts₀.pads_S10000x1_S10240x1_02400_000 Facts₀.h_S_ (ix2 (⟨r.val, hr⟩ : Fin 10240) (0 : Fin 1)) = d (ix1 r) :=
    (pad_apply_inside _ _ _ _ v1 _ _ (ix2 (⟨r.val, hr⟩ : Fin 10240) (0 : Fin 1)) (ix2 r (0 : Fin 1)) (fun a => by match a with | ⟨0, _⟩ => rfl | ⟨1, _⟩ => rfl) (fun a => by match a with | ⟨0, _⟩ => rfl | ⟨1, _⟩ => rfl) (fun a => by match a with | ⟨0, _⟩ => rfl | ⟨1, _⟩ => rfl)).trans
      (column_apply Facts₀.bcast_S10000_S10000x1_0 d r)
  have hb : ∀ j : Fin 128, shapeCast S1x128 bias Facts₀.shapeCasts_S128_S1x128 (ix2 (0 : Fin 1) j) = bias (ix1 j) := fun j =>
    row_of_vector Facts₀.shapeCasts_S128_S1x128 bias j
  rw [hdeg]
  simp only [hagg, hb]

/-- Region 1's gated result without its padding rows, at (r, j). -/
theorem out1_at (agg : FVec Ideal S10000x256 .f32) (d : FVec Ideal S10000 .f32) (W : FVec Ideal S256x128 .f32)
    (bias : FVec Ideal S128 .f32) (a : FVec Ideal S128x1 .f32) (v0 v1 : FVec Ideal S_ .f32) (r : Fin 10000) (j : Fin 128) :
    extractStridedSlice S10000x128 ![0, 0]
        (Region1V.outArr
          (pad S10240x256 ![0, 0] ![240, 0] ![0, 0] agg v0 Facts₀.pads_S10000x256_S10240x256_02400_000 Facts₀.h_S_)
          (pad S10240x1 ![0, 0] ![240, 0] ![0, 0] (broadcastInDim S10000x1 ![0] Facts₀.bcast_S10000_S10000x1_0 d)
            v1 Facts₀.pads_S10000x1_S10240x1_02400_000 Facts₀.h_S_)
          W (shapeCast S1x128 bias Facts₀.shapeCasts_S128_S1x128) a)
        Facts₀.slices_S10240x128_S10000x128_0_0 (ix2 r j)
      = rowLin (fun c : Fin 256 => agg (ix2 r c)) (d (ix1 r)) (fun (c : Fin 256) (j : Fin 128) => W (ix2 c j))
          (fun j : Fin 128 => bias (ix1 j)) j
        * rowGate (fun c : Fin 256 => agg (ix2 r c)) (d (ix1 r)) (fun (c : Fin 256) (j : Fin 128) => W (ix2 c j))
          (fun j : Fin 128 => bias (ix1 j)) (fun j : Fin 128 => a (ix2 j (0 : Fin 1))) := by
  have hr : r.val < 10240 := by have := r.isLt; omega
  refine (extractStridedSlice_apply _ _ _ (ix2 r j) (ix2 (⟨r.val, hr⟩ : Fin 10240) j) (fun a => by
    match a with
    | ⟨0, _⟩ => show r.val = 0 + r.val; omega
    | ⟨1, _⟩ => show j.val = 0 + j.val; omega)).trans ?_
  show Region1V.outAt _ _ _ _ _ (⟨r.val, hr⟩ : Fin 10240) j = _
  unfold Region1V.outAt Region1V.gateAt
  have hagg : ∀ c : Fin 256, pad S10240x256 ![0, 0] ![240, 0] ![0, 0] agg v0 Facts₀.pads_S10000x256_S10240x256_02400_000 Facts₀.h_S_
      (ix2 (⟨r.val, hr⟩ : Fin 10240) c) = agg (ix2 r c) := fun c =>
    pad_apply_inside _ _ _ agg v0 _ _ (ix2 (⟨r.val, hr⟩ : Fin 10240) c) (ix2 r c) (fun a => by match a with | ⟨0, _⟩ => rfl | ⟨1, _⟩ => rfl) (fun a => by match a with | ⟨0, _⟩ => rfl | ⟨1, _⟩ => rfl) (fun a => by match a with | ⟨0, _⟩ => rfl | ⟨1, _⟩ => rfl)
  have hdeg : pad S10240x1 ![0, 0] ![240, 0] ![0, 0] (broadcastInDim S10000x1 ![0] Facts₀.bcast_S10000_S10000x1_0 d)
      v1 Facts₀.pads_S10000x1_S10240x1_02400_000 Facts₀.h_S_ (ix2 (⟨r.val, hr⟩ : Fin 10240) (0 : Fin 1)) = d (ix1 r) :=
    (pad_apply_inside _ _ _ _ v1 _ _ (ix2 (⟨r.val, hr⟩ : Fin 10240) (0 : Fin 1)) (ix2 r (0 : Fin 1)) (fun a => by match a with | ⟨0, _⟩ => rfl | ⟨1, _⟩ => rfl) (fun a => by match a with | ⟨0, _⟩ => rfl | ⟨1, _⟩ => rfl) (fun a => by match a with | ⟨0, _⟩ => rfl | ⟨1, _⟩ => rfl)).trans
      (column_apply Facts₀.bcast_S10000_S10000x1_0 d r)
  have hb : ∀ j : Fin 128, shapeCast S1x128 bias Facts₀.shapeCasts_S128_S1x128 (ix2 (0 : Fin 1) j) = bias (ix1 j) := fun j =>
    row_of_vector Facts₀.shapeCasts_S128_S1x128 bias j
  rw [hdeg]
  simp only [hagg, hb]

end Cert.KernelIdeal.LayerRead

end
-- ==== Proof.RefLayers.lean ====
/-
  The reference's two layers read entry by entry.

  Each layer multiplies the aggregated table's row r by the in-degree's inverse square root, applies the weights and
  the bias (the linear part), gates the row by the logistic function of the linear part against the gate column, and —
  in layer 1 only — scales the row once more by the next layer's source-side factor. Read at (r, j), every stage of the
  program between the aggregated table and the layer's result depends on row r alone.
-/
import proofs.«101411_j37503654429370_2_alg».proof.Proof.Gen.ReferenceIdeal.Read
import proofs.«101411_j37503654429370_2_alg».proof.Proof.LibGateLayer

noncomputable section

namespace Cert.ReferenceIdeal.RefValue

open Cert.ReferenceIdeal Cert.ReferenceIdeal.Read Cert.LibGateLayer
open Idealize.ShloMosaic Idealize.ShloMosaic.ValueIdx

/-- The float pattern of 1.0 denotes the extended real 1. -/
theorem ofBits_one : Ideal.ofBits .f32 0x3F800000#32 = 1 := by
  simp [Ideal.ofBits, Ideal.ieee, -EReal.coe_mul]; norm_num

/-! ## Layer 1: 110000 rows, 128 in, 256 out -/

/-- The linear part at (r, j): the aggregated row scaled by the in-degree's inverse square root, times the weights,
    plus the bias. -/
theorem lin1_at (x0 : (⟨S1210000x128, .f32⟩ : BufTy).Contents (Elt Ideal)) (x1 : (⟨S128x256, .f32⟩ : BufTy).Contents (Elt Ideal)) (x2 : (⟨S256, .f32⟩ : BufTy).Contents (Elt Ideal)) (x3 : (⟨S256x1, .f32⟩ : BufTy).Contents (Elt Ideal)) (x4 : (⟨S256x128, .f32⟩ : BufTy).Contents (Elt Ideal)) (x5 : (⟨S128, .f32⟩ : BufTy).Contents (Elt Ideal)) (x6 : (⟨S128x1, .f32⟩ : BufTy).Contents (Elt Ideal)) (x7 x8 : (⟨S1100000, .i32⟩ : BufTy).Contents (Elt Ideal)) (x9 x10 : (⟨S100000, .i32⟩ : BufTy).Contents (Elt Ideal)) (r : Fin 110000) (j : Fin 256) :
    val_main_v30 (F := Ideal) x0 x1 x2 x7 x8 (ix2 r j)
      = rowLin (fun c : Fin 128 => val_main_v22 (F := Ideal) x0 x7 x8 (ix2 r c)) (val_main_v8 (F := Ideal) x8 (ix1 r))
          (fun (c : Fin 128) (j : Fin 256) => x1 (ix2 c j)) (fun j : Fin 256 => x2 (ix1 j)) j := by
  have hl : ∀ k : Fin 128, lidx_main_v27 (ix2 r j) k = ix2 r k := fun k =>
    funext fun a => Fin.ext (by match a with | ⟨0, _⟩ => rfl | ⟨1, _⟩ => rfl)
  have hr : ∀ k : Fin 128, ridx_main_v27 (ix2 r j) k = ix2 k j := fun k =>
    funext fun a => Fin.ext (by match a with | ⟨0, _⟩ => rfl | ⟨1, _⟩ => rfl)
  have hd : ∀ k : Fin 128, idx_main_v24 (idx_main_v25 (ix2 r k)) = ix1 r := fun k =>
    funext fun a => Fin.ext (by match a with | ⟨0, _⟩ => rfl)
  have hb : idx_main_v28 (idx_main_v29 (ix2 r j)) = ix1 j :=
    funext fun a => Fin.ext (by match a with | ⟨0, _⟩ => rfl)
  rw [val_main_v30_apply, val_main_v27_apply, val_main_v29_apply, val_main_v28_apply, hb]
  unfold rowLin
  beta_reduce
  rw [Ideal.addf_def]
  have hs : ∀ k : Fin 128, val_main_v26 (F := Ideal) x0 x7 x8 (lidx_main_v27 (ix2 r j) k) * x1 (ridx_main_v27 (ix2 r j) k)
      = (val_main_v22 (F := Ideal) x0 x7 x8 (ix2 r k) * Ideal.rsqrt (val_main_v8 (F := Ideal) x8 (ix1 r))) * x1 (ix2 k j) := fun k => by
    rw [hl k, hr k, val_main_v26_apply, val_main_v25_apply, val_main_v24_apply, val_main_v23_apply, hd k]
    simp only [Ideal.mulf_def, Ideal.hostUnary_rsqrt_def]
  rw [Finset.sum_congr rfl (fun k _ => hs k)]

/-- The gate at row r: the logistic function of the linear part against the gate column, which the program spells
    1 / (1 + exp (−x)). -/
theorem gate1_at (x0 : (⟨S1210000x128, .f32⟩ : BufTy).Contents (Elt Ideal)) (x1 : (⟨S128x256, .f32⟩ : BufTy).Contents (Elt Ideal)) (x2 : (⟨S256, .f32⟩ : BufTy).Contents (Elt Ideal)) (x3 : (⟨S256x1, .f32⟩ : BufTy).Contents (Elt Ideal)) (x4 : (⟨S256x128, .f32⟩ : BufTy).Contents (Elt Ideal)) (x5 : (⟨S128, .f32⟩ : BufTy).Contents (Elt Ideal)) (x6 : (⟨S128x1, .f32⟩ : BufTy).Contents (Elt Ideal)) (x7 x8 : (⟨S1100000, .i32⟩ : BufTy).Contents (Elt Ideal)) (x9 x10 : (⟨S100000, .i32⟩ : BufTy).Contents (Elt Ideal)) (r : Fin 110000) :
    val_main_v37 (F := Ideal) x0 x1 x2 x3 x7 x8 (ix2 r (0 : Fin 1))
      = rowGate (fun c : Fin 128 => val_main_v22 (F := Ideal) x0 x7 x8 (ix2 r c)) (val_main_v8 (F := Ideal) x8 (ix1 r))
          (fun (c : Fin 128) (j : Fin 256) => x1 (ix2 c j)) (fun j : Fin 256 => x2 (ix1 j))
          (fun j : Fin 256 => x3 (ix2 j (0 : Fin 1))) := by
  have hl : ∀ k : Fin 256, lidx_main_v31 (ix2 r (0 : Fin 1)) k = ix2 r k := fun k =>
    funext fun a => Fin.ext (by match a with | ⟨0, _⟩ => rfl | ⟨1, _⟩ => rfl)
  have hr : ∀ k : Fin 256, ridx_main_v31 (ix2 r (0 : Fin 1)) k = ix2 k (0 : Fin 1) := fun k =>
    funext fun a => Fin.ext (by match a with | ⟨0, _⟩ => rfl | ⟨1, _⟩ => rfl)
  rw [val_main_v37_apply, val_main_v36_apply, val_main_cst_7_apply, val_main_v35_apply, val_main_v34_apply,
    val_main_cst_6_apply, val_main_v33_apply, val_main_v32_apply, val_main_v31_apply]
  have hs : ∀ k : Fin 256, val_main_v30 (F := Ideal) x0 x1 x2 x7 x8 (lidx_main_v31 (ix2 r (0 : Fin 1)) k) * x3 (ridx_main_v31 (ix2 r (0 : Fin 1)) k)
      = rowLin (fun c : Fin 128 => val_main_v22 (F := Ideal) x0 x7 x8 (ix2 r c)) (val_main_v8 (F := Ideal) x8 (ix1 r))
          (fun (c : Fin 128) (j : Fin 256) => x1 (ix2 c j)) (fun j : Fin 256 => x2 (ix1 j)) k * x3 (ix2 k (0 : Fin 1)) := fun k => by
    rw [hl k, hr k, lin1_at x0 x1 x2 x3 x4 x5 x6 x7 x8 x9 x10 r k]
  rw [Finset.sum_congr rfl (fun k _ => hs k)]
  unfold rowGate Ideal.logistic
  simp only [Ideal.hostDivf_def, Ideal.addf_def, Ideal.hostUnary_exp_def, Ideal.hostNegf_def, Ideal.negf_def, Ideal.ofBits_def, ofBits_one]

/-- Layer 1's result at (r, j): lin · gate · the next layer's source-side scale of row r. -/
theorem hidden_at (x0 : (⟨S1210000x128, .f32⟩ : BufTy).Contents (Elt Ideal)) (x1 : (⟨S128x256, .f32⟩ : BufTy).Contents (Elt Ideal)) (x2 : (⟨S256, .f32⟩ : BufTy).Contents (Elt Ideal)) (x3 : (⟨S256x1, .f32⟩ : BufTy).Contents (Elt Ideal)) (x4 : (⟨S256x128, .f32⟩ : BufTy).Contents (Elt Ideal)) (x5 : (⟨S128, .f32⟩ : BufTy).Contents (Elt Ideal)) (x6 : (⟨S128x1, .f32⟩ : BufTy).Contents (Elt Ideal)) (x7 x8 : (⟨S1100000, .i32⟩ : BufTy).Contents (Elt Ideal)) (x9 x10 : (⟨S100000, .i32⟩ : BufTy).Contents (Elt Ideal)) (r : Fin 110000) (j : Fin 256) :
    val_main_v52 (F := Ideal) x0 x1 x2 x3 x7 x8 x9 (ix2 r j)
      = rowLin (fun c : Fin 128 => val_main_v22 (F := Ideal) x0 x7 x8 (ix2 r c)) (val_main_v8 (F := Ideal) x8 (ix1 r))
          (fun (c : Fin 128) (j : Fin 256) => x1 (ix2 c j)) (fun j : Fin 256 => x2 (ix1 j)) j
        * rowGate (fun c : Fin 128 => val_main_v22 (F := Ideal) x0 x7 x8 (ix2 r c)) (val_main_v8 (F := Ideal) x8 (ix1 r))
          (fun (c : Fin 128) (j : Fin 256) => x1 (ix2 c j)) (fun j : Fin 256 => x2 (ix1 j)) (fun j : Fin 256 => x3 (ix2 j (0 : Fin 1)))
        * Ideal.rsqrt (val_main_v44 (F := Ideal) x9 (ix1 r)) := by
  have hg : idx_main_v38 (ix2 r j) = ix2 r (0 : Fin 1) :=
    funext fun a => Fin.ext (by match a with | ⟨0, _⟩ => rfl | ⟨1, _⟩ => rfl)
  have hs : idx_main_v50 (idx_main_v51 (ix2 r j)) = ix1 r :=
    funext fun a => Fin.ext (by match a with | ⟨0, _⟩ => rfl)
  rw [val_main_v52_apply, val_main_v39_apply, val_main_v38_apply, hg, val_main_v51_apply, val_main_v50_apply, hs,
    val_main_v49_apply, lin1_at x0 x1 x2 x3 x4 x5 x6 x7 x8 x9 x10, gate1_at x0 x1 x2 x3 x4 x5 x6 x7 x8 x9 x10]
  simp only [Ideal.mulf_def, Ideal.hostUnary_rsqrt_def]

/-! ## Layer 2: 10000 rows, 256 in, 128 out -/

/-- The linear part at (r, j): the aggregated row scaled by the in-degree's inverse square root, times the weights,
    plus the bias. -/
theorem lin2_at (x0 : (⟨S1210000x128, .f32⟩ : BufTy).Contents (Elt Ideal)) (x1 : (⟨S128x256, .f32⟩ : BufTy).Contents (Elt Ideal)) (x2 : (⟨S256, .f32⟩ : BufTy).Contents (Elt Ideal)) (x3 : (⟨S256x1, .f32⟩ : BufTy).Contents (Elt Ideal)) (x4 : (⟨S256x128, .f32⟩ : BufTy).Contents (Elt Ideal)) (x5 : (⟨S128, .f32⟩ : BufTy).Contents (Elt Ideal)) (x6 : (⟨S128x1, .f32⟩ : BufTy).Contents (Elt Ideal)) (x7 x8 : (⟨S1100000, .i32⟩ : BufTy).Contents (Elt Ideal)) (x9 x10 : (⟨S100000, .i32⟩ : BufTy).Contents (Elt Ideal)) (r : Fin 10000) (j : Fin 128) :
    val_main_v70 (F := Ideal) x0 x1 x2 x3 x4 x5 x7 x8 x9 x10 (ix2 r j)
      = rowLin (fun c : Fin 256 => val_main_v62 (F := Ideal) x0 x1 x2 x3 x7 x8 x9 x10 (ix2 r c)) (val_main_v48 (F := Ideal) x10 (ix1 r))
          (fun (c : Fin 256) (j : Fin 128) => x4 (ix2 c j)) (fun j : Fin 128 => x5 (ix1 j)) j := by
  have hl : ∀ k : Fin 256, lidx_main_v67 (ix2 r j) k = ix2 r k := fun k =>
    funext fun a => Fin.ext (by match a with | ⟨0, _⟩ => rfl | ⟨1, _⟩ => rfl)
  have hr : ∀ k : Fin 256, ridx_main_v67 (ix2 r j) k = ix2 k j := fun k =>
    funext fun a => Fin.ext (by match a with | ⟨0, _⟩ => rfl | ⟨1, _⟩ => rfl)
  have hd : ∀ k : Fin 256, idx_main_v64 (idx_main_v65 (ix2 r k)) = ix1 r := fun k =>
    funext fun a => Fin.ext (by match a with | ⟨0, _⟩ => rfl)
  have hb : idx_main_v68 (idx_main_v69 (ix2 r j)) = ix1 j :=
    funext fun a => Fin.ext (by match a with | ⟨0, _⟩ => rfl)
  rw [val_main_v70_apply, val_main_v67_apply, val_main_v69_apply, val_main_v68_apply, hb]
  unfold rowLin
  beta_reduce
  rw [Ideal.addf_def]
  have hs : ∀ k : Fin 256, val_main_v66 (F := Ideal) x0 x1 x2 x3 x7 x8 x9 x10 (lidx_main_v67 (ix2 r j) k) * x4 (ridx_main_v67 (ix2 r j) k)
      = (val_main_v62 (F := Ideal) x0 x1 x2 x3 x7 x8 x9 x10 (ix2 r k) * Ideal.rsqrt (val_main_v48 (F := Ideal) x10 (ix1 r))) * x4 (ix2 k j) := fun k => by
    rw [hl k, hr k, val_main_v66_apply, val_main_v65_apply, val_main_v64_apply, val_main_v63_apply, hd k]
    simp only [Ideal.mulf_def, Ideal.hostUnary_rsqrt_def]
  rw [Finset.sum_congr rfl (fun k _ => hs k)]

/-- The gate at row r: the logistic function of the linear part against the gate column, which the program spells
    1 / (1 + exp (−x)). -/
theorem gate2_at (x0 : (⟨S1210000x128, .f32⟩ : BufTy).Contents (Elt Ideal)) (x1 : (⟨S128x256, .f32⟩ : BufTy).Contents (Elt Ideal)) (x2 : (⟨S256, .f32⟩ : BufTy).Contents (Elt Ideal)) (x3 : (⟨S256x1, .f32⟩ : BufTy).Contents (Elt Ideal)) (x4 : (⟨S256x128, .f32⟩ : BufTy).Contents (Elt Ideal)) (x5 : (⟨S128, .f32⟩ : BufTy).Contents (Elt Ideal)) (x6 : (⟨S128x1, .f32⟩ : BufTy).Contents (Elt Ideal)) (x7 x8 : (⟨S1100000, .i32⟩ : BufTy).Contents (Elt Ideal)) (x9 x10 : (⟨S100000, .i32⟩ : BufTy).Contents (Elt Ideal)) (r : Fin 10000) :
    val_main_v77 (F := Ideal) x0 x1 x2 x3 x4 x5 x6 x7 x8 x9 x10 (ix2 r (0 : Fin 1))
      = rowGate (fun c : Fin 256 => val_main_v62 (F := Ideal) x0 x1 x2 x3 x7 x8 x9 x10 (ix2 r c)) (val_main_v48 (F := Ideal) x10 (ix1 r))
          (fun (c : Fin 256) (j : Fin 128) => x4 (ix2 c j)) (fun j : Fin 128 => x5 (ix1 j))
          (fun j : Fin 128 => x6 (ix2 j (0 : Fin 1))) := by
  have hl : ∀ k : Fin 128, lidx_main_v71 (ix2 r (0 : Fin 1)) k = ix2 r k := fun k =>
    funext fun a => Fin.ext (by match a with | ⟨0, _⟩ => rfl | ⟨1, _⟩ => rfl)
  have hr : ∀ k : Fin 128, ridx_main_v71 (ix2 r (0 : Fin 1)) k = ix2 k (0 : Fin 1) := fun k =>
    funext fun a => Fin.ext (by match a with | ⟨0, _⟩ => rfl | ⟨1, _⟩ => rfl)
  rw [val_main_v77_apply, val_main_v76_apply, val_main_cst_17_apply, val_main_v75_apply, val_main_v74_apply,
    val_main_cst_16_apply, val_main_v73_apply, val_main_v72_apply, val_main_v71_apply]
  have hs : ∀ k : Fin 128, val_main_v70 (F := Ideal) x0 x1 x2 x3 x4 x5 x7 x8 x9 x10 (lidx_main_v71 (ix2 r (0 : Fin 1)) k) * x6 (ridx_main_v71 (ix2 r (0 : Fin 1)) k)
      = rowLin (fun c : Fin 256 => val_main_v62 (F := Ideal) x0 x1 x2 x3 x7 x8 x9 x10 (ix2 r c)) (val_main_v48 (F := Ideal) x10 (ix1 r))
          (fun (c : Fin 256) (j : Fin 128) => x4 (ix2 c j)) (fun j : Fin 128 => x5 (ix1 j)) k * x6 (ix2 k (0 : Fin 1)) := fun k => by
    rw [hl k, hr k, lin2_at x0 x1 x2 x3 x4 x5 x6 x7 x8 x9 x10 r k]
  rw [Finset.sum_congr rfl (fun k _ => hs k)]
  unfold rowGate Ideal.logistic
  simp only [Ideal.hostDivf_def, Ideal.addf_def, Ideal.hostUnary_exp_def, Ideal.hostNegf_def, Ideal.negf_def, Ideal.ofBits_def, ofBits_one]

/-- Layer 2's gated result at (r, j): lin · gate. -/
theorem out_at (x0 : (⟨S1210000x128, .f32⟩ : BufTy).Contents (Elt Ideal)) (x1 : (⟨S128x256, .f32⟩ : BufTy).Contents (Elt Ideal)) (x2 : (⟨S256, .f32⟩ : BufTy).Contents (Elt Ideal)) (x3 : (⟨S256x1, .f32⟩ : BufTy).Contents (Elt Ideal)) (x4 : (⟨S256x128, .f32⟩ : BufTy).Contents (Elt Ideal)) (x5 : (⟨S128, .f32⟩ : BufTy).Contents (Elt Ideal)) (x6 : (⟨S128x1, .f32⟩ : BufTy).Contents (Elt Ideal)) (x7 x8 : (⟨S1100000, .i32⟩ : BufTy).Contents (Elt Ideal)) (x9 x10 : (⟨S100000, .i32⟩ : BufTy).Contents (Elt Ideal)) (r : Fin 10000) (j : Fin 128) :
    val_main_v79 (F := Ideal) x0 x1 x2 x3 x4 x5 x6 x7 x8 x9 x10 (ix2 r j)
      = rowLin (fun c : Fin 256 => val_main_v62 (F := Ideal) x0 x1 x2 x3 x7 x8 x9 x10 (ix2 r c)) (val_main_v48 (F := Ideal) x10 (ix1 r))
          (fun (c : Fin 256) (j : Fin 128) => x4 (ix2 c j)) (fun j : Fin 128 => x5 (ix1 j)) j
        * rowGate (fun c : Fin 256 => val_main_v62 (F := Ideal) x0 x1 x2 x3 x7 x8 x9 x10 (ix2 r c)) (val_main_v48 (F := Ideal) x10 (ix1 r))
          (fun (c : Fin 256) (j : Fin 128) => x4 (ix2 c j)) (fun j : Fin 128 => x5 (ix1 j)) (fun j : Fin 128 => x6 (ix2 j (0 : Fin 1))) := by
  have hg : idx_main_v78 (ix2 r j) = ix2 r (0 : Fin 1) :=
    funext fun a => Fin.ext (by match a with | ⟨0, _⟩ => rfl | ⟨1, _⟩ => rfl)
  rw [val_main_v79_apply, val_main_v78_apply, hg, lin2_at x0 x1 x2 x3 x4 x5 x6 x7 x8 x9 x10, gate2_at x0 x1 x2 x3 x4 x5 x6 x7 x8 x9 x10]
  simp only [Ideal.mulf_def]

end Cert.ReferenceIdeal.RefValue

end
-- ==== Proof.KernelValue.lean ====
/-
  The kernel program's two results as the reference's.

  Region 0's input arrays are the reference's aggregated table padded with zero rows, the reference's in-degree and
  next-layer scale side by side padded with ones, the weights, the bias as a row and the gate column: the one stage the
  two programs spell differently — rows gathered and then scaled, against rows scaled and then gathered — is the same
  array. Region 0 therefore leaves, on the original rows, the reference's hidden table; the host stretches between the
  regions turn it into the reference's second aggregated table, by the very operations the reference applies; region 1
  then leaves, on the original rows, the reference's two results.
-/
import proofs.«101411_j37503654429370_2_alg».proof.Proof.KernelHostA
import proofs.«101411_j37503654429370_2_alg».proof.Proof.KernelHostB
import proofs.«101411_j37503654429370_2_alg».proof.Proof.KernelHostC
import proofs.«101411_j37503654429370_2_alg».proof.Proof.KernelHostK
import proofs.«101411_j37503654429370_2_alg».proof.Proof.KernelLayerRead
import proofs.«101411_j37503654429370_2_alg».proof.Proof.RefLayers

set_option maxRecDepth 16384

noncomputable section

namespace Cert.KernelIdeal.HostV

open Cert.KernelIdeal Cert.KernelIdeal.Gen Cert.ReferenceIdeal.Read
open Idealize.ShloMosaic Idealize.ShloMosaic.TcCoe Idealize.ShloMosaic.StableHlo Idealize.ShloMosaic.ValueIdx
open Idealize.SL Idealize.SL.Sem

/-- Rows gathered along the edges and scaled by their gathered scales are the scaled rows gathered. -/
theorem edgeRows_eq (x0 : FVec Ideal S1210000x128 .f32) (x7 : IVec S1100000 32) :
    edgeRows x0 (Host.rsqrt (degOut1 x7)) (idxCol1 x7) (idxCol1 x7) = val_main_v19 (F := Ideal) x0 x7 :=
  Cert.LibGatherScale.gather_scale_comm (N := 1210000) (E := 1100000) (K := 128) (by decide)
    gather_S1210000x128_S1100000x1_S1100000x128_1_0_n_n_0_1_1128.wf gather_S1210000_S1100000x1_S1100000_n_0_n_n_0_1_1.wf
    Facts₀.bcast_S1100000_S1100000x1_0 Facts₀.bcast_S1100000x1_S1100000x128_0_1
    Cert.ReferenceIdeal.Facts₀.bcast_S1210000_S1210000x1_0 Cert.ReferenceIdeal.Facts₀.bcast_S1210000x1_S1210000x128_0_1
    x0 (Host.rsqrt (degOut1 x7)) (idxCol1 x7)

/-- The edge rows added per destination node are the reference's aggregated table. -/
theorem agg1_eq (x0 : FVec Ideal S1210000x128 .f32) (x7 x8 : IVec S1100000 32) :
    Host.scatterAdd scatter_S110000x128_S1100000x1_S1100000x128_1_0_0_1
        (broadcastInDim S110000x128 ![] Facts₀.bcast_S_S110000x128 (constant (F := Ideal) S_ .f32 0x00000000#32))
        (broadcastInDim S1100000x1 ![0] Facts₀.bcast_S1100000_S1100000x1_0 x8) (val_main_v19 (F := Ideal) x0 x7)
      = agg1 x0 x7 x8 := rfl

variable (m : (ℓ : Loc nD τ sig) → Buf (Elt Ideal) ℓ) (ρ : Dev nD → PrngReg)

/-! ## Region 0's input arrays -/

theorem entry0_agg (c : Dev nD) : W13 (F := Ideal) m ρ c (Proc.devRef .tc main_v44)
    = pad S110592x128 ![0, 0] ![592, 0] ![0, 0] (agg1 (m ((c : Thread nD τ).loc main_arg0)) (m ((c : Thread nD τ).loc main_arg7)) (m ((c : Thread nD τ).loc main_arg8))) (id (W9 (F := Ideal) m ρ c (Proc.devRef .tc main_cst_15))) Facts₀.pads_S110000x128_S110592x128_05920_000 Facts₀.h_S_ :=
  (s9_v44 (W9 m ρ c)).trans <| by
    rw [show W9 (F := Ideal) m ρ c (Proc.devRef .tc main_v41) = _ from s8_v41 (W8 m ρ c), W8_arg8, W8_arg0, W8_v4, W8_arg7, edgeRows_eq, agg1_eq]

theorem entry0_aux (c : Dev nD) : W13 (F := Ideal) m ρ c (Proc.devRef .tc main_v46)
    = pad S110592x2 ![0, 0] ![592, 0] ![0, 0] (concatenate S110000x2 1 [⟨S110000x1, (broadcastInDim S110000x1 ![0] Facts₀.bcast_S110000_S110000x1_0 (degIn1 (m ((c : Thread nD τ).loc main_arg8))))⟩, ⟨S110000x1, (broadcastInDim S110000x1 ![0] Facts₀.bcast_S110000_S110000x1_0 (Host.rsqrt (degOut2 (m ((c : Thread nD τ).loc main_arg9)))))⟩] Facts₀.concatenates_S110000x1_S110000x1_S110000x2_d1) (id (constant (F := Ideal) S_ .f32 0x3F800000#32)) Facts₀.pads_S110000x2_S110592x2_05920_000 Facts₀.h_S_ :=
  (s9_v46 (W9 m ρ c)).trans <| by
    rw [show W9 (F := Ideal) m ρ c (Proc.devRef .tc main_v42) = _ from s8_v42 (W8 m ρ c), show W9 (F := Ideal) m ρ c (Proc.devRef .tc main_v43) = _ from s8_v43 (W8 m ρ c),
      W8_v9, W8_v14]

theorem entry0_bias (c : Dev nD) : W13 (F := Ideal) m ρ c (Proc.devRef .tc main_v47) = shapeCast S1x256 (m ((c : Thread nD τ).loc main_arg2)) Facts₀.shapeCasts_S256_S1x256 :=
  (s9_v47 (W9 m ρ c)).trans (congrArg (fun z : FVec Ideal S256 .f32 => shapeCast S1x256 z Facts₀.shapeCasts_S256_S1x256) (W9_arg2 m ρ c))

/-! ## The hidden table -/

/-- Region 0's result on the original rows is the reference's hidden table. -/
theorem mid_hidden (c : Dev nD) :
    extractStridedSlice S110000x256 ![0, 0] (W14 (F := Ideal) m ρ c (Proc.devRef .tc main_v48) : FVec Ideal S110592x256 .f32)
        Facts₀.slices_S110592x256_S110000x256_0_0
      = hidden (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg8)) (m ((c : Thread nD τ).loc main_arg9)) := by
  have h48 : W14 (F := Ideal) m ρ c (Proc.devRef .tc main_v48)
      = Region0V.layer (W13 (F := Ideal) m ρ c (Proc.devRef .tc main_v44)) (W13 (F := Ideal) m ρ c (Proc.devRef .tc main_v46)) (W13 (F := Ideal) m ρ c (Proc.devRef .tc main_arg1)) (W13 (F := Ideal) m ρ c (Proc.devRef .tc main_v47)) (W13 (F := Ideal) m ρ c (Proc.devRef .tc main_arg3)) :=
    (W14_arr m ρ c 5).trans (Region0V.final (V13 m ρ) c)
  rw [h48, entry0_agg, entry0_aux, entry0_bias, W13_arg1, W13_arg3]
  funext i
  obtain ⟨r, j, rfl⟩ : ∃ (r : Fin 110000) (j : Fin 256), i = ix2 r j := ⟨i 0, i 1, eq_ix2 i⟩
  rw [LayerRead.layer0_at]
  unfold hidden agg1 degIn1 degOut2
  rw [Cert.ReferenceIdeal.RefValue.hidden_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) r j]
  simp only [Host.rsqrt, Ideal.hostUnary_rsqrt_def]

/-! ## Region 1's input arrays -/

theorem W14_arg9 (c : Dev nD) : W14 (F := Ideal) m ρ c (Proc.devRef .tc main_arg9) = (m ((c : Thread nD τ).loc main_arg9)) :=
  (W14_of_ne m ρ c main_arg9 (by decide)).trans (W13_arg9 m ρ c)
theorem W14_arg10 (c : Dev nD) : W14 (F := Ideal) m ρ c (Proc.devRef .tc main_arg10) = (m ((c : Thread nD τ).loc main_arg10)) :=
  (W14_of_ne m ρ c main_arg10 (by decide)).trans (W13_arg10 m ρ c)
theorem W14_v19 (c : Dev nD) : W14 (F := Ideal) m ρ c (Proc.devRef .tc main_v19) = degIn2 (m ((c : Thread nD τ).loc main_arg10)) :=
  (W14_of_ne m ρ c main_v19 (by decide)).trans ((s8_keep_v19 (W8 m ρ c)).trans (W8_v19 m ρ c))

theorem entry1_agg (c : Dev nD) : W19 (F := Ideal) m ρ c (Proc.devRef .tc main_v61)
    = pad S10240x256 ![0, 0] ![240, 0] ![0, 0] (agg2 (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg8)) (m ((c : Thread nD τ).loc main_arg9)) (m ((c : Thread nD τ).loc main_arg10))) (id (W15 (F := Ideal) m ρ c (Proc.devRef .tc main_cst_20))) Facts₀.pads_S10000x256_S10240x256_02400_000 Facts₀.h_S_ :=
  (s2_v61 (W15 m ρ c)).trans <| by
    rw [show W15 (F := Ideal) m ρ c (Proc.devRef .tc main_v59) = _ from s1_v59 (W14 m ρ c), mid_hidden, W14_arg9, W14_arg10, aggOf_hidden]

theorem entry1_deg (c : Dev nD) : W19 (F := Ideal) m ρ c (Proc.devRef .tc main_v62)
    = pad S10240x1 ![0, 0] ![240, 0] ![0, 0] (broadcastInDim S10000x1 ![0] Facts₀.bcast_S10000_S10000x1_0 (degIn2 (m ((c : Thread nD τ).loc main_arg10)))) (id (constant (F := Ideal) S_ .f32 0x3F800000#32)) Facts₀.pads_S10000x1_S10240x1_02400_000 Facts₀.h_S_ :=
  (s2_v62 (W15 m ρ c)).trans <| by
    rw [show W15 (F := Ideal) m ρ c (Proc.devRef .tc main_v60) = _ from s1_v60 (W14 m ρ c), W14_v19]

theorem entry1_bias (c : Dev nD) : W19 (F := Ideal) m ρ c (Proc.devRef .tc main_v63) = shapeCast S1x128 (m ((c : Thread nD τ).loc main_arg5)) Facts₀.shapeCasts_S128_S1x128 :=
  (s2_v63 (W15 m ρ c)).trans (congrArg (fun z : FVec Ideal S128 .f32 => shapeCast S1x128 z Facts₀.shapeCasts_S128_S1x128)
    ((s1_keep_arg5 (W14 m ρ c)).trans ((W14_of_ne m ρ c main_arg5 (by decide)).trans (W13_arg5 m ρ c))))

theorem entry1_W (c : Dev nD) : W19 (F := Ideal) m ρ c (Proc.devRef .tc main_arg4) = (m ((c : Thread nD τ).loc main_arg4)) :=
  (s12_keep_arg4 (W14 m ρ c)).trans ((W14_of_ne m ρ c main_arg4 (by decide)).trans (W13_arg4 m ρ c))
theorem entry1_attn (c : Dev nD) : W19 (F := Ideal) m ρ c (Proc.devRef .tc main_arg6) = (m ((c : Thread nD τ).loc main_arg6)) :=
  (s12_keep_arg6 (W14 m ρ c)).trans ((W14_of_ne m ρ c main_arg6 (by decide)).trans (W13_arg6 m ρ c))

/-! ## The two results -/

/-- The gated result is the reference's. -/
theorem result_out (c : Dev nD) : W21 (F := Ideal) m ρ c (Proc.devRef .tc main_v65) = val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (s3_v65 (W20 m ρ c)).trans <| by
    have h64 : W20 (F := Ideal) m ρ c (Proc.devRef .tc main_v64_0)
        = Region1V.outArr (W19 (F := Ideal) m ρ c (Proc.devRef .tc main_v61)) (W19 (F := Ideal) m ρ c (Proc.devRef .tc main_v62)) (W19 (F := Ideal) m ρ c (Proc.devRef .tc main_arg4)) (W19 (F := Ideal) m ρ c (Proc.devRef .tc main_v63)) (W19 (F := Ideal) m ρ c (Proc.devRef .tc main_arg6)) :=
      (W20_arr m ρ c 5).trans (Region1V.final_out (V19 m ρ) c)
    rw [h64, entry1_agg, entry1_deg, entry1_bias, entry1_W, entry1_attn]
    funext i
    obtain ⟨r, j, rfl⟩ : ∃ (r : Fin 10000) (j : Fin 128), i = ix2 r j := ⟨i 0, i 1, eq_ix2 i⟩
    rw [LayerRead.out1_at]
    unfold agg2 degIn2
    rw [Cert.ReferenceIdeal.RefValue.out_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) r j]

/-- The gate column is the reference's. -/
theorem result_gate (c : Dev nD) : W21 (F := Ideal) m ρ c (Proc.devRef .tc main_v66) = val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (s3_v66 (W20 m ρ c)).trans <| by
    have h64 : W20 (F := Ideal) m ρ c (Proc.devRef .tc main_v64_1)
        = Region1V.gateArr (W19 (F := Ideal) m ρ c (Proc.devRef .tc main_v61)) (W19 (F := Ideal) m ρ c (Proc.devRef .tc main_v62)) (W19 (F := Ideal) m ρ c (Proc.devRef .tc main_arg4)) (W19 (F := Ideal) m ρ c (Proc.devRef .tc main_v63)) (W19 (F := Ideal) m ρ c (Proc.devRef .tc main_arg6)) :=
      (W20_arr m ρ c 6).trans (Region1V.final_gate (V19 m ρ) c)
    rw [h64, entry1_agg, entry1_deg, entry1_bias, entry1_W, entry1_attn]
    funext i
    obtain ⟨r, q, rfl⟩ : ∃ (r : Fin 10000) (q : Fin 1), i = ix2 r q := ⟨i 0, i 1, eq_ix2 i⟩
    obtain rfl : q = 0 := Subsingleton.elim _ _
    rw [LayerRead.gate1_at]
    unfold agg2 degIn2
    rw [Cert.ReferenceIdeal.RefValue.gate2_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) r]

end Cert.KernelIdeal.HostV

end
-- ==== Proof.lean ====
/-
  The five claims about a two-layer gated graph-convolution encoder.

  Both programs compute, layer by layer: the clipped in- and out-degrees of a sampled bipartite block; the source rows
  scaled by out-degree^(-1/2), gathered along the edges and added per destination node; that table scaled by
  in-degree^(-1/2), times the weights, plus the bias (the linear part); a gate, the logistic function of the linear
  part against a gate column; and the product of the two. The kernel program does the dense part of each layer in a
  pipelined region over row tiles of zero-padded tables, folds layer 2's source-side scale into region 0's result, and
  gathers layer 1's source rows before scaling them; the reference does everything on whole arrays.

  Over the extended reals the two are one function of the arguments, with no condition on the arguments: a result row
  depends on one row of the aggregated table only, so tiling and padding change nothing on the original rows; a matrix
  product into a zero accumulator is the host's product; the kernel's rsqrt and logistic are the host's rsqrt and
  1 / (1 + exp (−x)); and scaling rows commutes with gathering them because both gathers clamp their indices alike.
  The ideal pass rewrote nothing, so the idealized kernel program is the printed one read at the extended reals.
-/
import proofs.«101411_j37503654429370_2_alg».proof.Defs
import proofs.«101411_j37503654429370_2_alg».proof.Proof.Gen.Kernel
import proofs.«101411_j37503654429370_2_alg».proof.Proof.Gen.Kernel.Frame
import proofs.«101411_j37503654429370_2_alg».proof.Proof.Gen.KernelIdeal
import proofs.«101411_j37503654429370_2_alg».proof.Proof.Gen.KernelIdeal.Frame
import proofs.«101411_j37503654429370_2_alg».proof.Proof.Gen.ReferenceIdeal
import proofs.«101411_j37503654429370_2_alg».proof.Proof.Gen.ReferenceIdeal.Run
import proofs.«101411_j37503654429370_2_alg».proof.Proof.Gen.ReferenceIdeal.Read
import proofs.«101411_j37503654429370_2_alg».proof.Proof.Gen.Pre_finite_inputs
import proofs.«101411_j37503654429370_2_alg».proof.Proof.KernelRun
import proofs.«101411_j37503654429370_2_alg».proof.Proof.KernelValue
import Idealize.ShloMosaic.Adequacy
import Idealize.ShloMosaic.Init

set_option maxRecDepth 16384

noncomputable section

namespace Cert.Proof

open Idealize.ShloMosaic Idealize.ShloMosaic.TcCoe Idealize.SL.Sem

/-- The printed kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and leaves its arguments as launched: its run, the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories agreeing on the arguments both programs end with the same two results: the reference's last stages
    of the arguments. -/
theorem algebraic : Cert.algebraic_KernelIdeal_ReferenceIdeal := by
  intro m ρ m' ρ' _ hagree
  refine ⟨fun c => Cert.ReferenceIdeal.Read.val_main_v79 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => Cert.ReferenceIdeal.Read.val_main_v77 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.HostV.result_out m ρ c),
        (h c).2.1.trans (Cert.KernelIdeal.HostV.result_gate m ρ c), (h c).2.2⟩)
      (Cert.KernelIdeal.RunV.run (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨e0, e1, e2, e3, e4, e5, e6, e7, e8, e9, e10⟩ := hagree c
      rw [Cert.ReferenceIdeal.Read.val_main_v79_eq, e0, e1, e2, e3, e4, e5, e6, e7, e8, e9, e10]
    · obtain ⟨e0, e1, e2, e3, e4, e5, e6, e7, e8, e9, e10⟩ := hagree c
      rw [Cert.ReferenceIdeal.Read.val_main_v77_eq, e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
